-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S32768x1024 : Shape := ⟨2, ![32768, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_

variable [Facts]

def fn {F : FTy → Type} [FloatOps F] (main_arg0 : FVec F S8192x1024 .f32) (main_arg1 : FVec F S32768x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  main_v8
-- ==== Kernel.lean ====
abbrev S8192x1024 : Shape := ⟨2, ![8192, 1024]⟩
abbrev S32768x1024 : Shape := ⟨2, ![32768, 1024]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S32768x1 : Shape := ⟨2, ![32768, 1]⟩
abbrev S1x32768 : Shape := ⟨2, ![1, 32768]⟩
abbrev S1x1024 : Shape := ⟨2, ![1, 1024]⟩
abbrev S8192 : Shape := ⟨1, ![8192]⟩
abbrev S_ : Shape := ⟨0, ![]⟩

abbrev nBuf : Space → Nat
  | .hbm => 18
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S32768x1024, .f32⟩
  | .hbm, ⟨2, _⟩ => ⟨S8192x1024, .bf16⟩
  | .hbm, ⟨3, _⟩ => ⟨S8192x1, .f32⟩
  | .hbm, ⟨4, _⟩ => ⟨S32768x1024, .bf16⟩
  | .hbm, ⟨5, _⟩ => ⟨S32768x1, .f32⟩
  | .hbm, ⟨6, _⟩ => ⟨S1x32768, .f32⟩
  | .hbm, ⟨7, _⟩ => ⟨S8192x1, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1, .f32⟩
  | .local _ .vmem, ⟨11, _⟩ => ⟨S1024x1, .f32⟩
  | .local _ .vmem, ⟨12, _⟩ => ⟨S1024x1024, .bf16⟩
  | .local _ .vmem, ⟨13, _⟩ => ⟨S1024x1024, .bf16⟩
  | .local _ .vmem, ⟨14, _⟩ => ⟨S1024x1, .f32⟩
  | .local _ .vmem, ⟨15, _⟩ => ⟨S1024x1, .f32⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | .local _ .vmem, ⟨23, _⟩ => ⟨S1024x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_scratch0 : Ref sig .tc := ⟨.vmem, 22, rfl⟩
abbrev cc2_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 32], ![false, false]⟩

def k2_cond4 (i : grid2.Coords) : BitVec 1 :=
  let arg1 : BitVec 32 := BitVec.ofNat 32 (i 1).val
  let c31_i32 : BitVec 32 := 31#32
  let v21 : BitVec 1 := Scalar.cmpi .eq arg1 c31_i32
  let v22 : BitVec 32 := Scalar.extui v21
  let c0_i32_9 : BitVec 32 := 0#32
  let v23 : BitVec 1 := Scalar.cmpi .ne v22 c0_i32_9
  v23

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S32768x1_S1x32768 : S32768x1.ShapeCasts S1x32768
  shapeCasts_S1024x1_S1024x1 : S1024x1.ShapeCasts S1024x1
  shapeCasts_S1024x1024_S1024x1024 : S1024x1024.ShapeCasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  iota_S1024x1024_d0_w32 : S1024x1024.Iotas .tc 32 [0]
  iota_S1024x1024_d1_w32 : S1024x1024.Iotas .tc 32 [1]
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S32768x1024.size a
  hwx1_0 : ∀ i : grid1.Coords, EltTy.bits .f32 = 32 ∨ (Rect.block (s := S32768x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S32768x1024.size a
  hwx1_1 : ∀ i : grid1.Coords, EltTy.bits .bf16 = 32 ∨ (Rect.block (s := S32768x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S32768x1.size a
  hwx1_2 : ∀ i : grid1.Coords, EltTy.bits .f32 = 32 ∨ (Rect.block (s := S32768x1) S1024x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S8192x1.size a
  hwx2_1 : ∀ i : grid2.Coords, EltTy.bits .f32 = 32 ∨ (Rect.block (s := S8192x1) S1024x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S32768x1024.size a
  hwx2_2 : ∀ i : grid2.Coords, EltTy.bits .bf16 = 32 ∨ (Rect.block (s := S32768x1024) S1024x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x32768.size a
  hwx2_3 : ∀ i : grid2.Coords, EltTy.bits .f32 = 32 ∨ (Rect.block (s := S1x32768) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S8192x1.size a
  hwx2_4 : ∀ i : grid2.Coords, EltTy.bits .f32 = 32 ∨ (Rect.block (s := S8192x1) S1024x1.size (cc2_transform_4 i) (hinb2_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1024x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S1024x1024.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_1) S1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1_0) S1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1024x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond4 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S32768x1024 : Shape := ⟨2, ![32768, 1024]⟩
abbrev S_ : Shape := ⟨0, ![]⟩
abbrev S8192 : Shape := ⟨1, ![8192]⟩
abbrev S8192x1 : Shape := ⟨2, ![8192, 1]⟩
abbrev S32768 : Shape := ⟨1, ![32768]⟩
abbrev S32768x1 : Shape := ⟨2, ![32768, 1]⟩
abbrev S1x32768 : Shape := ⟨2, ![1, 32768]⟩
abbrev S8192x32768 : Shape := ⟨2, ![8192, 32768]⟩
abbrev S1024x32768 : Shape := ⟨2, ![1024, 32768]⟩
abbrev S8192x2 : Shape := ⟨2, ![8192, 2]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S32768x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S32768x1024, .f32⟩
  | .hbm, ⟨27, _⟩ => ⟨S_, .f32⟩
  | .hbm, ⟨28, _⟩ => ⟨S32768, .f32⟩
  | .hbm, ⟨29, _⟩ => ⟨S1x32768, .f32⟩
  | .hbm, ⟨30, _⟩ => ⟨S8192x32768, .f32⟩
  | .hbm, ⟨31, _⟩ => ⟨S8192x32768, .f32⟩
  | .hbm, ⟨32, _⟩ => ⟨S8192x32768, .f32⟩
  | .hbm, ⟨33, _⟩ => ⟨S1024x32768, .f32⟩
  | .hbm, ⟨34, _⟩ => ⟨S8192x32768, .f32⟩
  | .hbm, ⟨35, _⟩ => ⟨S_, .f32⟩
  | .hbm, ⟨36, _⟩ => ⟨S8192x32768, .f32⟩
  | .hbm, ⟨37, _⟩ => ⟨S8192x32768, .f32⟩
  | .hbm, ⟨38, _⟩ => ⟨S8192x32768, .f32⟩
  | .hbm, ⟨39, _⟩ => ⟨S_, .f32⟩
  | .hbm, ⟨40, _⟩ => ⟨S8192x32768, .f32⟩
  | .hbm, ⟨41, _⟩ => ⟨S8192x32768, .f32⟩
  | .hbm, ⟨42, _⟩ => ⟨S8192x32768, .f32⟩
  | .hbm, ⟨43, _⟩ => ⟨S8192, .i32⟩
  | .hbm, ⟨44, _⟩ => ⟨S_, .i32⟩
  | .hbm, ⟨45, _⟩ => ⟨S8192, .i32⟩
  | .hbm, ⟨46, _⟩ => ⟨S8192, .i1⟩
  | .hbm, ⟨47, _⟩ => ⟨S_, .i32⟩
  | .hbm, ⟨48, _⟩ => ⟨S8192, .i32⟩
  | .hbm, ⟨49, _⟩ => ⟨S8192, .i32⟩
  | .hbm, ⟨50, _⟩ => ⟨S8192, .i32⟩
  | .hbm, ⟨51, _⟩ => ⟨S_, .i32⟩
  | .hbm, ⟨52, _⟩ => ⟨S8192, .i32⟩
  | .hbm, ⟨53, _⟩ => ⟨S8192, .i1⟩
  | .hbm, ⟨54, _⟩ => ⟨S_, .i32⟩
  | .hbm, ⟨55, _⟩ => ⟨S8192, .i32⟩
  | .hbm, ⟨56, _⟩ => ⟨S8192, .i32⟩
  | .hbm, ⟨57, _⟩ => ⟨S8192, .i32⟩
  | .hbm, ⟨58, _⟩ => ⟨S8192x1, .i32⟩
  | .hbm, ⟨59, _⟩ => ⟨S8192x1, .i32⟩
  | .hbm, ⟨60, _⟩ => ⟨S8192x2, .i32⟩
  | .hbm, ⟨61, _⟩ => ⟨S_, .f32⟩
  | .hbm, ⟨62, _⟩ => ⟨S8192, .f32⟩
  | .hbm, ⟨63, _⟩ => ⟨S8192x32768, .f32⟩
  | .hbm, ⟨64, _⟩ => ⟨S_, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S8192, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_cst_12 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  reducesTo_S32768x1024_S32768_d1 : S32768x1024.ReducesTo [1] S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  bcast_S32768_S1x32768_1 : S32768.BroadcastsInDim S1x32768 (![1] : Fin 1 → Fin S1x32768.rank)
  bcast_S8192x1_S8192x32768_0_1 : S8192x1.BroadcastsInDim S8192x32768 (![0, 1] : Fin 2 → Fin S8192x32768.rank)
  bcast_S1x32768_S8192x32768_0_1 : S1x32768.BroadcastsInDim S8192x32768 (![0, 1] : Fin 2 → Fin S8192x32768.rank)
  transposes_S32768x1024_S1024x32768_1_0 : S32768x1024.Transposes [1, 0] S1024x32768
  bcast_S_S8192x32768 : S_.BroadcastsInDim S8192x32768 (![] : Fin 0 → Fin S8192x32768.rank)
  bcast_S_S8192 : S_.BroadcastsInDim S8192 (![] : Fin 0 → Fin S8192.rank)
  concatenates_S8192x1_S8192x1_S8192x2_d1 : Shape.Concatenates [S8192x1, S8192x1] S8192x2 1
  reducesTo_S8192x32768_S8192_d1 : S8192x32768.ReducesTo [1] S8192
  reducesTo_S8192_S_d0 : S8192.ReducesTo [0] S_
  dot_S8192x1024_S1024x32768_S8192x32768_1_0_0_1_n_n_wf : DotDims.WF S8192x1024 S1024x32768 S8192x32768 [1] [0] [0] [1] [] []
  scatter_S8192x32768_S8192x2_S8192_n_01_01_1_wf : ScatterDims.WF S8192x32768 S8192x2 S8192 [] [0, 1] [0, 1] 1

variable [Facts₀]

def dot_S8192x1024_S1024x32768_S8192x32768_1_0_0_1_n_n : DotDims S8192x1024 S1024x32768 S8192x32768 where
  lhsContracting := [1]
  rhsContracting := [0]
  lhsNonContracting := [0]
  rhsNonContracting := [1]
  lhsBatch := []
  rhsBatch := []
  wf := dot_S8192x1024_S1024x32768_S8192x32768_1_0_0_1_n_n_wf
def scatter_S8192x32768_S8192x2_S8192_n_01_01_1 : ScatterDims S8192x32768 S8192x2 S8192 where
  updateWindowDims := []
  insertedWindowDims := [0, 1]
  scatterDimsToOperandDims := [0, 1]
  indexVectorDim := 1
  wf := scatter_S8192x32768_S8192x2_S8192_n_01_01_1_wf

class Facts : Prop extends Facts₀ where

variable [Facts]
-- ==== Proof.NormRegionsBits.lean ====
/-
  The two row-normalising regions, each at the buffer contents `V` it is entered with.

  At every grid point the body reads one block `x` of 1024 rows of length 1024 and leaves, in its first output
  buffer, every row of `x` divided by `max (√(Σ_q x r q ²)) ε` (narrowed to the 16-bit format), and in its second
  output buffer the column of the squared lengths of the normalised rows. Both output buffers are loaded before
  they are stored; the loaded values are not used, and each store covers its whole buffer, so what the buffers
  held before the body does not matter.

  Per region: a window's block at a point (`nblkK`), what the body leaves in the two output buffers as functions
  of the input block (`nOutAK`, `nOutBK`), the body's triple (`sound_normK`), the pipeline's proof data (`ndatK`)
  and the body obligation at every point (`nbodyK`).
-/
import proofs.«152194_j74887049773256_2_alg».proof.Proof.Gen.Kernel.Launch
import proofs.«152194_j74887049773256_2_alg».proof.Proof.Gen.Kernel.Skeleton
import proofs.«152194_j74887049773256_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two rectangles the body reads and writes through: each is its whole buffer -/

/-- The whole 1024 × 1024 block. -/
abbrev rSq : Rect S1024x1024 := Rect.unit (s := S1024x1024) ![0, 0] S1024x1024.size inb_S1024x1024_S1024x1024_0_0
/-- The whole 1024 × 1 column. -/
abbrev rCol : Rect S1024x1 := Rect.unit (s := S1024x1) ![0, 0] S1024x1.size inb_S1024x1_S1024x1_0_0

/-- The zero offsets of rank 2 are the constant zero function. -/
theorem zeros2 : (![0, 0] : Fin 2 → ℕ) = fun _ => 0 := by
  funext a; fin_cases a <;> rfl

/-- One store through the whole block covers it. -/
theorem coverSq {e : EltTy} (p0 : S1024x1024.Idx → Elt F e) (y : S1024x1024.Idx) :
    ∃ pc ∈ ([⟨rSq, p0⟩] : List (View.Piece (Elt F) S1024x1024 e)), y ∈ pc.1.set :=
  ⟨_, List.mem_singleton_self _, View.mem_set_unit_zero (S := S1024x1024) zeros2 inb_S1024x1024_S1024x1024_0_0 y⟩

/-- One store through the whole column covers it. -/
theorem coverCol {e : EltTy} (p0 : S1024x1.Idx → Elt F e) (y : S1024x1.Idx) :
    ∃ pc ∈ ([⟨rCol, p0⟩] : List (View.Piece (Elt F) S1024x1 e)), y ∈ pc.1.set :=
  ⟨_, List.mem_singleton_self _, View.mem_set_unit_zero (S := S1024x1) zeros2 inb_S1024x1_S1024x1_0_0 y⟩

section Regions
-- the buffer contents when a region is entered
variable (V : (c : Dev nD) → (b : Ref sig .tc) → Buf (Elt F) ((c : Thread nD τ).loc b))

/-! # Region 0: the normalisation of the first matrix, at the entry contents `V` -/

/-- Window `w`'s block at point `t`, read off its array as the region finds it. -/
def nblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first output buffer after the body: the block's rows divided by their lengths, narrowed. -/
def nOutA0 (x0 : Vec F S1024x1024 .f32) : Vec F S1024x1024 .bf16 :=
  View.canon [⟨rSq, k0_pay1 (View.ld x0 rSq)⟩]

/-- The second output buffer after the body: the squared lengths of the normalised rows. -/
def nOutB0 (x0 : Vec F S1024x1024 .f32) : Vec F S1024x1 .f32 :=
  View.canon [⟨rCol, k0_pay2 (View.ld x0 rSq)⟩]

set_option maxHeartbeats 1000000 in
/-- The body on whole staging memrefs, the input's at contents `x0` and the outputs' at anything, runs to the
    continuation holding the input's as it was and the outputs' at `nOutA0 x0`, `nOutB0 x0`. -/
theorem sound_norm0 (c : Dev nD) (E : Set ℕ) (i : grid0.Coords)
    (arg1 : Memref sig .tc .vmem S1024x1024 .f32) (harg1 : arg1.IsWhole)
    (arg2 : Memref sig .tc .vmem S1024x1024 .bf16) (harg2 : arg2.IsWhole)
    (arg3 : Memref sig .tc .vmem S1024x1 .f32) (harg3 : arg3.IsWhole)
    (x0 : Vec F S1024x1024 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (nOutA0 x0) ∗ owns (c : Thread nD τ) arg3 fullShare (nOutB0 x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverSq _)
  iexists _; isplitr
  swap; · iexact H2
  ipureintro
  exact View.read_writes_eq_canon _ _ _ (coverCol _)

/-! ## The pipeline's proof data -/

/-- Input window 0's current staging buffer holds its block at every point, fetched there or not, for any proof
    data whose array is `V`'s and whose body leaves the block in place: the window is fetched whole at every point
    and is never idle. -/
theorem nbefore0_of {c : Dev nD} (dat : Dat τ (Elt F) Unit ℕ (UR sig nD τ) ℕ cfg0 c) (hA : dat.A 0 = V c (Pipeline.arrRef spec0 0))
    (hafter : ∀ t, dat.after 0 t = nblk0 V c 0 t) (t : Fin cfg0.N) (d) : dat.before 0 t d = nblk0 V c 0 t :=
  (dat.before_in_eq_fetched 0 rfl (fun _ => rfl) (fun _ _ _ => rfl) (fun t => by rw [hafter]; unfold Dat.blockOf nblk0; rw [hA]; try rfl) t d).trans
    (by unfold Dat.fetched Dat.blockOf nblk0; rw [hA]; try rfl)

/-- The proof data of the region on core `c`: the arrays as the region finds them; after the body at point `t` the
    input's buffer at its block and the outputs' at `nOutA0`, `nOutB0` of that block; the invariant that leaves the
    scoped rest and the generator register untouched; nothing owed; full shares. -/
def ndat0 (c : Dev nD) : Dat τ (Elt F) Unit ℕ (UR sig nD τ) ℕ cfg0 c where
  A w := V c (Pipeline.arrRef spec0 w)
  after w t := match w with
    | ⟨0, _⟩ => nblk0 V c 0 t
    | ⟨1, _⟩ => nOutA0 (nblk0 V c 0 t)
    | ⟨2, _⟩ => nOutB0 (nblk0 V c 0 t)
  Φ _ := Pipeline.ΦA spec0 c
  q _ := fullShare
  owed _ := 0

/-- The proof data's arrays are the region-entry contents. -/
theorem ndat0_A (c : Dev nD) (w : Fin cfg0.W) : (ndat0 V c).A w = V c (Pipeline.arrRef spec0 w) := by
  dsimp only [ndat0]

/-- What the body leaves, window by window. -/
theorem ndat0_after0 (c : Dev nD) (t : Fin cfg0.N) : (ndat0 V c).after 0 t = nblk0 V c 0 t := by dsimp only [ndat0]
theorem ndat0_after1 (c : Dev nD) (t : Fin cfg0.N) : (ndat0 V c).after 1 t = nOutA0 (nblk0 V c 0 t) := by dsimp only [ndat0]
theorem ndat0_after2 (c : Dev nD) (t : Fin cfg0.N) : (ndat0 V c).after 2 t = nOutB0 (nblk0 V c 0 t) := by dsimp only [ndat0]

/-- The input's current staging buffer holds its block at every point. -/
theorem nbefore0 (c : Dev nD) (t : Fin cfg0.N) (d) : (ndat0 V c).before 0 t d = nblk0 V c 0 t :=
  nbefore0_of V (ndat0 V c) (ndat0_A V c 0) (ndat0_after0 V c) t d

/-! ## The body obligation, at a generic point -/

/-- What the body is called with at point `t`, the windows one by one, -/
def nbodyPre0 (c : Dev nD) (t : Fin cfg0.N) : sProp 𝕄 :=
  iprop((ndat0 V c).Φ t.castSucc ∗ (ndat0 V c).owesAt () t.castSucc
    ∗ (∃ d, owns (c : Thread nD τ) (st0_0 t) fullShare ((ndat0 V c).before 0 t d))
    ∗ (∃ d, owns (c : Thread nD τ) (st0_1 t) fullShare ((ndat0 V c).before 1 t d))
    ∗ (∃ d, owns (c : Thread nD τ) (st0_2 t) fullShare ((ndat0 V c).before 2 t d)))

/-- and what it returns. -/
def nbodyPost0 (c : Dev nD) (t : Fin cfg0.N) : sProp 𝕄 :=
  iprop((ndat0 V c).Φ t.succ ∗ (ndat0 V c).owesAt () t.succ
    ∗ owns (c : Thread nD τ) (st0_0 t) fullShare ((ndat0 V c).after 0 t)
    ∗ owns (c : Thread nD τ) (st0_1 t) fullShare ((ndat0 V c).after 1 t)
    ∗ owns (c : Thread nD τ) (st0_2 t) fullShare ((ndat0 V c).after 2 t))

/-- The body at any point: the input's memref holds its block, so `sound_norm0` applies; the invariant and the
    core's debts pass through unread. -/
theorem sound_nbody0 (c : Dev nD) (t : Fin cfg0.N) :
    nbodyPre0 V c t ⊢ wp frame (wpE (defs₀ (F := F)) Variants.none c none) Set.univ (bodyAt0 t) (fun _ => nbodyPost0 V c t) := by
  unfold nbodyPre0 nbodyPost0 bodyAt0
  simp only [nbefore0]
  rw [show (ndat0 V c).Φ t.succ = (ndat0 V c).Φ t.castSucc from rfl,
    show (ndat0 V c).owesAt () t.succ = (ndat0 V c).owesAt () t.castSucc from rfl,
    ndat0_after0, ndat0_after1, ndat0_after2]
  iintro ⟨HΦ, Ho, ⟨%d0, H0⟩, ⟨%d1, H1⟩, ⟨%d2, H2⟩⟩
  iapply (sound_norm0 c Set.univ _ _ _ _ _ _ _ (nblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem nbody0 (c : Dev nD) : BodyObligation (ndat0 (F := F) V c) (defs₀ (F := F)) Variants.none () Set.univ := fun t => by
  rw [bigSep_W0, bigSep_W0]
  exact sound_nbody0 V c t

/-! # Region 1: the normalisation of the second matrix, at the entry contents `V` -/

/-- Window `w`'s block at point `t`, read off its array as the region finds it. -/
def nblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first output buffer after the body: the block's rows divided by their lengths, narrowed. -/
def nOutA1 (x0 : Vec F S1024x1024 .f32) : Vec F S1024x1024 .bf16 :=
  View.canon [⟨rSq, k1_pay1 (View.ld x0 rSq)⟩]

/-- The second output buffer after the body: the squared lengths of the normalised rows. -/
def nOutB1 (x0 : Vec F S1024x1024 .f32) : Vec F S1024x1 .f32 :=
  View.canon [⟨rCol, k1_pay2 (View.ld x0 rSq)⟩]

set_option maxHeartbeats 1000000 in
/-- The body on whole staging memrefs, the input's at contents `x0` and the outputs' at anything, runs to the
    continuation holding the input's as it was and the outputs' at `nOutA1 x0`, `nOutB1 x0`. -/
theorem sound_norm1 (c : Dev nD) (E : Set ℕ) (i : grid1.Coords)
    (arg1 : Memref sig .tc .vmem S1024x1024 .f32) (harg1 : arg1.IsWhole)
    (arg2 : Memref sig .tc .vmem S1024x1024 .bf16) (harg2 : arg2.IsWhole)
    (arg3 : Memref sig .tc .vmem S1024x1 .f32) (harg3 : arg3.IsWhole)
    (x0 : Vec F S1024x1024 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (nOutA1 x0) ∗ owns (c : Thread nD τ) arg3 fullShare (nOutB1 x0)) -∗ K ⟨⟩))
      ⊢ wp frame (wpE (defs₀ (F := F)) Variants.none c none) E (cc1__normalize_kernel i arg1 harg1 arg2 harg2 arg3 harg3) K := by
  simp only [cc1__normalize_kernel_eq_skeleton]; unfold cc1__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverSq _)
  iexists _; isplitr
  swap; · iexact H2
  ipureintro
  exact View.read_writes_eq_canon _ _ _ (coverCol _)

/-! ## The pipeline's proof data -/

/-- Input window 0's current staging buffer holds its block at every point, fetched there or not, for any proof
    data whose array is `V`'s and whose body leaves the block in place: the window is fetched whole at every point
    and is never idle. -/
theorem nbefore1_of {c : Dev nD} (dat : Dat τ (Elt F) Unit ℕ (UR sig nD τ) ℕ cfg1 c) (hA : dat.A 0 = V c (Pipeline.arrRef spec1 0))
    (hafter : ∀ t, dat.after 0 t = nblk1 V c 0 t) (t : Fin cfg1.N) (d) : dat.before 0 t d = nblk1 V c 0 t :=
  (dat.before_in_eq_fetched 0 rfl (fun _ => rfl) (fun _ _ _ => rfl) (fun t => by rw [hafter]; unfold Dat.blockOf nblk1; rw [hA]; try rfl) t d).trans
    (by unfold Dat.fetched Dat.blockOf nblk1; rw [hA]; try rfl)

/-- The proof data of the region on core `c`: the arrays as the region finds them; after the body at point `t` the
    input's buffer at its block and the outputs' at `nOutA1`, `nOutB1` of that block; the invariant that leaves the
    scoped rest and the generator register untouched; nothing owed; full shares. -/
def ndat1 (c : Dev nD) : Dat τ (Elt F) Unit ℕ (UR sig nD τ) ℕ cfg1 c where
  A w := V c (Pipeline.arrRef spec1 w)
  after w t := match w with
    | ⟨0, _⟩ => nblk1 V c 0 t
    | ⟨1, _⟩ => nOutA1 (nblk1 V c 0 t)
    | ⟨2, _⟩ => nOutB1 (nblk1 V c 0 t)
  Φ _ := Pipeline.ΦA spec1 c
  q _ := fullShare
  owed _ := 0

/-- The proof data's arrays are the region-entry contents. -/
theorem ndat1_A (c : Dev nD) (w : Fin cfg1.W) : (ndat1 V c).A w = V c (Pipeline.arrRef spec1 w) := by
  dsimp only [ndat1]

/-- What the body leaves, window by window. -/
theorem ndat1_after0 (c : Dev nD) (t : Fin cfg1.N) : (ndat1 V c).after 0 t = nblk1 V c 0 t := by dsimp only [ndat1]
theorem ndat1_after1 (c : Dev nD) (t : Fin cfg1.N) : (ndat1 V c).after 1 t = nOutA1 (nblk1 V c 0 t) := by dsimp only [ndat1]
theorem ndat1_after2 (c : Dev nD) (t : Fin cfg1.N) : (ndat1 V c).after 2 t = nOutB1 (nblk1 V c 0 t) := by dsimp only [ndat1]

/-- The input's current staging buffer holds its block at every point. -/
theorem nbefore1 (c : Dev nD) (t : Fin cfg1.N) (d) : (ndat1 V c).before 0 t d = nblk1 V c 0 t :=
  nbefore1_of V (ndat1 V c) (ndat1_A V c 0) (ndat1_after0 V c) t d

/-! ## The body obligation, at a generic point -/

/-- What the body is called with at point `t`, the windows one by one, -/
def nbodyPre1 (c : Dev nD) (t : Fin cfg1.N) : sProp 𝕄 :=
  iprop((ndat1 V c).Φ t.castSucc ∗ (ndat1 V c).owesAt () t.castSucc
    ∗ (∃ d, owns (c : Thread nD τ) (st1_0 t) fullShare ((ndat1 V c).before 0 t d))
    ∗ (∃ d, owns (c : Thread nD τ) (st1_1 t) fullShare ((ndat1 V c).before 1 t d))
    ∗ (∃ d, owns (c : Thread nD τ) (st1_2 t) fullShare ((ndat1 V c).before 2 t d)))

/-- and what it returns. -/
def nbodyPost1 (c : Dev nD) (t : Fin cfg1.N) : sProp 𝕄 :=
  iprop((ndat1 V c).Φ t.succ ∗ (ndat1 V c).owesAt () t.succ
    ∗ owns (c : Thread nD τ) (st1_0 t) fullShare ((ndat1 V c).after 0 t)
    ∗ owns (c : Thread nD τ) (st1_1 t) fullShare ((ndat1 V c).after 1 t)
    ∗ owns (c : Thread nD τ) (st1_2 t) fullShare ((ndat1 V c).after 2 t))

/-- The body at any point: the input's memref holds its block, so `sound_norm1` applies; the invariant and the
    core's debts pass through unread. -/
theorem sound_nbody1 (c : Dev nD) (t : Fin cfg1.N) :
    nbodyPre1 V c t ⊢ wp frame (wpE (defs₀ (F := F)) Variants.none c none) Set.univ (bodyAt1 t) (fun _ => nbodyPost1 V c t) := by
  unfold nbodyPre1 nbodyPost1 bodyAt1
  simp only [nbefore1]
  rw [show (ndat1 V c).Φ t.succ = (ndat1 V c).Φ t.castSucc from rfl,
    show (ndat1 V c).owesAt () t.succ = (ndat1 V c).owesAt () t.castSucc from rfl,
    ndat1_after0, ndat1_after1, ndat1_after2]
  iintro ⟨HΦ, Ho, ⟨%d0, H0⟩, ⟨%d1, H1⟩, ⟨%d2, H2⟩⟩
  iapply (sound_norm1 c Set.univ _ _ _ _ _ _ _ (nblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem nbody1 (c : Dev nD) : BodyObligation (ndat1 (F := F) V c) (defs₀ (F := F)) Variants.none () Set.univ := fun t => by
  rw [bigSep_W1, bigSep_W1]
  exact sound_nbody1 V c t

end Regions

end Cert.Kernel.Hand

end
-- ==== Proof.NNDefsBits.lean ====
/-
  The nearest-neighbour region (the third pallas_call): its grid is 8 row tiles by 32 column tiles, row-major, so
  point `t` is row tile `t / 32`, column tile `t % 32`. The body branches on four conditions of the point:
  first column tile (reset both accumulators), off the diagonal tile (plain running minimum), on the diagonal
  tile (masked minimum, and the diagonal entry kept apart), last column tile (finalize into the output block).
  Here: the conditions as the body computes them, decided over the grid; where the output window is idle;
  the memrefs the body is called with; and the region's invariant with the two accumulators named.
-/
import proofs.«152194_j74887049773256_2_alg».proof.Proof.Gen.Kernel.Launch
import proofs.«152194_j74887049773256_2_alg».proof.Proof.Gen.Kernel.Skeleton
import proofs.«152194_j74887049773256_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four conditions, decided over the grid -/

/-- "first column tile": the chain of the first `scf.if`. -/
abbrev condFirst (i : grid2.Coords) : Prop :=
  (Scalar.cmpi .ne (Scalar.extui (Scalar.cmpi .eq (BitVec.ofNat 32 (i 1).val) 0#32)) 0#32) = 1#1
/-- "off the diagonal tile": the chain of the second `scf.if`. -/
abbrev condOff (i : grid2.Coords) : Prop :=
  (Scalar.cmpi .ne (Scalar.extui (Scalar.cmpi .ne (BitVec.ofNat 32 (i 0).val) (BitVec.ofNat 32 (i 1).val))) 0#32) = 1#1
/-- "on the diagonal tile": the chain of the third `scf.if`. -/
abbrev condDiag (i : grid2.Coords) : Prop :=
  (Scalar.cmpi .ne (Scalar.extui (Scalar.cmpi .eq (BitVec.ofNat 32 (i 0).val) (BitVec.ofNat 32 (i 1).val))) 0#32) = 1#1
/-- "last column tile": the printed condition of the fourth `scf.if`. -/
abbrev condLast (i : grid2.Coords) : Prop := k2_cond4 i = 1#1

theorem hcondFirst : ∀ t : Fin cfg2.N, condFirst (grid2.coords t) ↔ t.val % 32 = 0 :=
  (by decide +kernel : ∀ t : Fin grid2.N, condFirst (grid2.coords t) ↔ t.val % 32 = 0)
theorem hcondOff : ∀ t : Fin cfg2.N, condOff (grid2.coords t) ↔ t.val / 32 ≠ t.val % 32 :=
  (by decide +kernel : ∀ t : Fin grid2.N, condOff (grid2.coords t) ↔ t.val / 32 ≠ t.val % 32)
theorem hcondDiag : ∀ t : Fin cfg2.N, condDiag (grid2.coords t) ↔ t.val / 32 = t.val % 32 :=
  (by decide +kernel : ∀ t : Fin grid2.N, condDiag (grid2.coords t) ↔ t.val / 32 = t.val % 32)
theorem hcondLast : ∀ t : Fin cfg2.N, condLast (grid2.coords t) ↔ t.val % 32 = 31 :=
  (by decide +kernel : ∀ t : Fin grid2.N, condLast (grid2.coords t) ↔ t.val % 32 = 31)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
/-- The output block is stored only at the last column tile: elsewhere the window is idle and not written back. -/
theorem idle2_4 : ∀ t : Fin cfg2.N, ¬condLast (grid2.coords t) → cfg2.idle 4 (grid2.coords t) = true := by decide +kernel
theorem noFlush2_4 : ∀ t : Fin cfg2.N, ¬condLast (grid2.coords t) → (cfg2.win 4).flush t = false := by decide +kernel
theorem live2_4 : ∀ t : Fin cfg2.N, condLast (grid2.coords t) → cfg2.idle 4 (grid2.coords t) = false := by decide +kernel

/-! ## The memrefs the body is called with -/

abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1 .f32 := win2_4.stage (cfg2.slots t 4)
abbrev hs2_4 (t : Fin cfg2.N) : (ms2_4 t).IsWhole := hstage2_4 ((cfg2.slots t 4).cast nbuf2_4)
/-- The running minimum over the off-diagonal columns, and the diagonal entry: the kernel's two scratch columns. -/
abbrev accM : Memref sig .tc .vmem S1024x1 .f32 := Memref.whole cc2_scratch0
abbrev diagM : Memref sig .tc .vmem S1024x1 .f32 := Memref.whole cc2_scratch1
abbrev accV : View sig .tc .vmem S1024x1 .f32 := accM.view
abbrev diagV : View sig .tc .vmem S1024x1 .f32 := diagM.view
abbrev outV : View sig .tc .vmem S1024x1 .f32 := (Memref.whole cc2_stg4_0 : Memref sig .tc .vmem S1024x1 .f32).view

/-- The other regions' staging buffers, scoped and untouched here, each at some contents; `T` rides at the end. -/
def otherScoped (c : Dev nD) (T : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ T)

/-- The class invariant of the region, with the two accumulators as memrefs owned at some contents. -/
theorem PhiA2_eq (c : Dev nD) :
    (Pipeline.ΦA spec2 c : sProp 𝕄)
      = iprop(otherScoped c iprop((∃ d, owns (c : Thread nD τ) accM fullShare d) ∗ (∃ d, owns (c : Thread nD τ) diagM fullShare d)) ∗ (∃ r, prngReg c r)) := by
  unfold Pipeline.ΦA otherScoped; rw [scopedRest2_eq]; simp only [accM, diagM, owns_whole]; try rfl

end Cert.Kernel.Hand

end
-- ==== Proof.NNRunFirstBits.lean ====
/-
  The nearest-neighbour body at the very first point (row tile 0, column tile 0, which is also the diagonal tile):
  both accumulators are reset to +inf, then the running minimum takes the masked row minima of the tile and the
  diagonal entry is recorded. The output block is left alone.
-/
import proofs.«152194_j74887049773256_2_alg».proof.Proof.NNDefsBits
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces both accumulators end with, and the body's triple at that point. -/
noncomputable def runFirst (c : Dev nD) (i : grid2.Coords)
    (arg2 : Memref sig .tc .vmem S1024x1024 .bf16) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : condFirst i) (hc2 : ¬condOff i) (hc3 : condDiag i) (hc4 : ¬condLast i)
    (x0 : Vec F S1024x1024 .bf16) (x1 : Vec F S1024x1 .f32) (x2 : Vec F S1024x1024 .bf16) (x3 : Vec F S1x1024 .f32) :
    Σ' (LA : List (View.Piece (Elt F) S1024x1 .f32)), { LD : List (View.Piece (Elt F) S1024x1 .f32) //
      ∀ (xo xa xd : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo ∗ owns (c : Thread nD τ) arg7 fullShare xa
            ∗ owns (c : Thread nD τ) arg8 fullShare xd
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
                ∗ (∃ f, arg7.view.loc (c : Thread nD τ) ↦[arg7.view.set]{fullShare} arg7.view.writes (Elt F) f LA)
                ∗ (∃ f, arg8.view.loc (c : Thread nD τ) ↦[arg8.view.set]{fullShare} arg8.view.writes (Elt F) f LD)) -∗ K ⟨⟩))
          ⊢ wp frame (wpE (defs₀ (F := F)) Variants.none c none) E (cc2__nn_min_kernel i arg2 harg2 arg3 harg3 arg4 harg4 arg5 harg5 arg6 harg6 arg7 harg7 arg8 harg8) K } := by
  refine ⟨?_, ?_, fun xo xa xd E K => ?run⟩
  case run =>
    simp only [cc2__nn_min_kernel_eq_skeleton]; unfold cc2__nn_min_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fd, %hfd, HD⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfa
    obtain rfl := harg8.eq_unread hfd
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HA]
    · iexists _; iexact HA
    iexists _; iexact HD

end Cert.Kernel.Hand

end
-- ==== Proof.NNRunFirstOffBits.lean ====
/-
  The nearest-neighbour body at the first column tile of a row tile other than the first (so off the diagonal):
  both accumulators are reset to +inf, then the running minimum takes the tile's row minima.
-/
import proofs.«152194_j74887049773256_2_alg».proof.Proof.NNDefsBits
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces both accumulators end with, and the body's triple at such a point. -/
noncomputable def runFirstOff (c : Dev nD) (i : grid2.Coords)
    (arg2 : Memref sig .tc .vmem S1024x1024 .bf16) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : condFirst i) (hc2 : condOff i) (hc3 : ¬condDiag i) (hc4 : ¬condLast i)
    (x0 : Vec F S1024x1024 .bf16) (x1 : Vec F S1024x1 .f32) (x2 : Vec F S1024x1024 .bf16) (x3 : Vec F S1x1024 .f32) :
    Σ' (LA : List (View.Piece (Elt F) S1024x1 .f32)), { LD : List (View.Piece (Elt F) S1024x1 .f32) //
      ∀ (xo xa xd : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo ∗ owns (c : Thread nD τ) arg7 fullShare xa
            ∗ owns (c : Thread nD τ) arg8 fullShare xd
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
                ∗ (∃ f, arg7.view.loc (c : Thread nD τ) ↦[arg7.view.set]{fullShare} arg7.view.writes (Elt F) f LA)
                ∗ (∃ f, arg8.view.loc (c : Thread nD τ) ↦[arg8.view.set]{fullShare} arg8.view.writes (Elt F) f LD)) -∗ K ⟨⟩))
          ⊢ wp frame (wpE (defs₀ (F := F)) Variants.none c none) E (cc2__nn_min_kernel i arg2 harg2 arg3 harg3 arg4 harg4 arg5 harg5 arg6 harg6 arg7 harg7 arg8 harg8) K } := by
  refine ⟨?_, ?_, fun xo xa xd E K => ?run⟩
  case run =>
    simp only [cc2__nn_min_kernel_eq_skeleton]; unfold cc2__nn_min_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fd, %hfd, HD⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfa
    obtain rfl := harg8.eq_unread hfd
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HA]
    · iexists _; iexact HA
    iexists _; iexact HD

end Cert.Kernel.Hand

end
-- ==== Proof.NNRunDiagBits.lean ====
/-
  The nearest-neighbour body at the diagonal tile of a row tile other than the first (so neither the first nor the
  last column tile): the running minimum takes the masked row minima of the tile, and the diagonal entry is recorded.
-/
import proofs.«152194_j74887049773256_2_alg».proof.Proof.NNDefsBits
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces both accumulators end with, and the body's triple at such a point. -/
noncomputable def runDiag (c : Dev nD) (i : grid2.Coords)
    (arg2 : Memref sig .tc .vmem S1024x1024 .bf16) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : ¬condFirst i) (hc2 : ¬condOff i) (hc3 : condDiag i) (hc4 : ¬condLast i)
    (x0 : Vec F S1024x1024 .bf16) (x1 : Vec F S1024x1 .f32) (x2 : Vec F S1024x1024 .bf16) (x3 : Vec F S1x1024 .f32) (xa : Vec F S1024x1 .f32) :
    Σ' (LA : List (View.Piece (Elt F) S1024x1 .f32)), { LD : List (View.Piece (Elt F) S1024x1 .f32) //
      ∀ (xo xd : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo ∗ owns (c : Thread nD τ) arg7 fullShare xa
            ∗ owns (c : Thread nD τ) arg8 fullShare xd
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
                ∗ (∃ f, arg7.view.loc (c : Thread nD τ) ↦[arg7.view.set]{fullShare} arg7.view.writes (Elt F) f LA)
                ∗ (∃ f, arg8.view.loc (c : Thread nD τ) ↦[arg8.view.set]{fullShare} arg8.view.writes (Elt F) f LD)) -∗ K ⟨⟩))
          ⊢ wp frame (wpE (defs₀ (F := F)) Variants.none c none) E (cc2__nn_min_kernel i arg2 harg2 arg3 harg3 arg4 harg4 arg5 harg5 arg6 harg6 arg7 harg7 arg8 harg8) K } := by
  refine ⟨?_, ?_, fun xo xd E K => ?run⟩
  case run =>
    simp only [cc2__nn_min_kernel_eq_skeleton]; unfold cc2__nn_min_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fd, %hfd, HD⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfa
    obtain rfl := harg8.eq_unread hfd
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HA]
    · iexists _; iexact HA
    iexists _; iexact HD

end Cert.Kernel.Hand

end
-- ==== Proof.NNRunMidBits.lean ====
/-
  The nearest-neighbour body at a point off the diagonal tile, neither first nor last column tile: the running
  minimum is lowered by the tile's row minima; the diagonal entry and the output block are left alone.
-/
import proofs.«152194_j74887049773256_2_alg».proof.Proof.NNDefsBits
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the running minimum ends with, and the body's triple at such a point: the four input blocks, the
    untouched output block and the diagonal entry are handed back as found. -/
noncomputable def runMid (c : Dev nD) (i : grid2.Coords)
    (arg2 : Memref sig .tc .vmem S1024x1024 .bf16) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : ¬condFirst i) (hc2 : condOff i) (hc3 : ¬condDiag i) (hc4 : ¬condLast i)
    (x0 : Vec F S1024x1024 .bf16) (x1 : Vec F S1024x1 .f32) (x2 : Vec F S1024x1024 .bf16) (x3 : Vec F S1x1024 .f32)
    (xa : Vec F S1024x1 .f32) :
    { LA : List (View.Piece (Elt F) S1024x1 .f32) //
      ∀ (xo : Vec F S1024x1 .f32) (xd : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo ∗ owns (c : Thread nD τ) arg7 fullShare xa
            ∗ owns (c : Thread nD τ) arg8 fullShare xd
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare xo
                ∗ (∃ f, arg7.view.loc (c : Thread nD τ) ↦[arg7.view.set]{fullShare} arg7.view.writes (Elt F) f LA)
                ∗ owns (c : Thread nD τ) arg8 fullShare xd) -∗ K ⟨⟩))
          ⊢ wp frame (wpE (defs₀ (F := F)) Variants.none c none) E (cc2__nn_min_kernel i arg2 harg2 arg3 harg3 arg4 harg4 arg5 harg5 arg6 harg6 arg7 harg7 arg8 harg8) K } := by
  refine ⟨?_, fun xo xd E K => ?run⟩
  case run =>
    simp only [cc2__nn_min_kernel_eq_skeleton]; unfold cc2__nn_min_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fd, %hfd, HD⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfa
    obtain rfl := harg8.eq_unread hfd
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HA]
    · iexists _; iexact HA
    iexists _; isplitr; · ipureintro; exact harg8.read_unread _
    iexact HD

end Cert.Kernel.Hand

end
-- ==== Proof.NNRunLastBits.lean ====
/-
  The nearest-neighbour body at the last column tile (always off the diagonal, since there are only 8 row tiles):
  the running minimum takes the tile's row minima, then the output block is finalized from the row's own squared
  length, the finished running minimum and the diagonal entry.
-/
import proofs.«152194_j74887049773256_2_alg».proof.Proof.NNDefsBits
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output block and the running minimum end with, and the body's triple at such a point. -/
noncomputable def runLast (c : Dev nD) (i : grid2.Coords)
    (arg2 : Memref sig .tc .vmem S1024x1024 .bf16) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : ¬condFirst i) (hc2 : condOff i) (hc3 : ¬condDiag i) (hc4 : condLast i)
    (x0 : Vec F S1024x1024 .bf16) (x1 : Vec F S1024x1 .f32) (x2 : Vec F S1024x1024 .bf16) (x3 : Vec F S1x1024 .f32) (xa xd : Vec F S1024x1 .f32) :
    Σ' (LO : List (View.Piece (Elt F) S1024x1 .f32)), { LA : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo ∗ owns (c : Thread nD τ) arg7 fullShare xa
            ∗ owns (c : Thread nD τ) arg8 fullShare xd
            ∗ (iprop(owns (c : Thread nD τ) arg2 fullShare x0 ∗ owns (c : Thread nD τ) arg3 fullShare x1 ∗ owns (c : Thread nD τ) arg4 fullShare x2
            ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LA)
                ∗ owns (c : Thread nD τ) arg8 fullShare xd) -∗ K ⟨⟩))
          ⊢ wp frame (wpE (defs₀ (F := F)) Variants.none c none) E (cc2__nn_min_kernel i arg2 harg2 arg3 harg3 arg4 harg4 arg5 harg5 arg6 harg6 arg7 harg7 arg8 harg8) K } := by
  refine ⟨?_, ?_, fun xo E K => ?run⟩
  case run =>
    simp only [cc2__nn_min_kernel_eq_skeleton]; unfold cc2__nn_min_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fd, %hfd, HD⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfa
    obtain rfl := harg8.eq_unread hfd
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [HA]
    · iexists _; iexact HA
    iexists _; isplitr; · ipureintro; exact harg8.read_unread _
    iexact HD

end Cert.Kernel.Hand

end
-- ==== Proof.NNPiecesBits.lean ====
/-
  What each case of the nearest-neighbour body leaves in the two accumulators and in the output block, as values:
  every store is of the whole column, so a buffer ends at its LAST store's payload, a load after a store reads that
  store's payload, and a whole staging buffer read whole is its contents. Per case:
    first point            running minimum = masked-minimum step from +inf;  diagonal entry = the tile's diagonal
    first tile, off diag   running minimum = minimum step from +inf;         diagonal entry = +inf
    diagonal tile          running minimum = masked-minimum step;            diagonal entry = the tile's diagonal
    middle tile            running minimum = minimum step;                   diagonal entry kept
    last tile              running minimum = minimum step;  output = the finalize of (row ssq, finished minimum, diagonal entry)
-/
import proofs.«152194_j74887049773256_2_alg».proof.Proof.NNRunFirstBits
import proofs.«152194_j74887049773256_2_alg».proof.Proof.NNRunFirstOffBits
import proofs.«152194_j74887049773256_2_alg».proof.Proof.NNRunDiagBits
import proofs.«152194_j74887049773256_2_alg».proof.Proof.NNRunMidBits
import proofs.«152194_j74887049773256_2_alg».proof.Proof.NNRunLastBits
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The origin of a rank-2 block. -/
theorem origin2 : (![0, 0] : Fin 2 → ℕ) = fun _ => 0 := by funext a; fin_cases a <;> rfl

/-- A whole block loaded through the rectangle that is the whole block is the block. -/
theorem ldSq {e : EltTy} (x : S1024x1024.Idx → Elt F e) :
    View.ld x (Rect.unit (s := S1024x1024) ![0, 0] ![1024, 1024] inb_S1024x1024_S1024x1024_0_0) = x :=
  View.ld_unit_zero (S := S1024x1024) origin2 _ x
theorem ldCol {e : EltTy} (x : S1024x1.Idx → Elt F e) :
    View.ld x (Rect.unit (s := S1024x1) ![0, 0] ![1024, 1] inb_S1024x1_S1024x1_0_0) = x :=
  View.ld_unit_zero (S := S1024x1) origin2 _ x
theorem ldRow {e : EltTy} (x : S1x1024.Idx → Elt F e) :
    View.ld x (Rect.unit (s := S1x1024) ![0, 0] ![1, 1024] inb_S1x1024_S1x1024_0_0) = x :=
  View.ld_unit_zero (S := S1x1024) origin2 _ x
/-- A column loaded whole right after it was stored whole is what was stored. -/
theorem covCol {sig' : RefSig} {κ' : Kind} {sp' : Space} (v : View sig' κ' sp' S1024x1 .f32) (w : S1024x1.Idx → Elt F .f32) :
    v.readCov [(⟨Rect.unit (s := S1024x1) ![0, 0] ![1024, 1] inb_S1024x1_S1024x1_0_0, w⟩ : View.Piece (Elt F) S1024x1 .f32)]
      (Rect.unit (s := S1024x1) ![0, 0] ![1024, 1] inb_S1024x1_S1024x1_0_0).toLoadRect = w :=
  View.readCov_unit_zero (S := S1024x1) v origin2 _ w

section
variable (c : Dev nD) (i : grid2.Coords)
    (arg2 : Memref sig .tc .vmem S1024x1024 .bf16) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (x0 : Vec F S1024x1024 .bf16) (x1 : Vec F S1024x1 .f32) (x2 : Vec F S1024x1024 .bf16) (x3 : Vec F S1x1024 .f32)
    (xa xd : Vec F S1024x1 .f32)
    {sig' : RefSig} {κ' : Kind} {sp' : Space} (v : View sig' κ' sp' S1024x1 .f32) (f : v.ty.Contents (Elt F))

/-- Middle tile: the running minimum after the body. -/
theorem midAcc_eq (hc1 : ¬condFirst i) (hc2 : condOff i) (hc3 : ¬condDiag i) (hc4 : ¬condLast i) :
    v.read (Elt F) (v.writes (Elt F) f (runMid c i arg2 harg2 arg3 harg3 arg4 harg4 arg5 harg5 arg6 harg6 arg7 harg7 arg8 harg8 hc1 hc2 hc3 hc4 x0 x1 x2 x3 xa).1) = k2_pay4 x0 x2 x3 xa := by
  rw [View.read_writes_eq_canon _ _ _ (View.cover_of_tiledL _ S1024x1.size (by sl_kernel_rfl))]
  unfold runMid; dsimp only; sl_unfold_words
  rw [View.canon_cons_unit_zero (S := S1024x1) origin2]
  simp only [View.readAt_eq_ld, Memref.IsWhole.read_unread, ldSq, ldCol, ldRow]

/-- First point: the running minimum and the diagonal entry after the body. -/
theorem firstAcc_eq (hc1 : condFirst i) (hc2 : ¬condOff i) (hc3 : condDiag i) (hc4 : ¬condLast i) :
    v.read (Elt F) (v.writes (Elt F) f (runFirst c i arg2 harg2 arg3 harg3 arg4 harg4 arg5 harg5 arg6 harg6 arg7 harg7 arg8 harg8 hc1 hc2 hc3 hc4 x0 x1 x2 x3).1) = k2_pay6 x0 x2 x3 k2_pay1 := by
  rw [View.read_writes_eq_canon _ _ _ (View.cover_of_tiledL _ S1024x1.size (by sl_kernel_rfl))]
  unfold runFirst; dsimp only; sl_unfold_words
  rw [View.canon_cons_unit_zero (S := S1024x1) origin2]
  simp only [View.readAt_eq_ld, Memref.IsWhole.read_unread, ldSq, ldCol, ldRow, covCol]
theorem firstDiag_eq (hc1 : condFirst i) (hc2 : ¬condOff i) (hc3 : condDiag i) (hc4 : ¬condLast i) :
    v.read (Elt F) (v.writes (Elt F) f (runFirst c i arg2 harg2 arg3 harg3 arg4 harg4 arg5 harg5 arg6 harg6 arg7 harg7 arg8 harg8 hc1 hc2 hc3 hc4 x0 x1 x2 x3).2.1) = k2_pay7 x0 x2 x3 := by
  rw [View.read_writes_eq_canon _ _ _ (View.cover_of_tiledL _ S1024x1.size (by sl_kernel_rfl))]
  unfold runFirst; dsimp only; sl_unfold_words
  rw [View.canon_cons_unit_zero (S := S1024x1) origin2]
  simp only [View.readAt_eq_ld, Memref.IsWhole.read_unread, ldSq, ldCol, ldRow, covCol]

/-- First column tile off the diagonal: the running minimum and the (reset) diagonal entry after the body. -/
theorem firstOffAcc_eq (hc1 : condFirst i) (hc2 : condOff i) (hc3 : ¬condDiag i) (hc4 : ¬condLast i) :
    v.read (Elt F) (v.writes (Elt F) f (runFirstOff c i arg2 harg2 arg3 harg3 arg4 harg4 arg5 harg5 arg6 harg6 arg7 harg7 arg8 harg8 hc1 hc2 hc3 hc4 x0 x1 x2 x3).1) = k2_pay4 x0 x2 x3 k2_pay1 := by
  rw [View.read_writes_eq_canon _ _ _ (View.cover_of_tiledL _ S1024x1.size (by sl_kernel_rfl))]
  unfold runFirstOff; dsimp only; sl_unfold_words
  rw [View.canon_cons_unit_zero (S := S1024x1) origin2]
  simp only [View.readAt_eq_ld, Memref.IsWhole.read_unread, ldSq, ldCol, ldRow, covCol]
theorem firstOffDiag_eq (hc1 : condFirst i) (hc2 : condOff i) (hc3 : ¬condDiag i) (hc4 : ¬condLast i) :
    v.read (Elt F) (v.writes (Elt F) f (runFirstOff c i arg2 harg2 arg3 harg3 arg4 harg4 arg5 harg5 arg6 harg6 arg7 harg7 arg8 harg8 hc1 hc2 hc3 hc4 x0 x1 x2 x3).2.1) = k2_pay2 := by
  rw [View.read_writes_eq_canon _ _ _ (View.cover_of_tiledL _ S1024x1.size (by sl_kernel_rfl))]
  unfold runFirstOff; dsimp only; sl_unfold_words
  rw [View.canon_cons_unit_zero (S := S1024x1) origin2]

/-- Diagonal tile: the running minimum and the diagonal entry after the body. -/
theorem diagAcc_eq (hc1 : ¬condFirst i) (hc2 : ¬condOff i) (hc3 : condDiag i) (hc4 : ¬condLast i) :
    v.read (Elt F) (v.writes (Elt F) f (runDiag c i arg2 harg2 arg3 harg3 arg4 harg4 arg5 harg5 arg6 harg6 arg7 harg7 arg8 harg8 hc1 hc2 hc3 hc4 x0 x1 x2 x3 xa).1) = k2_pay6 x0 x2 x3 xa := by
  rw [View.read_writes_eq_canon _ _ _ (View.cover_of_tiledL _ S1024x1.size (by sl_kernel_rfl))]
  unfold runDiag; dsimp only; sl_unfold_words
  rw [View.canon_cons_unit_zero (S := S1024x1) origin2]
  simp only [View.readAt_eq_ld, Memref.IsWhole.read_unread, ldSq, ldCol, ldRow]
theorem diagDiag_eq (hc1 : ¬condFirst i) (hc2 : ¬condOff i) (hc3 : condDiag i) (hc4 : ¬condLast i) :
    v.read (Elt F) (v.writes (Elt F) f (runDiag c i arg2 harg2 arg3 harg3 arg4 harg4 arg5 harg5 arg6 harg6 arg7 harg7 arg8 harg8 hc1 hc2 hc3 hc4 x0 x1 x2 x3 xa).2.1) = k2_pay7 x0 x2 x3 := by
  rw [View.read_writes_eq_canon _ _ _ (View.cover_of_tiledL _ S1024x1.size (by sl_kernel_rfl))]
  unfold runDiag; dsimp only; sl_unfold_words
  rw [View.canon_cons_unit_zero (S := S1024x1) origin2]
  simp only [View.readAt_eq_ld, Memref.IsWhole.read_unread, ldSq, ldCol, ldRow]

/-- Last column tile: the output block and the running minimum after the body. -/
theorem lastOut_eq (hc1 : ¬condFirst i) (hc2 : condOff i) (hc3 : ¬condDiag i) (hc4 : condLast i) :
    v.read (Elt F) (v.writes (Elt F) f (runLast c i arg2 harg2 arg3 harg3 arg4 harg4 arg5 harg5 arg6 harg6 arg7 harg7 arg8 harg8 hc1 hc2 hc3 hc4 x0 x1 x2 x3 xa xd).1)
      = k2_pay8 x1 (k2_pay4 x0 x2 x3 xa) x1 xd := by
  rw [View.read_writes_eq_canon _ _ _ (View.cover_of_tiledL _ S1024x1.size (by sl_kernel_rfl))]
  unfold runLast; dsimp only; sl_unfold_words
  rw [View.canon_cons_unit_zero (S := S1024x1) origin2]
  simp only [View.readAt_eq_ld, Memref.IsWhole.read_unread, ldSq, ldCol, ldRow, covCol]
theorem lastAcc_eq (hc1 : ¬condFirst i) (hc2 : condOff i) (hc3 : ¬condDiag i) (hc4 : condLast i) :
    v.read (Elt F) (v.writes (Elt F) f (runLast c i arg2 harg2 arg3 harg3 arg4 harg4 arg5 harg5 arg6 harg6 arg7 harg7 arg8 harg8 hc1 hc2 hc3 hc4 x0 x1 x2 x3 xa xd).2.1) = k2_pay4 x0 x2 x3 xa := by
  rw [View.read_writes_eq_canon _ _ _ (View.cover_of_tiledL _ S1024x1.size (by sl_kernel_rfl))]
  unfold runLast; dsimp only; sl_unfold_words
  rw [View.canon_cons_unit_zero (S := S1024x1) origin2]
  simp only [View.readAt_eq_ld, Memref.IsWhole.read_unread, ldSq, ldCol, ldRow]

end

end Cert.Kernel.Hand

end
-- ==== Proof.NNRegionBits.lean ====
/-
  The nearest-neighbour region as a pipeline run: what each window's staging buffer and the two accumulators hold
  after the body at every grid point.

  The inputs' buffers hold their blocks. The accumulators follow one recursion over the points (row-major, 32
  column tiles per row tile): entering a row tile both are reset to +inf; on the diagonal tile the running minimum
  takes the masked row minima and the diagonal entry is recorded; off it the running minimum takes the plain row
  minima and the diagonal entry is kept. At the last column tile the output block is the finalize of the row's
  squared length, the finished running minimum and the diagonal entry. The region's invariant carries the two
  accumulators at exactly these values from one point to the next.
-/
import proofs.«152194_j74887049773256_2_alg».proof.Proof.NNPiecesBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The other regions' staging buffers stay aside while the tail resource is taken out and another put back. -/
theorem otherScoped_frame (c : Dev nD) (T T' : sProp 𝕄) :
    otherScoped c T ⊢ iprop(T ∗ (T' -∗ otherScoped c T')) := by
  unfold otherScoped
  iintro ⟨H1, H2, H3, H4, H5, H6, H7, H8, H9, H10, H11, H12, HT⟩
  isplitl [HT]; · iexact HT
  iintro HT'
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact HT'

section Region

variable (V : (c : Dev nD) → (b : Ref sig .tc) → Buf (Elt F) ((c : Thread nD τ).loc b))

/-! ## The windows' blocks -/

/-- Window `w`'s block at point `t`, read off its array as the region finds it. -/
def nnblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The four input blocks of a point, at their vector types: normalised rows of X (a row tile), their squared
    lengths, normalised rows of Y (a column tile), their squared lengths as a row. -/
abbrev bX (c : Dev nD) (t : Fin cfg2.N) : Vec F S1024x1024 .bf16 := nnblk V c 0 t
abbrev bXs (c : Dev nD) (t : Fin cfg2.N) : Vec F S1024x1 .f32 := nnblk V c 1 t
abbrev bY (c : Dev nD) (t : Fin cfg2.N) : Vec F S1024x1024 .bf16 := nnblk V c 2 t
abbrev bYs (c : Dev nD) (t : Fin cfg2.N) : Vec F S1x1024 .f32 := nnblk V c 3 t

/-- An input window's current staging buffer holds its block at every point, fetched there or not. -/
theorem nnbefore_of0 {c : Dev nD} (dat : Dat τ (Elt F) Unit ℕ (UR sig nD τ) ℕ cfg2 c) (hA : dat.A 0 = V c (Pipeline.arrRef spec2 0))
    (hafter : ∀ t, dat.after 0 t = nnblk V c 0 t) (t : Fin cfg2.N) (d) : dat.before 0 t d = nnblk V c 0 t :=
  (dat.before_in_eq_fetched 0 rfl (fun _ => rfl) (fun _ _ _ => rfl) (fun t => by rw [hafter]; unfold Dat.blockOf nnblk; rw [hA]; try rfl) t d).trans
    (by unfold Dat.fetched Dat.blockOf nnblk; rw [hA]; try rfl)
theorem nnbefore_of1 {c : Dev nD} (dat : Dat τ (Elt F) Unit ℕ (UR sig nD τ) ℕ cfg2 c) (hA : dat.A 1 = V c (Pipeline.arrRef spec2 1))
    (hafter : ∀ t, dat.after 1 t = nnblk V c 1 t) (t : Fin cfg2.N) (d) : dat.before 1 t d = nnblk V c 1 t :=
  (dat.before_in_eq_fetched 1 rfl (fun _ => rfl) (fun _ _ _ => rfl) (fun t => by rw [hafter]; unfold Dat.blockOf nnblk; rw [hA]; try rfl) t d).trans
    (by unfold Dat.fetched Dat.blockOf nnblk; rw [hA]; try rfl)
theorem nnbefore_of2 {c : Dev nD} (dat : Dat τ (Elt F) Unit ℕ (UR sig nD τ) ℕ cfg2 c) (hA : dat.A 2 = V c (Pipeline.arrRef spec2 2))
    (hafter : ∀ t, dat.after 2 t = nnblk V c 2 t) (t : Fin cfg2.N) (d) : dat.before 2 t d = nnblk V c 2 t :=
  (dat.before_in_eq_fetched 2 rfl (fun _ => rfl) (fun _ _ _ => rfl) (fun t => by rw [hafter]; unfold Dat.blockOf nnblk; rw [hA]; try rfl) t d).trans
    (by unfold Dat.fetched Dat.blockOf nnblk; rw [hA]; try rfl)
theorem nnbefore_of3 {c : Dev nD} (dat : Dat τ (Elt F) Unit ℕ (UR sig nD τ) ℕ cfg2 c) (hA : dat.A 3 = V c (Pipeline.arrRef spec2 3))
    (hafter : ∀ t, dat.after 3 t = nnblk V c 3 t) (t : Fin cfg2.N) (d) : dat.before 3 t d = nnblk V c 3 t :=
  (dat.before_in_eq_fetched 3 rfl (fun _ => rfl) (fun _ _ _ => rfl) (fun t => by rw [hafter]; unfold Dat.blockOf nnblk; rw [hA]; try rfl) t d).trans
    (by unfold Dat.fetched Dat.blockOf nnblk; rw [hA]; try rfl)

/-! ## The accumulators, point by point -/

/-- One point's effect on (running minimum, diagonal entry). -/
def accStep (c : Dev nD) (t : Fin cfg2.N) (prev : Vec F S1024x1 .f32 × Vec F S1024x1 .f32) : Vec F S1024x1 .f32 × Vec F S1024x1 .f32 :=
  if t.val / 32 = t.val % 32 then
    (k2_pay6 (bX V c t) (bY V c t) (bYs V c t) (if t.val % 32 = 0 then k2_pay1 else prev.1), k2_pay7 (bX V c t) (bY V c t) (bYs V c t))
  else
    (k2_pay4 (bX V c t) (bY V c t) (bYs V c t) (if t.val % 32 = 0 then k2_pay1 else prev.1), if t.val % 32 = 0 then k2_pay2 else prev.2)

/-- (running minimum, diagonal entry) after the body at point `n`. -/
def accAt (c : Dev nD) : (n : ℕ) → n < cfg2.N → Vec F S1024x1 .f32 × Vec F S1024x1 .f32
  | 0, hn => accStep V c ⟨0, hn⟩ (k2_pay1, k2_pay2)
  | n + 1, hn => accStep V c ⟨n + 1, hn⟩ (accAt c n (Nat.lt_of_succ_lt hn))

theorem accAt_pos (c : Dev nD) (t : Fin cfg2.N) (ht : t.val ≠ 0) :
    accAt V c t.val t.isLt = accStep V c t (accAt V c (t.val - 1) (Nat.lt_of_le_of_lt (Nat.sub_le _ _) t.isLt)) := by
  obtain ⟨n, hn⟩ := t
  cases n with
  | zero => exact absurd rfl ht
  | succ n => rfl

theorem accAt_zero (c : Dev nD) (t : Fin cfg2.N) (ht : t.val = 0) :
    accAt V c t.val t.isLt = accStep V c t (k2_pay1, k2_pay2) := by
  obtain ⟨n, hn⟩ := t
  cases n with
  | zero => rfl
  | succ n => exact absurd ht (Nat.succ_ne_zero n)

/-- The output block a last-column-tile point stores: the finalize of the row tile's squared lengths, the finished
    running minimum and the diagonal entry. -/
def outAt (c : Dev nD) (t : Fin cfg2.N) : Vec F S1024x1 .f32 :=
  k2_pay8 (bXs V c t) (accAt V c t.val t.isLt).1 (bXs V c t) (accAt V c t.val t.isLt).2

/-! ## The invariant between points -/

/-- Before the first point: the class invariant (both accumulators at anything). Afterwards: both accumulators at
    what the point before left; the other regions' staging buffers and the generator register ride along. -/
def PhiS (c : Dev nD) : (n : ℕ) → n ≤ cfg2.N → sProp 𝕄
  | 0, _ => Pipeline.ΦA spec2 c
  | n + 1, hn => iprop(iprop(owns (c : Thread nD τ) accM fullShare (accAt V c n hn).1 ∗ owns (c : Thread nD τ) diagM fullShare (accAt V c n hn).2)
      ∗ otherScoped c iprop(emp) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) accM fullShare (accAt V c n hn).1 ∗ owns (c : Thread nD τ) diagM fullShare (accAt V c n hn).2)
      ∗ otherScoped c iprop(emp) ∗ (∃ r, prngReg c r)) := rfl
theorem PhiS_pos (c : Dev nD) (n : ℕ) (h : n ≤ cfg2.N) (hz : n ≠ 0) :
    PhiS V c n h = iprop(iprop(owns (c : Thread nD τ) accM fullShare (accAt V c (n - 1) (by omega)).1 ∗ owns (c : Thread nD τ) diagM fullShare (accAt V c (n - 1) (by omega)).2)
      ∗ otherScoped c iprop(emp) ∗ (∃ r, prngReg c r)) := by
  cases n with
  | zero => exact absurd rfl hz
  | succ n => rfl

/-! ## The proof data -/

def nndat (c : Dev nD) : Dat τ (Elt F) Unit ℕ (UR sig nD τ) ℕ cfg2 c where
  A w := V c (Pipeline.arrRef spec2 w)
  after w t := match w with
    | ⟨0, _⟩ => nnblk V c 0 t
    | ⟨1, _⟩ => nnblk V c 1 t
    | ⟨2, _⟩ => nnblk V c 2 t
    | ⟨3, _⟩ => nnblk V c 3 t
    | ⟨4, _⟩ => outAt V c t
  Φ t := PhiS V c t.val (Nat.le_of_lt_succ t.isLt)
  q _ := fullShare
  owed _ := 0

theorem nndat_A (c : Dev nD) (w : Fin cfg2.W) : (nndat V c).A w = V c (Pipeline.arrRef spec2 w) := by
  dsimp only [nndat]
theorem nndat_after0 (c : Dev nD) (t : Fin cfg2.N) : (nndat V c).after 0 t = nnblk V c 0 t := by dsimp only [nndat]
theorem nndat_after1 (c : Dev nD) (t : Fin cfg2.N) : (nndat V c).after 1 t = nnblk V c 1 t := by dsimp only [nndat]
theorem nndat_after2 (c : Dev nD) (t : Fin cfg2.N) : (nndat V c).after 2 t = nnblk V c 2 t := by dsimp only [nndat]
theorem nndat_after3 (c : Dev nD) (t : Fin cfg2.N) : (nndat V c).after 3 t = nnblk V c 3 t := by dsimp only [nndat]
theorem nndat_after4 (c : Dev nD) (t : Fin cfg2.N) : (nndat V c).after 4 t = outAt V c t := by dsimp only [nndat]

theorem nnbefore0 (c : Dev nD) (t : Fin cfg2.N) (d) : (nndat V c).before 0 t d = nnblk V c 0 t :=
  nnbefore_of0 V (nndat V c) (nndat_A V c 0) (nndat_after0 V c) t d
theorem nnbefore1 (c : Dev nD) (t : Fin cfg2.N) (d) : (nndat V c).before 1 t d = nnblk V c 1 t :=
  nnbefore_of1 V (nndat V c) (nndat_A V c 1) (nndat_after1 V c) t d
theorem nnbefore2 (c : Dev nD) (t : Fin cfg2.N) (d) : (nndat V c).before 2 t d = nnblk V c 2 t :=
  nnbefore_of2 V (nndat V c) (nndat_A V c 2) (nndat_after2 V c) t d
theorem nnbefore3 (c : Dev nD) (t : Fin cfg2.N) (d) : (nndat V c).before 3 t d = nnblk V c 3 t :=
  nnbefore_of3 V (nndat V c) (nndat_A V c 3) (nndat_after3 V c) t d

theorem PhiS_castSucc (c : Dev nD) (t : Fin cfg2.N) :
    (nndat V c).Φ t.castSucc = PhiS V c t.val (Nat.le_of_lt t.isLt) := by
  dsimp only [nndat]; simp only [Fin.coe_castSucc]

/-! ## The body obligation -/

def nnPre (c : Dev nD) (t : Fin cfg2.N) : sProp 𝕄 :=
  iprop((nndat V c).Φ t.castSucc ∗ (nndat V c).owesAt () t.castSucc
    ∗ (∃ d, owns (c : Thread nD τ) (ms2_0 t) fullShare ((nndat V c).before 0 t d))
    ∗ (∃ d, owns (c : Thread nD τ) (ms2_1 t) fullShare ((nndat V c).before 1 t d))
    ∗ (∃ d, owns (c : Thread nD τ) (ms2_2 t) fullShare ((nndat V c).before 2 t d))
    ∗ (∃ d, owns (c : Thread nD τ) (ms2_3 t) fullShare ((nndat V c).before 3 t d))
    ∗ (∃ d, owns (c : Thread nD τ) (ms2_4 t) fullShare ((nndat V c).before 4 t d)))

def nnPost (c : Dev nD) (t : Fin cfg2.N) : sProp 𝕄 :=
  iprop((nndat V c).Φ t.succ ∗ (nndat V c).owesAt () t.succ
    ∗ (nndat V c).leavesExact 0 t ∗ (nndat V c).leavesExact 1 t ∗ (nndat V c).leavesExact 2 t
    ∗ (nndat V c).leavesExact 3 t ∗ (nndat V c).leavesExact 4 t)

theorem leaves_in0 (c : Dev nD) (t : Fin cfg2.N) :
    (nndat V c).leavesExact 0 t = owns (c : Thread nD τ) (ms2_0 t) fullShare (nnblk V c 0 t) := by
  unfold Dat.leavesExact; rw [live2_0 t, nndat_after0]
theorem leaves_in1 (c : Dev nD) (t : Fin cfg2.N) :
    (nndat V c).leavesExact 1 t = owns (c : Thread nD τ) (ms2_1 t) fullShare (nnblk V c 1 t) := by
  unfold Dat.leavesExact; rw [live2_1 t, nndat_after1]
theorem leaves_in2 (c : Dev nD) (t : Fin cfg2.N) :
    (nndat V c).leavesExact 2 t = owns (c : Thread nD τ) (ms2_2 t) fullShare (nnblk V c 2 t) := by
  unfold Dat.leavesExact; rw [live2_2 t, nndat_after2]
theorem leaves_in3 (c : Dev nD) (t : Fin cfg2.N) :
    (nndat V c).leavesExact 3 t = owns (c : Thread nD τ) (ms2_3 t) fullShare (nnblk V c 3 t) := by
  unfold Dat.leavesExact; rw [live2_3 t, nndat_after3]
theorem leaves_out_live (c : Dev nD) (t : Fin cfg2.N) (h : condLast (grid2.coords t)) :
    (nndat V c).leavesExact 4 t = owns (c : Thread nD τ) (ms2_4 t) fullShare (outAt V c t) := by
  unfold Dat.leavesExact; rw [live2_4 t h, nndat_after4]

set_option maxHeartbeats 8000000 in
/-- The body at any point. The point's position decides the case (first point; first column tile off the diagonal;
    diagonal tile; middle tile; last column tile); the invariant hands the body the two accumulators at what the
    point before left (at anything at the very first point) and takes them back at this point's values. -/
theorem sound_nnbody (c : Dev nD) (t : Fin cfg2.N) :
    nnPre V c t ⊢ wp frame (wpE (defs₀ (F := F)) Variants.none c none) Set.univ (bodyAt2 t) (fun _ => nnPost V c t) := by
  unfold nnPre nnPost bodyAt2
  simp only [nnbefore0, nnbefore1, nnbefore2, nnbefore3]
  rw [show (nndat V c).owesAt () t.succ = (nndat V c).owesAt () t.castSucc from rfl]
  rw [show (nndat V c).Φ t.succ = PhiS V c (t.val + 1) t.isLt from rfl, PhiS_succ]
  rw [leaves_in0, leaves_in1, leaves_in2, leaves_in3]
  have hN : t.val < 256 := lt_of_lt_of_eq t.isLt (show cfg2.N = 256 from N_2)
  by_cases h0 : t.val % 32 = 0
  · by_cases hd : t.val / 32 = t.val % 32
    · -- the very first point: row tile 0, column tile 0
      have hz : t.val = 0 := by omega
      have hc1 : condFirst (grid2.coords t) := (hcondFirst t).mpr h0
      have hc2 : ¬condOff (grid2.coords t) := fun h => ((hcondOff t).mp h) hd
      have hc3 : condDiag (grid2.coords t) := (hcondDiag t).mpr hd
      have hc4 : ¬condLast (grid2.coords t) := fun h => by have := (hcondLast t).mp h; omega
      rw [Dat.leavesExact_idle (nndat V c) 4 t (idle2_4 t hc4) (noFlush2_4 t hc4)]
      rw [accAt_zero V c t hz]; unfold accStep; rw [if_pos hd, if_pos h0]
      rw [PhiS_castSucc V c t, PhiS_zero V c _ _ hz, PhiA2_eq]
      iintro ⟨⟨HOS, Hg⟩, Ho, ⟨%d0, H0⟩, ⟨%d1, H1⟩, ⟨%d2, H2⟩, ⟨%d3, H3⟩, ⟨%d4, H4⟩⟩
      have hfr := otherScoped_frame (F := F) c iprop((∃ d, owns (c : Thread nD τ) accM fullShare d) ∗ (∃ d, owns (c : Thread nD τ) diagM fullShare d)) iprop(emp)
      ihave HOS' := hfr $$ HOS
      icases HOS' with ⟨⟨⟨%xa, HA⟩, ⟨%xd, HD⟩⟩, Hback⟩
      iapply ((runFirst c (grid2.coords t) (ms2_0 t) (hs2_0 t) (ms2_1 t) (hs2_1 t) (ms2_2 t) (hs2_2 t) (ms2_3 t) (hs2_3 t) (ms2_4 t) (hs2_4 t) accM (Memref.isWhole_whole _) diagM (Memref.isWhole_whole _) hc1 hc2 hc3 hc4 (bX V c t) (bXs V c t) (bY V c t) (bYs V c t)).2.2 _ xa xd Set.univ _)
      isplitl [H0]; · iexact H0
      isplitl [H1]; · iexact H1
      isplitl [H2]; · iexact H2
      isplitl [H3]; · iexact H3
      isplitl [H4]; · iexact H4
      isplitl [HA]; · iexact HA
      isplitl [HD]; · iexact HD
      iintro ⟨H0, H1, H2, H3, H4, ⟨%fa, HA⟩, ⟨%fd, HD⟩⟩
      isplitl [HA HD Hback Hg]
      · isplitl [HA HD]
        · isplitl [HA]
          · unfold owns; iexists _; isplitr
            swap; · iexact HA
            ipureintro; exact firstAcc_eq (hc1 := hc1) (hc2 := hc2) (hc3 := hc3) (hc4 := hc4) ..
          · unfold owns; iexists _; isplitr
            swap; · iexact HD
            ipureintro; exact firstDiag_eq (hc1 := hc1) (hc2 := hc2) (hc3 := hc3) (hc4 := hc4) ..
        isplitl [Hback]
        · iapply Hback; iempintro
        iexact Hg
      isplitl [Ho]; · iexact Ho
      isplitl [H0]; · iexact H0
      isplitl [H1]; · iexact H1
      isplitl [H2]; · iexact H2
      isplitl [H3]; · iexact H3
      iexists _; iexact H4
    · -- the first column tile of a later row tile
      have hz : t.val ≠ 0 := by omega
      have hc1 : condFirst (grid2.coords t) := (hcondFirst t).mpr h0
      have hc2 : condOff (grid2.coords t) := (hcondOff t).mpr hd
      have hc3 : ¬condDiag (grid2.coords t) := fun h => hd ((hcondDiag t).mp h)
      have hc4 : ¬condLast (grid2.coords t) := fun h => by have := (hcondLast t).mp h; omega
      rw [Dat.leavesExact_idle (nndat V c) 4 t (idle2_4 t hc4) (noFlush2_4 t hc4)]
      rw [accAt_pos V c t hz]; unfold accStep; rw [if_neg hd, if_pos h0, if_pos h0]
      rw [PhiS_castSucc V c t, PhiS_pos V c _ _ hz]
      iintro ⟨⟨⟨HA, HD⟩, HR⟩, Ho, ⟨%d0, H0⟩, ⟨%d1, H1⟩, ⟨%d2, H2⟩, ⟨%d3, H3⟩, ⟨%d4, H4⟩⟩
      iapply ((runFirstOff c (grid2.coords t) (ms2_0 t) (hs2_0 t) (ms2_1 t) (hs2_1 t) (ms2_2 t) (hs2_2 t) (ms2_3 t) (hs2_3 t) (ms2_4 t) (hs2_4 t) accM (Memref.isWhole_whole _) diagM (Memref.isWhole_whole _) hc1 hc2 hc3 hc4 (bX V c t) (bXs V c t) (bY V c t) (bYs V c t)).2.2 _ _ _ Set.univ _)
      isplitl [H0]; · iexact H0
      isplitl [H1]; · iexact H1
      isplitl [H2]; · iexact H2
      isplitl [H3]; · iexact H3
      isplitl [H4]; · iexact H4
      isplitl [HA]; · iexact HA
      isplitl [HD]; · iexact HD
      iintro ⟨H0, H1, H2, H3, H4, ⟨%fa, HA⟩, ⟨%fd, HD⟩⟩
      isplitl [HA HD HR]
      · isplitl [HA HD]
        · isplitl [HA]
          · unfold owns; iexists _; isplitr
            swap; · iexact HA
            ipureintro; exact firstOffAcc_eq (hc1 := hc1) (hc2 := hc2) (hc3 := hc3) (hc4 := hc4) ..
          · unfold owns; iexists _; isplitr
            swap; · iexact HD
            ipureintro; exact firstOffDiag_eq (hc1 := hc1) (hc2 := hc2) (hc3 := hc3) (hc4 := hc4) ..
        iexact HR
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases hd : t.val / 32 = t.val % 32
    · -- the diagonal tile of a later row tile
      have hc1 : ¬condFirst (grid2.coords t) := fun h => h0 ((hcondFirst t).mp h)
      have hc2 : ¬condOff (grid2.coords t) := fun h => ((hcondOff t).mp h) hd
      have hc3 : condDiag (grid2.coords t) := (hcondDiag t).mpr hd
      have hc4 : ¬condLast (grid2.coords t) := fun h => by have := (hcondLast t).mp h; omega
      rw [Dat.leavesExact_idle (nndat V c) 4 t (idle2_4 t hc4) (noFlush2_4 t hc4)]
      rw [accAt_pos V c t hz]; unfold accStep; rw [if_pos hd, if_neg h0]
      rw [PhiS_castSucc V c t, PhiS_pos V c _ _ hz]
      iintro ⟨⟨⟨HA, HD⟩, HR⟩, Ho, ⟨%d0, H0⟩, ⟨%d1, H1⟩, ⟨%d2, H2⟩, ⟨%d3, H3⟩, ⟨%d4, H4⟩⟩
      iapply ((runDiag c (grid2.coords t) (ms2_0 t) (hs2_0 t) (ms2_1 t) (hs2_1 t) (ms2_2 t) (hs2_2 t) (ms2_3 t) (hs2_3 t) (ms2_4 t) (hs2_4 t) accM (Memref.isWhole_whole _) diagM (Memref.isWhole_whole _) hc1 hc2 hc3 hc4 (bX V c t) (bXs V c t) (bY V c t) (bYs V c t) _).2.2 _ _ Set.univ _)
      isplitl [H0]; · iexact H0
      isplitl [H1]; · iexact H1
      isplitl [H2]; · iexact H2
      isplitl [H3]; · iexact H3
      isplitl [H4]; · iexact H4
      isplitl [HA]; · iexact HA
      isplitl [HD]; · iexact HD
      iintro ⟨H0, H1, H2, H3, H4, ⟨%fa, HA⟩, ⟨%fd, HD⟩⟩
      isplitl [HA HD HR]
      · isplitl [HA HD]
        · isplitl [HA]
          · unfold owns; iexists _; isplitr
            swap; · iexact HA
            ipureintro; exact diagAcc_eq (hc1 := hc1) (hc2 := hc2) (hc3 := hc3) (hc4 := hc4) ..
          · unfold owns; iexists _; isplitr
            swap; · iexact HD
            ipureintro; exact diagDiag_eq (hc1 := hc1) (hc2 := hc2) (hc3 := hc3) (hc4 := hc4) ..
        iexact HR
      isplitl [Ho]; · iexact Ho
      isplitl [H0]; · iexact H0
      isplitl [H1]; · iexact H1
      isplitl [H2]; · iexact H2
      isplitl [H3]; · iexact H3
      iexists _; iexact H4
    · have hc1 : ¬condFirst (grid2.coords t) := fun h => h0 ((hcondFirst t).mp h)
      have hc2 : condOff (grid2.coords t) := (hcondOff t).mpr hd
      have hc3 : ¬condDiag (grid2.coords t) := fun h => hd ((hcondDiag t).mp h)
      by_cases hl : t.val % 32 = 31
      · -- the last column tile
        have hc4 : condLast (grid2.coords t) := (hcondLast t).mpr hl
        rw [leaves_out_live V c t hc4]; unfold outAt
        rw [accAt_pos V c t hz]; unfold accStep; rw [if_neg hd, if_neg h0, if_neg h0]
        rw [PhiS_castSucc V c t, PhiS_pos V c _ _ hz]
        iintro ⟨⟨⟨HA, HD⟩, HR⟩, Ho, ⟨%d0, H0⟩, ⟨%d1, H1⟩, ⟨%d2, H2⟩, ⟨%d3, H3⟩, ⟨%d4, H4⟩⟩
        iapply ((runLast c (grid2.coords t) (ms2_0 t) (hs2_0 t) (ms2_1 t) (hs2_1 t) (ms2_2 t) (hs2_2 t) (ms2_3 t) (hs2_3 t) (ms2_4 t) (hs2_4 t) accM (Memref.isWhole_whole _) diagM (Memref.isWhole_whole _) hc1 hc2 hc3 hc4 (bX V c t) (bXs V c t) (bY V c t) (bYs V c t) _ _).2.2 _ Set.univ _)
        isplitl [H0]; · iexact H0
        isplitl [H1]; · iexact H1
        isplitl [H2]; · iexact H2
        isplitl [H3]; · iexact H3
        isplitl [H4]; · iexact H4
        isplitl [HA]; · iexact HA
        isplitl [HD]; · iexact HD
        iintro ⟨H0, H1, H2, H3, ⟨%fo, H4⟩, ⟨%fa, HA⟩, HD⟩
        isplitl [HA HD HR]
        · isplitl [HA HD]
          · isplitl [HA]
            · unfold owns; iexists _; isplitr
              swap; · iexact HA
              ipureintro; exact lastAcc_eq (hc1 := hc1) (hc2 := hc2) (hc3 := hc3) (hc4 := hc4) ..
            · iexact HD
          iexact HR
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact lastOut_eq (hc1 := hc1) (hc2 := hc2) (hc3 := hc3) (hc4 := hc4) ..
      · -- a middle tile
        have hc4 : ¬condLast (grid2.coords t) := fun h => hl ((hcondLast t).mp h)
        rw [Dat.leavesExact_idle (nndat V c) 4 t (idle2_4 t hc4) (noFlush2_4 t hc4)]
        rw [accAt_pos V c t hz]; unfold accStep; rw [if_neg hd, if_neg h0, if_neg h0]
        rw [PhiS_castSucc V c t, PhiS_pos V c _ _ hz]
        iintro ⟨⟨⟨HA, HD⟩, HR⟩, Ho, ⟨%d0, H0⟩, ⟨%d1, H1⟩, ⟨%d2, H2⟩, ⟨%d3, H3⟩, ⟨%d4, H4⟩⟩
        iapply ((runMid c (grid2.coords t) (ms2_0 t) (hs2_0 t) (ms2_1 t) (hs2_1 t) (ms2_2 t) (hs2_2 t) (ms2_3 t) (hs2_3 t) (ms2_4 t) (hs2_4 t) accM (Memref.isWhole_whole _) diagM (Memref.isWhole_whole _) hc1 hc2 hc3 hc4 (bX V c t) (bXs V c t) (bY V c t) (bYs V c t) _).2 _ _ Set.univ _)
        isplitl [H0]; · iexact H0
        isplitl [H1]; · iexact H1
        isplitl [H2]; · iexact H2
        isplitl [H3]; · iexact H3
        isplitl [H4]; · iexact H4
        isplitl [HA]; · iexact HA
        isplitl [HD]; · iexact HD
        iintro ⟨H0, H1, H2, H3, H4, ⟨%fa, HA⟩, HD⟩
        isplitl [HA HD HR]
        · isplitl [HA HD]
          · isplitl [HA]
            · unfold owns; iexists _; isplitr
              swap; · iexact HA
              ipureintro; exact midAcc_eq (hc1 := hc1) (hc2 := hc2) (hc3 := hc3) (hc4 := hc4) ..
            · iexact HD
          iexact HR
        isplitl [Ho]; · iexact Ho
        isplitl [H0]; · iexact H0
        isplitl [H1]; · iexact H1
        isplitl [H2]; · iexact H2
        isplitl [H3]; · iexact H3
        iexists _; iexact H4

/-- The library's body obligation, at every point. -/
theorem nnbody (c : Dev nD) : BodyObligation (nndat (F := F) V c) (defs₀ (F := F)) Variants.none () Set.univ := fun t => by
  rw [bigSep_W2, bigSep_W2]
  exact sound_nnbody V c t

/-- After the last point the invariant gives the class invariant back: the accumulators' values are forgotten. -/
theorem nnhout (c : Dev nD) : (nndat V c).Φ (Fin.last cfg2.N) ⊢ Pipeline.ΦA spec2 c := by
  rw [show (nndat V c).Φ (Fin.last cfg2.N) = PhiS V c (Fin.last cfg2.N).val (Nat.le_of_lt_succ (Fin.last cfg2.N).isLt) from rfl,
    PhiS_pos V c _ _ (by rw [Fin.val_last]; have : cfg2.N = 256 := N_2; omega), PhiA2_eq]
  iintro ⟨⟨HA, HD⟩, HOS, Hg⟩
  have hfr := otherScoped_frame (F := F) c iprop(emp) iprop((∃ d, owns (c : Thread nD τ) accM fullShare d) ∗ (∃ d, owns (c : Thread nD τ) diagM fullShare d))
  ihave HOS' := hfr $$ HOS
  icases HOS' with ⟨-, Hback⟩
  isplitl [HA HD Hback]
  · iapply Hback
    isplitl [HA]
    · iexists _; iexact HA
    iexists _; iexact HD
  iexact Hg

end Region

end Cert.Kernel.Hand

end
-- ==== Proof.RunAllBits.lean ====
/-
  The run of the whole program: the two normalisations, the reshaping of the second matrix's column of squared
  lengths into a row, the nearest-neighbour region, and the ten host operations that turn its column of distances
  into the loss.

  The buffer contents at each boundary between two of these five pieces are written as a fold from the launch
  memory: a region replaces its windows' arrays by what its write-backs leave and keeps every other buffer; a
  stretch of host operations is the fold of its operations. Each region is entered from every unscoped buffer held at
  the boundary's contents beside the generator register and nothing owed, and leaves the next boundary's contents in
  the same form. Every weakly fair execution from any memory with zero counters terminates, and every final memory
  holds each unscoped buffer at the last boundary's contents; no piece writes either argument.
-/
import proofs.«152194_j74887049773256_2_alg».proof.Proof.Gen.Kernel.Launch
import proofs.«152194_j74887049773256_2_alg».proof.Proof.Gen.Kernel.Skeleton
import proofs.«152194_j74887049773256_2_alg».proof.Proof.Gen.Kernel.Points
import proofs.«152194_j74887049773256_2_alg».proof.Proof.Gen.Kernel.Regions
import proofs.«152194_j74887049773256_2_alg».proof.Proof.NormRegionsBits
import proofs.«152194_j74887049773256_2_alg».proof.Proof.NNRegionBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch (the first region's entry). -/
abbrev W0 : Dev nD → Valuation τ sig (Elt F) := fun c b => (s₀ m ρ).mem ((c : Dev nD), b)
/-- The same read at the core's references. -/
abbrev VW0 : (c : Dev nD) → (b : Ref sig .tc) → Buf (Elt F) ((c : Thread nD τ).loc b) := fun c b => W0 m ρ c b

/-- After the first normalisation: its arrays at what the write-backs leave, every other buffer as entered. -/
def W1 (c : Dev nD) : Valuation τ sig (Elt F) :=
  Pipeline.withArrays spec0 c (W0 m ρ c) fun w => (ndat0 (VW0 m ρ) c).arrAt w cfg0.N
theorem W1_arr (c : Dev nD) (w : Fin cfg0.W) :
    W1 m ρ c (Proc.devRef .tc (Pipeline.arrRef spec0 w)) = (ndat0 (VW0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's references. -/
abbrev VW1 : (c : Dev nD) → (b : Ref sig .tc) → Buf (Elt F) ((c : Thread nD τ).loc b) := fun c b => W1 m ρ c b
/-- At the region's exit each of its arrays holds what the pipeline leaves, and every other buffer what it held. -/
theorem hF0 (c : Dev nD) (w : Fin cfg0.W) : (ndat0 (VW0 m ρ) c).arrAt w cfg0.N = VW1 m ρ c (Pipeline.arrRef spec0 w) :=
  (W1_arr m ρ c w).symm
theorem hrest0 (c : Dev nD) : ∀ b, b ∉ Finset.univ.image (Pipeline.arrRef spec0) → VW1 m ρ c b = VW0 m ρ c b :=
  fun b hb => W1_of_ne m ρ c b fun w e => hb (Finset.mem_image.mpr ⟨w, Finset.mem_univ _, e⟩)

/-- After the second normalisation. -/
def W2 (c : Dev nD) : Valuation τ sig (Elt F) :=
  Pipeline.withArrays spec1 c (W1 m ρ c) fun w => (ndat1 (VW1 m ρ) c).arrAt w cfg1.N
theorem W2_arr (c : Dev nD) (w : Fin cfg1.W) :
    W2 m ρ c (Proc.devRef .tc (Pipeline.arrRef spec1 w)) = (ndat1 (VW1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the core's references. -/
abbrev VW2 : (c : Dev nD) → (b : Ref sig .tc) → Buf (Elt F) ((c : Thread nD τ).loc b) := fun c b => W2 m ρ c b
theorem hF1 (c : Dev nD) (w : Fin cfg1.W) : (ndat1 (VW1 m ρ) c).arrAt w cfg1.N = VW2 m ρ c (Pipeline.arrRef spec1 w) :=
  (W2_arr m ρ c w).symm
theorem hrest1 (c : Dev nD) : ∀ b, b ∉ Finset.univ.image (Pipeline.arrRef spec1) → VW2 m ρ c b = VW1 m ρ c b :=
  fun b hb => W2_of_ne m ρ c b fun w e => hb (Finset.mem_image.mpr ⟨w, Finset.mem_univ _, e⟩)

/-- After the reshaping of the column of squared lengths into a row (the third region's entry). -/
abbrev W3 : Dev nD → Valuation τ sig (Elt F) := fun c => StableHlo.after hostOps2 (W2 m ρ c)
/-- The same read at the core's references. -/
abbrev VW3 : (c : Dev nD) → (b : Ref sig .tc) → Buf (Elt F) ((c : Thread nD τ).loc b) := fun c b => W3 m ρ c b

/-- After the nearest-neighbour region. -/
def W4 (c : Dev nD) : Valuation τ sig (Elt F) :=
  Pipeline.withArrays spec2 c (W3 m ρ c) fun w => (nndat (VW3 m ρ) c).arrAt w cfg2.N
theorem W4_arr (c : Dev nD) (w : Fin cfg2.W) :
    W4 m ρ c (Proc.devRef .tc (Pipeline.arrRef spec2 w)) = (nndat (VW3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the core's references. -/
abbrev VW4 : (c : Dev nD) → (b : Ref sig .tc) → Buf (Elt F) ((c : Thread nD τ).loc b) := fun c b => W4 m ρ c b
theorem hF2 (c : Dev nD) (w : Fin cfg2.W) : (nndat (VW3 m ρ) c).arrAt w cfg2.N = VW4 m ρ c (Pipeline.arrRef spec2 w) :=
  (W4_arr m ρ c w).symm
theorem hrest2 (c : Dev nD) : ∀ b, b ∉ Finset.univ.image (Pipeline.arrRef spec2) → VW4 m ρ c b = VW3 m ρ c b :=
  fun b hb => W4_of_ne m ρ c b fun w e => hb (Finset.mem_image.mpr ⟨w, Finset.mem_univ _, e⟩)

/-- After the ten closing host operations: the contents the program returns with. -/
abbrev W5 : Dev nD → Valuation τ sig (Elt F) := fun c => StableHlo.after hostOps3 (W4 m ρ c)

/-! ### The arguments end as launched: no host operation writes one, and a region only reads its own -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (r := main_arg0) (by decide)
    _ = W3 m ρ c (Proc.devRef .tc main_arg0) := W4_of_ne m ρ c main_arg0 (by decide)
    _ = W2 m ρ c (Proc.devRef .tc main_arg0) := StableHlo.after_of_writes_sub hostOps2 _ hostOps2_writes (r := main_arg0) (by decide)
    _ = W1 m ρ c (Proc.devRef .tc main_arg0) := W2_of_ne m ρ c main_arg0 (by decide)
    _ = W0 m ρ c (Proc.devRef .tc main_arg0) := (W1_arr m ρ c 0).trans (((ndat0 (VW0 m ρ) c).arrAt_in 0 rfl _).trans (ndat0_A (VW0 m ρ) c 0))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (r := main_arg1) (by decide)
    _ = W3 m ρ c (Proc.devRef .tc main_arg1) := W4_of_ne m ρ c main_arg1 (by decide)
    _ = W2 m ρ c (Proc.devRef .tc main_arg1) := StableHlo.after_of_writes_sub hostOps2 _ hostOps2_writes (r := main_arg1) (by decide)
    _ = W1 m ρ c (Proc.devRef .tc main_arg1) := (W2_arr m ρ c 0).trans (((ndat1 (VW1 m ρ) c).arrAt_in 0 rfl _).trans (ndat1_A (VW1 m ρ) c 0))
    _ = W0 m ρ c (Proc.devRef .tc main_arg1) := W1_of_ne m ρ c main_arg1 (by decide)
    _ = m ((c : Thread nD τ).loc main_arg1) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => ndat0 (VW0 m ρ) c
  | ⟨1, _⟩ => fun c => ndat1 (VW1 m ρ) c
  | ⟨2, _⟩ => fun c => nndat (VW3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every piece: the core's generator register at some state, and nothing owed. -/
abbrev R (c : Dev nD) : sProp 𝕄 := iprop((∃ r, prngReg c r) ∗ ∃ W, owes (c : Thread nD τ) (0 : CellTallies nD τ sig Unit) W)
/-- A stretch of host operations as a segment, over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the debts: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

-- the library's statement and this one name the same pipeline configuration
set_option backward.isDefEq.respectTransparency.types false in
/-- Region 0 over the thread state: entered from every unscoped buffer at `W0`, left at `W1`. Its arrays are
    split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (nbody0 (VW0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VW0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VW0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VW0 m ρ c) (VW1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's statement and this one name the same pipeline configuration
set_option backward.isDefEq.respectTransparency.types false in
/-- Region 1 over the thread state: entered from every unscoped buffer at `W1`, left at `W2`. Its arrays are
    split out of the unscoped buffers and put back at the exit contents; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (nbody1 (VW1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (VW1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VW1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VW1 m ρ c) (VW2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's statement and this one name the same pipeline configuration
set_option backward.isDefEq.respectTransparency.types false in
/-- Region 2 over the thread state: entered from every unscoped buffer at `W3`, left at `W4`. Its arrays are
    split out of the unscoped buffers and put back at the exit contents; the generator register goes into the
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (nnbody (VW3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (VW3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VW3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from nnhout (VW3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (VW3 m ρ c) (VW4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order. -/
abbrev segsAll : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)) ]
/-- The program is the run of the segments. -/
theorem main_run (c : Dev nD) : main (F := F) c = Pipeline.Seg.run (segsAll m ρ) := (main_chain c).trans (by chain_rfl)

-- the library's statement and this one name the same pipeline configuration
set_option backward.isDefEq.respectTransparency.types false in
/-- From any memory with zero counters every weakly fair execution of the program terminates, nothing faulting, and
    every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segsAll m ρ)
    (fun c Q => by rw [main_run m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- An unscoped reference of the core is among those the final memory is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.NNDefs.lean ====
/-
  The nearest-neighbour region (the third pallas_call): its grid is 8 row tiles by 32 column tiles, row-major, so
  point `t` is row tile `t / 32`, column tile `t % 32`. The body branches on four conditions of the point:
  first column tile (reset both accumulators), off the diagonal tile (plain running minimum), on the diagonal
  tile (masked minimum, and the diagonal entry kept apart), last column tile (finalize into the output block).
  Here: the conditions as the body computes them, decided over the grid; where the output window is idle;
  the memrefs the body is called with; and the region's invariant with the two accumulators named.
-/
import proofs.«152194_j74887049773256_2_alg».proof.Proof.Gen.KernelIdeal.Launch
import proofs.«152194_j74887049773256_2_alg».proof.Proof.Gen.KernelIdeal.Skeleton
import proofs.«152194_j74887049773256_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four conditions, decided over the grid -/

/-- "first column tile": the chain of the first `scf.if`. -/
abbrev condFirst (i : grid2.Coords) : Prop :=
  (Scalar.cmpi .ne (Scalar.extui (Scalar.cmpi .eq (BitVec.ofNat 32 (i 1).val) 0#32)) 0#32) = 1#1
/-- "off the diagonal tile": the chain of the second `scf.if`. -/
abbrev condOff (i : grid2.Coords) : Prop :=
  (Scalar.cmpi .ne (Scalar.extui (Scalar.cmpi .ne (BitVec.ofNat 32 (i 0).val) (BitVec.ofNat 32 (i 1).val))) 0#32) = 1#1
/-- "on the diagonal tile": the chain of the third `scf.if`. -/
abbrev condDiag (i : grid2.Coords) : Prop :=
  (Scalar.cmpi .ne (Scalar.extui (Scalar.cmpi .eq (BitVec.ofNat 32 (i 0).val) (BitVec.ofNat 32 (i 1).val))) 0#32) = 1#1
/-- "last column tile": the printed condition of the fourth `scf.if`. -/
abbrev condLast (i : grid2.Coords) : Prop := k2_cond4 i = 1#1

theorem hcondFirst : ∀ t : Fin cfg2.N, condFirst (grid2.coords t) ↔ t.val % 32 = 0 :=
  (by decide +kernel : ∀ t : Fin grid2.N, condFirst (grid2.coords t) ↔ t.val % 32 = 0)
theorem hcondOff : ∀ t : Fin cfg2.N, condOff (grid2.coords t) ↔ t.val / 32 ≠ t.val % 32 :=
  (by decide +kernel : ∀ t : Fin grid2.N, condOff (grid2.coords t) ↔ t.val / 32 ≠ t.val % 32)
theorem hcondDiag : ∀ t : Fin cfg2.N, condDiag (grid2.coords t) ↔ t.val / 32 = t.val % 32 :=
  (by decide +kernel : ∀ t : Fin grid2.N, condDiag (grid2.coords t) ↔ t.val / 32 = t.val % 32)
theorem hcondLast : ∀ t : Fin cfg2.N, condLast (grid2.coords t) ↔ t.val % 32 = 31 :=
  (by decide +kernel : ∀ t : Fin grid2.N, condLast (grid2.coords t) ↔ t.val % 32 = 31)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
/-- The output block is stored only at the last column tile: elsewhere the window is idle and not written back. -/
theorem idle2_4 : ∀ t : Fin cfg2.N, ¬condLast (grid2.coords t) → cfg2.idle 4 (grid2.coords t) = true := by decide +kernel
theorem noFlush2_4 : ∀ t : Fin cfg2.N, ¬condLast (grid2.coords t) → (cfg2.win 4).flush t = false := by decide +kernel
theorem live2_4 : ∀ t : Fin cfg2.N, condLast (grid2.coords t) → cfg2.idle 4 (grid2.coords t) = false := by decide +kernel

/-! ## The memrefs the body is called with -/

abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1 .f32 := win2_4.stage (cfg2.slots t 4)
abbrev hs2_4 (t : Fin cfg2.N) : (ms2_4 t).IsWhole := hstage2_4 ((cfg2.slots t 4).cast nbuf2_4)
/-- The running minimum over the off-diagonal columns, and the diagonal entry: the kernel's two scratch columns. -/
abbrev accM : Memref sig .tc .vmem S1024x1 .f32 := Memref.whole cc2_scratch0
abbrev diagM : Memref sig .tc .vmem S1024x1 .f32 := Memref.whole cc2_scratch1
abbrev accV : View sig .tc .vmem S1024x1 .f32 := accM.view
abbrev diagV : View sig .tc .vmem S1024x1 .f32 := diagM.view
abbrev outV : View sig .tc .vmem S1024x1 .f32 := (Memref.whole cc2_stg4_0 : Memref sig .tc .vmem S1024x1 .f32).view

/-- The other regions' staging buffers, scoped and untouched here, each at some contents; `T` rides at the end. -/
def otherScoped (c : Dev nD) (T : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ T)

/-- The class invariant of the region, with the two accumulators as memrefs owned at some contents. -/
theorem PhiA2_eq (c : Dev nD) :
    (Pipeline.ΦA spec2 c : sProp 𝕄)
      = iprop(otherScoped c iprop((∃ d, owns (c : Thread nD τ) accM fullShare d) ∗ (∃ d, owns (c : Thread nD τ) diagM fullShare d)) ∗ (∃ r, prngReg c r)) := by
  unfold Pipeline.ΦA otherScoped; rw [scopedRest2_eq]; simp only [accM, diagM, owns_whole]; try rfl

end Cert.KernelIdeal.Hand

end
-- ==== Proof.NNRunFirst.lean ====
/-
  The nearest-neighbour body at the very first point (row tile 0, column tile 0, which is also the diagonal tile):
  both accumulators are reset to +inf, then the running minimum takes the masked row minima of the tile and the
  diagonal entry is recorded. The output block is left alone.
-/
import proofs.«152194_j74887049773256_2_alg».proof.Proof.NNDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces both accumulators end with, and the body's triple at that point. -/
noncomputable def runFirst (c : Dev nD) (i : grid2.Coords)
    (arg2 : Memref sig .tc .vmem S1024x1024 .bf16) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : condFirst i) (hc2 : ¬condOff i) (hc3 : condDiag i) (hc4 : ¬condLast i)
    (x0 : Vec F S1024x1024 .bf16) (x1 : Vec F S1024x1 .f32) (x2 : Vec F S1024x1024 .bf16) (x3 : Vec F S1x1024 .f32) :
    Σ' (LA : List (View.Piece (Elt F) S1024x1 .f32)), { LD : List (View.Piece (Elt F) S1024x1 .f32) //
      ∀ (xo xa xd : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo ∗ owns (c : Thread nD τ) arg7 fullShare xa
            ∗ owns (c : Thread nD τ) arg8 fullShare xd
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
                ∗ (∃ f, arg7.view.loc (c : Thread nD τ) ↦[arg7.view.set]{fullShare} arg7.view.writes (Elt F) f LA)
                ∗ (∃ f, arg8.view.loc (c : Thread nD τ) ↦[arg8.view.set]{fullShare} arg8.view.writes (Elt F) f LD)) -∗ K ⟨⟩))
          ⊢ wp frame (wpE (defs₀ (F := F)) Variants.none c none) E (cc2__nn_min_kernel i arg2 harg2 arg3 harg3 arg4 harg4 arg5 harg5 arg6 harg6 arg7 harg7 arg8 harg8) K } := by
  refine ⟨?_, ?_, fun xo xa xd E K => ?run⟩
  case run =>
    simp only [cc2__nn_min_kernel_eq_skeleton]; unfold cc2__nn_min_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fd, %hfd, HD⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfa
    obtain rfl := harg8.eq_unread hfd
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HA]
    · iexists _; iexact HA
    iexists _; iexact HD

end Cert.KernelIdeal.Hand

end
-- ==== Proof.NNRunFirstOff.lean ====
/-
  The nearest-neighbour body at the first column tile of a row tile other than the first (so off the diagonal):
  both accumulators are reset to +inf, then the running minimum takes the tile's row minima.
-/
import proofs.«152194_j74887049773256_2_alg».proof.Proof.NNDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces both accumulators end with, and the body's triple at such a point. -/
noncomputable def runFirstOff (c : Dev nD) (i : grid2.Coords)
    (arg2 : Memref sig .tc .vmem S1024x1024 .bf16) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : condFirst i) (hc2 : condOff i) (hc3 : ¬condDiag i) (hc4 : ¬condLast i)
    (x0 : Vec F S1024x1024 .bf16) (x1 : Vec F S1024x1 .f32) (x2 : Vec F S1024x1024 .bf16) (x3 : Vec F S1x1024 .f32) :
    Σ' (LA : List (View.Piece (Elt F) S1024x1 .f32)), { LD : List (View.Piece (Elt F) S1024x1 .f32) //
      ∀ (xo xa xd : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo ∗ owns (c : Thread nD τ) arg7 fullShare xa
            ∗ owns (c : Thread nD τ) arg8 fullShare xd
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
                ∗ (∃ f, arg7.view.loc (c : Thread nD τ) ↦[arg7.view.set]{fullShare} arg7.view.writes (Elt F) f LA)
                ∗ (∃ f, arg8.view.loc (c : Thread nD τ) ↦[arg8.view.set]{fullShare} arg8.view.writes (Elt F) f LD)) -∗ K ⟨⟩))
          ⊢ wp frame (wpE (defs₀ (F := F)) Variants.none c none) E (cc2__nn_min_kernel i arg2 harg2 arg3 harg3 arg4 harg4 arg5 harg5 arg6 harg6 arg7 harg7 arg8 harg8) K } := by
  refine ⟨?_, ?_, fun xo xa xd E K => ?run⟩
  case run =>
    simp only [cc2__nn_min_kernel_eq_skeleton]; unfold cc2__nn_min_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fd, %hfd, HD⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfa
    obtain rfl := harg8.eq_unread hfd
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HA]
    · iexists _; iexact HA
    iexists _; iexact HD

end Cert.KernelIdeal.Hand

end
-- ==== Proof.NNRunDiag.lean ====
/-
  The nearest-neighbour body at the diagonal tile of a row tile other than the first (so neither the first nor the
  last column tile): the running minimum takes the masked row minima of the tile, and the diagonal entry is recorded.
-/
import proofs.«152194_j74887049773256_2_alg».proof.Proof.NNDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces both accumulators end with, and the body's triple at such a point. -/
noncomputable def runDiag (c : Dev nD) (i : grid2.Coords)
    (arg2 : Memref sig .tc .vmem S1024x1024 .bf16) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : ¬condFirst i) (hc2 : ¬condOff i) (hc3 : condDiag i) (hc4 : ¬condLast i)
    (x0 : Vec F S1024x1024 .bf16) (x1 : Vec F S1024x1 .f32) (x2 : Vec F S1024x1024 .bf16) (x3 : Vec F S1x1024 .f32) (xa : Vec F S1024x1 .f32) :
    Σ' (LA : List (View.Piece (Elt F) S1024x1 .f32)), { LD : List (View.Piece (Elt F) S1024x1 .f32) //
      ∀ (xo xd : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo ∗ owns (c : Thread nD τ) arg7 fullShare xa
            ∗ owns (c : Thread nD τ) arg8 fullShare xd
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
                ∗ (∃ f, arg7.view.loc (c : Thread nD τ) ↦[arg7.view.set]{fullShare} arg7.view.writes (Elt F) f LA)
                ∗ (∃ f, arg8.view.loc (c : Thread nD τ) ↦[arg8.view.set]{fullShare} arg8.view.writes (Elt F) f LD)) -∗ K ⟨⟩))
          ⊢ wp frame (wpE (defs₀ (F := F)) Variants.none c none) E (cc2__nn_min_kernel i arg2 harg2 arg3 harg3 arg4 harg4 arg5 harg5 arg6 harg6 arg7 harg7 arg8 harg8) K } := by
  refine ⟨?_, ?_, fun xo xd E K => ?run⟩
  case run =>
    simp only [cc2__nn_min_kernel_eq_skeleton]; unfold cc2__nn_min_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fd, %hfd, HD⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfa
    obtain rfl := harg8.eq_unread hfd
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HA]
    · iexists _; iexact HA
    iexists _; iexact HD

end Cert.KernelIdeal.Hand

end
-- ==== Proof.NNRunMid.lean ====
/-
  The nearest-neighbour body at a point off the diagonal tile, neither first nor last column tile: the running
  minimum is lowered by the tile's row minima; the diagonal entry and the output block are left alone.
-/
import proofs.«152194_j74887049773256_2_alg».proof.Proof.NNDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the running minimum ends with, and the body's triple at such a point: the four input blocks, the
    untouched output block and the diagonal entry are handed back as found. -/
noncomputable def runMid (c : Dev nD) (i : grid2.Coords)
    (arg2 : Memref sig .tc .vmem S1024x1024 .bf16) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : ¬condFirst i) (hc2 : condOff i) (hc3 : ¬condDiag i) (hc4 : ¬condLast i)
    (x0 : Vec F S1024x1024 .bf16) (x1 : Vec F S1024x1 .f32) (x2 : Vec F S1024x1024 .bf16) (x3 : Vec F S1x1024 .f32)
    (xa : Vec F S1024x1 .f32) :
    { LA : List (View.Piece (Elt F) S1024x1 .f32) //
      ∀ (xo : Vec F S1024x1 .f32) (xd : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo ∗ owns (c : Thread nD τ) arg7 fullShare xa
            ∗ owns (c : Thread nD τ) arg8 fullShare xd
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare xo
                ∗ (∃ f, arg7.view.loc (c : Thread nD τ) ↦[arg7.view.set]{fullShare} arg7.view.writes (Elt F) f LA)
                ∗ owns (c : Thread nD τ) arg8 fullShare xd) -∗ K ⟨⟩))
          ⊢ wp frame (wpE (defs₀ (F := F)) Variants.none c none) E (cc2__nn_min_kernel i arg2 harg2 arg3 harg3 arg4 harg4 arg5 harg5 arg6 harg6 arg7 harg7 arg8 harg8) K } := by
  refine ⟨?_, fun xo xd E K => ?run⟩
  case run =>
    simp only [cc2__nn_min_kernel_eq_skeleton]; unfold cc2__nn_min_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fd, %hfd, HD⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfa
    obtain rfl := harg8.eq_unread hfd
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HA]
    · iexists _; iexact HA
    iexists _; isplitr; · ipureintro; exact harg8.read_unread _
    iexact HD

end Cert.KernelIdeal.Hand

end
-- ==== Proof.NNRunLast.lean ====
/-
  The nearest-neighbour body at the last column tile (always off the diagonal, since there are only 8 row tiles):
  the running minimum takes the tile's row minima, then the output block is finalized from the row's own squared
  length, the finished running minimum and the diagonal entry.
-/
import proofs.«152194_j74887049773256_2_alg».proof.Proof.NNDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output block and the running minimum end with, and the body's triple at such a point. -/
noncomputable def runLast (c : Dev nD) (i : grid2.Coords)
    (arg2 : Memref sig .tc .vmem S1024x1024 .bf16) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : ¬condFirst i) (hc2 : condOff i) (hc3 : ¬condDiag i) (hc4 : condLast i)
    (x0 : Vec F S1024x1024 .bf16) (x1 : Vec F S1024x1 .f32) (x2 : Vec F S1024x1024 .bf16) (x3 : Vec F S1x1024 .f32) (xa xd : Vec F S1024x1 .f32) :
    Σ' (LO : List (View.Piece (Elt F) S1024x1 .f32)), { LA : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo ∗ owns (c : Thread nD τ) arg7 fullShare xa
            ∗ owns (c : Thread nD τ) arg8 fullShare xd
            ∗ (iprop(owns (c : Thread nD τ) arg2 fullShare x0 ∗ owns (c : Thread nD τ) arg3 fullShare x1 ∗ owns (c : Thread nD τ) arg4 fullShare x2
            ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LA)
                ∗ owns (c : Thread nD τ) arg8 fullShare xd) -∗ K ⟨⟩))
          ⊢ wp frame (wpE (defs₀ (F := F)) Variants.none c none) E (cc2__nn_min_kernel i arg2 harg2 arg3 harg3 arg4 harg4 arg5 harg5 arg6 harg6 arg7 harg7 arg8 harg8) K } := by
  refine ⟨?_, ?_, fun xo E K => ?run⟩
  case run =>
    simp only [cc2__nn_min_kernel_eq_skeleton]; unfold cc2__nn_min_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fd, %hfd, HD⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfa
    obtain rfl := harg8.eq_unread hfd
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [HA]
    · iexists _; iexact HA
    iexists _; isplitr; · ipureintro; exact harg8.read_unread _
    iexact HD

end Cert.KernelIdeal.Hand

end
-- ==== Proof.NNPieces.lean ====
/-
  What each case of the nearest-neighbour body leaves in the two accumulators and in the output block, as values:
  every store is of the whole column, so a buffer ends at its LAST store's payload, a load after a store reads that
  store's payload, and a whole staging buffer read whole is its contents. Per case:
    first point            running minimum = masked-minimum step from +inf;  diagonal entry = the tile's diagonal
    first tile, off diag   running minimum = minimum step from +inf;         diagonal entry = +inf
    diagonal tile          running minimum = masked-minimum step;            diagonal entry = the tile's diagonal
    middle tile            running minimum = minimum step;                   diagonal entry kept
    last tile              running minimum = minimum step;  output = the finalize of (row ssq, finished minimum, diagonal entry)
-/
import proofs.«152194_j74887049773256_2_alg».proof.Proof.NNRunFirst
import proofs.«152194_j74887049773256_2_alg».proof.Proof.NNRunFirstOff
import proofs.«152194_j74887049773256_2_alg».proof.Proof.NNRunDiag
import proofs.«152194_j74887049773256_2_alg».proof.Proof.NNRunMid
import proofs.«152194_j74887049773256_2_alg».proof.Proof.NNRunLast
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The origin of a rank-2 block. -/
theorem origin2 : (![0, 0] : Fin 2 → ℕ) = fun _ => 0 := by funext a; fin_cases a <;> rfl

/-- A whole block loaded through the rectangle that is the whole block is the block. -/
theorem ldSq {e : EltTy} (x : S1024x1024.Idx → Elt F e) :
    View.ld x (Rect.unit (s := S1024x1024) ![0, 0] ![1024, 1024] inb_S1024x1024_S1024x1024_0_0) = x :=
  View.ld_unit_zero (S := S1024x1024) origin2 _ x
theorem ldCol {e : EltTy} (x : S1024x1.Idx → Elt F e) :
    View.ld x (Rect.unit (s := S1024x1) ![0, 0] ![1024, 1] inb_S1024x1_S1024x1_0_0) = x :=
  View.ld_unit_zero (S := S1024x1) origin2 _ x
theorem ldRow {e : EltTy} (x : S1x1024.Idx → Elt F e) :
    View.ld x (Rect.unit (s := S1x1024) ![0, 0] ![1, 1024] inb_S1x1024_S1x1024_0_0) = x :=
  View.ld_unit_zero (S := S1x1024) origin2 _ x
/-- A column loaded whole right after it was stored whole is what was stored. -/
theorem covCol {sig' : RefSig} {κ' : Kind} {sp' : Space} (v : View sig' κ' sp' S1024x1 .f32) (w : S1024x1.Idx → Elt F .f32) :
    v.readCov [(⟨Rect.unit (s := S1024x1) ![0, 0] ![1024, 1] inb_S1024x1_S1024x1_0_0, w⟩ : View.Piece (Elt F) S1024x1 .f32)]
      (Rect.unit (s := S1024x1) ![0, 0] ![1024, 1] inb_S1024x1_S1024x1_0_0).toLoadRect = w :=
  View.readCov_unit_zero (S := S1024x1) v origin2 _ w

section
variable (c : Dev nD) (i : grid2.Coords)
    (arg2 : Memref sig .tc .vmem S1024x1024 .bf16) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (x0 : Vec F S1024x1024 .bf16) (x1 : Vec F S1024x1 .f32) (x2 : Vec F S1024x1024 .bf16) (x3 : Vec F S1x1024 .f32)
    (xa xd : Vec F S1024x1 .f32)
    {sig' : RefSig} {κ' : Kind} {sp' : Space} (v : View sig' κ' sp' S1024x1 .f32) (f : v.ty.Contents (Elt F))

/-- Middle tile: the running minimum after the body. -/
theorem midAcc_eq (hc1 : ¬condFirst i) (hc2 : condOff i) (hc3 : ¬condDiag i) (hc4 : ¬condLast i) :
    v.read (Elt F) (v.writes (Elt F) f (runMid c i arg2 harg2 arg3 harg3 arg4 harg4 arg5 harg5 arg6 harg6 arg7 harg7 arg8 harg8 hc1 hc2 hc3 hc4 x0 x1 x2 x3 xa).1) = k2_pay4 x0 x2 x3 xa := by
  rw [View.read_writes_eq_canon _ _ _ (View.cover_of_tiledL _ S1024x1.size (by sl_kernel_rfl))]
  unfold runMid; dsimp only; sl_unfold_words
  rw [View.canon_cons_unit_zero (S := S1024x1) origin2]
  simp only [View.readAt_eq_ld, Memref.IsWhole.read_unread, ldSq, ldCol, ldRow]

/-- First point: the running minimum and the diagonal entry after the body. -/
theorem firstAcc_eq (hc1 : condFirst i) (hc2 : ¬condOff i) (hc3 : condDiag i) (hc4 : ¬condLast i) :
    v.read (Elt F) (v.writes (Elt F) f (runFirst c i arg2 harg2 arg3 harg3 arg4 harg4 arg5 harg5 arg6 harg6 arg7 harg7 arg8 harg8 hc1 hc2 hc3 hc4 x0 x1 x2 x3).1) = k2_pay6 x0 x2 x3 k2_pay1 := by
  rw [View.read_writes_eq_canon _ _ _ (View.cover_of_tiledL _ S1024x1.size (by sl_kernel_rfl))]
  unfold runFirst; dsimp only; sl_unfold_words
  rw [View.canon_cons_unit_zero (S := S1024x1) origin2]
  simp only [View.readAt_eq_ld, Memref.IsWhole.read_unread, ldSq, ldCol, ldRow, covCol]
theorem firstDiag_eq (hc1 : condFirst i) (hc2 : ¬condOff i) (hc3 : condDiag i) (hc4 : ¬condLast i) :
    v.read (Elt F) (v.writes (Elt F) f (runFirst c i arg2 harg2 arg3 harg3 arg4 harg4 arg5 harg5 arg6 harg6 arg7 harg7 arg8 harg8 hc1 hc2 hc3 hc4 x0 x1 x2 x3).2.1) = k2_pay7 x0 x2 x3 := by
  rw [View.read_writes_eq_canon _ _ _ (View.cover_of_tiledL _ S1024x1.size (by sl_kernel_rfl))]
  unfold runFirst; dsimp only; sl_unfold_words
  rw [View.canon_cons_unit_zero (S := S1024x1) origin2]
  simp only [View.readAt_eq_ld, Memref.IsWhole.read_unread, ldSq, ldCol, ldRow, covCol]

/-- First column tile off the diagonal: the running minimum and the (reset) diagonal entry after the body. -/
theorem firstOffAcc_eq (hc1 : condFirst i) (hc2 : condOff i) (hc3 : ¬condDiag i) (hc4 : ¬condLast i) :
    v.read (Elt F) (v.writes (Elt F) f (runFirstOff c i arg2 harg2 arg3 harg3 arg4 harg4 arg5 harg5 arg6 harg6 arg7 harg7 arg8 harg8 hc1 hc2 hc3 hc4 x0 x1 x2 x3).1) = k2_pay4 x0 x2 x3 k2_pay1 := by
  rw [View.read_writes_eq_canon _ _ _ (View.cover_of_tiledL _ S1024x1.size (by sl_kernel_rfl))]
  unfold runFirstOff; dsimp only; sl_unfold_words
  rw [View.canon_cons_unit_zero (S := S1024x1) origin2]
  simp only [View.readAt_eq_ld, Memref.IsWhole.read_unread, ldSq, ldCol, ldRow, covCol]
theorem firstOffDiag_eq (hc1 : condFirst i) (hc2 : condOff i) (hc3 : ¬condDiag i) (hc4 : ¬condLast i) :
    v.read (Elt F) (v.writes (Elt F) f (runFirstOff c i arg2 harg2 arg3 harg3 arg4 harg4 arg5 harg5 arg6 harg6 arg7 harg7 arg8 harg8 hc1 hc2 hc3 hc4 x0 x1 x2 x3).2.1) = k2_pay2 := by
  rw [View.read_writes_eq_canon _ _ _ (View.cover_of_tiledL _ S1024x1.size (by sl_kernel_rfl))]
  unfold runFirstOff; dsimp only; sl_unfold_words
  rw [View.canon_cons_unit_zero (S := S1024x1) origin2]

/-- Diagonal tile: the running minimum and the diagonal entry after the body. -/
theorem diagAcc_eq (hc1 : ¬condFirst i) (hc2 : ¬condOff i) (hc3 : condDiag i) (hc4 : ¬condLast i) :
    v.read (Elt F) (v.writes (Elt F) f (runDiag c i arg2 harg2 arg3 harg3 arg4 harg4 arg5 harg5 arg6 harg6 arg7 harg7 arg8 harg8 hc1 hc2 hc3 hc4 x0 x1 x2 x3 xa).1) = k2_pay6 x0 x2 x3 xa := by
  rw [View.read_writes_eq_canon _ _ _ (View.cover_of_tiledL _ S1024x1.size (by sl_kernel_rfl))]
  unfold runDiag; dsimp only; sl_unfold_words
  rw [View.canon_cons_unit_zero (S := S1024x1) origin2]
  simp only [View.readAt_eq_ld, Memref.IsWhole.read_unread, ldSq, ldCol, ldRow]
theorem diagDiag_eq (hc1 : ¬condFirst i) (hc2 : ¬condOff i) (hc3 : condDiag i) (hc4 : ¬condLast i) :
    v.read (Elt F) (v.writes (Elt F) f (runDiag c i arg2 harg2 arg3 harg3 arg4 harg4 arg5 harg5 arg6 harg6 arg7 harg7 arg8 harg8 hc1 hc2 hc3 hc4 x0 x1 x2 x3 xa).2.1) = k2_pay7 x0 x2 x3 := by
  rw [View.read_writes_eq_canon _ _ _ (View.cover_of_tiledL _ S1024x1.size (by sl_kernel_rfl))]
  unfold runDiag; dsimp only; sl_unfold_words
  rw [View.canon_cons_unit_zero (S := S1024x1) origin2]
  simp only [View.readAt_eq_ld, Memref.IsWhole.read_unread, ldSq, ldCol, ldRow]

/-- Last column tile: the output block and the running minimum after the body. -/
theorem lastOut_eq (hc1 : ¬condFirst i) (hc2 : condOff i) (hc3 : ¬condDiag i) (hc4 : condLast i) :
    v.read (Elt F) (v.writes (Elt F) f (runLast c i arg2 harg2 arg3 harg3 arg4 harg4 arg5 harg5 arg6 harg6 arg7 harg7 arg8 harg8 hc1 hc2 hc3 hc4 x0 x1 x2 x3 xa xd).1)
      = k2_pay8 x1 (k2_pay4 x0 x2 x3 xa) x1 xd := by
  rw [View.read_writes_eq_canon _ _ _ (View.cover_of_tiledL _ S1024x1.size (by sl_kernel_rfl))]
  unfold runLast; dsimp only; sl_unfold_words
  rw [View.canon_cons_unit_zero (S := S1024x1) origin2]
  simp only [View.readAt_eq_ld, Memref.IsWhole.read_unread, ldSq, ldCol, ldRow, covCol]
theorem lastAcc_eq (hc1 : ¬condFirst i) (hc2 : condOff i) (hc3 : ¬condDiag i) (hc4 : condLast i) :
    v.read (Elt F) (v.writes (Elt F) f (runLast c i arg2 harg2 arg3 harg3 arg4 harg4 arg5 harg5 arg6 harg6 arg7 harg7 arg8 harg8 hc1 hc2 hc3 hc4 x0 x1 x2 x3 xa xd).2.1) = k2_pay4 x0 x2 x3 xa := by
  rw [View.read_writes_eq_canon _ _ _ (View.cover_of_tiledL _ S1024x1.size (by sl_kernel_rfl))]
  unfold runLast; dsimp only; sl_unfold_words
  rw [View.canon_cons_unit_zero (S := S1024x1) origin2]
  simp only [View.readAt_eq_ld, Memref.IsWhole.read_unread, ldSq, ldCol, ldRow]

end

end Cert.KernelIdeal.Hand

end
-- ==== Proof.NNRegion.lean ====
/-
  The nearest-neighbour region as a pipeline run: what each window's staging buffer and the two accumulators hold
  after the body at every grid point.

  The inputs' buffers hold their blocks. The accumulators follow one recursion over the points (row-major, 32
  column tiles per row tile): entering a row tile both are reset to +inf; on the diagonal tile the running minimum
  takes the masked row minima and the diagonal entry is recorded; off it the running minimum takes the plain row
  minima and the diagonal entry is kept. At the last column tile the output block is the finalize of the row's
  squared length, the finished running minimum and the diagonal entry. The region's invariant carries the two
  accumulators at exactly these values from one point to the next.
-/
import proofs.«152194_j74887049773256_2_alg».proof.Proof.NNPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The other regions' staging buffers stay aside while the tail resource is taken out and another put back. -/
theorem otherScoped_frame (c : Dev nD) (T T' : sProp 𝕄) :
    otherScoped c T ⊢ iprop(T ∗ (T' -∗ otherScoped c T')) := by
  unfold otherScoped
  iintro ⟨H1, H2, H3, H4, H5, H6, H7, H8, H9, H10, H11, H12, HT⟩
  isplitl [HT]; · iexact HT
  iintro HT'
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact HT'

section Region

variable (V : (c : Dev nD) → (b : Ref sig .tc) → Buf (Elt F) ((c : Thread nD τ).loc b))

/-! ## The windows' blocks -/

/-- Window `w`'s block at point `t`, read off its array as the region finds it. -/
def nnblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The four input blocks of a point, at their vector types: normalised rows of X (a row tile), their squared
    lengths, normalised rows of Y (a column tile), their squared lengths as a row. -/
abbrev bX (c : Dev nD) (t : Fin cfg2.N) : Vec F S1024x1024 .bf16 := nnblk V c 0 t
abbrev bXs (c : Dev nD) (t : Fin cfg2.N) : Vec F S1024x1 .f32 := nnblk V c 1 t
abbrev bY (c : Dev nD) (t : Fin cfg2.N) : Vec F S1024x1024 .bf16 := nnblk V c 2 t
abbrev bYs (c : Dev nD) (t : Fin cfg2.N) : Vec F S1x1024 .f32 := nnblk V c 3 t

/-- An input window's current staging buffer holds its block at every point, fetched there or not. -/
theorem nnbefore_of0 {c : Dev nD} (dat : Dat τ (Elt F) Unit ℕ (UR sig nD τ) ℕ cfg2 c) (hA : dat.A 0 = V c (Pipeline.arrRef spec2 0))
    (hafter : ∀ t, dat.after 0 t = nnblk V c 0 t) (t : Fin cfg2.N) (d) : dat.before 0 t d = nnblk V c 0 t :=
  (dat.before_in_eq_fetched 0 rfl (fun _ => rfl) (fun _ _ _ => rfl) (fun t => by rw [hafter]; unfold Dat.blockOf nnblk; rw [hA]; try rfl) t d).trans
    (by unfold Dat.fetched Dat.blockOf nnblk; rw [hA]; try rfl)
theorem nnbefore_of1 {c : Dev nD} (dat : Dat τ (Elt F) Unit ℕ (UR sig nD τ) ℕ cfg2 c) (hA : dat.A 1 = V c (Pipeline.arrRef spec2 1))
    (hafter : ∀ t, dat.after 1 t = nnblk V c 1 t) (t : Fin cfg2.N) (d) : dat.before 1 t d = nnblk V c 1 t :=
  (dat.before_in_eq_fetched 1 rfl (fun _ => rfl) (fun _ _ _ => rfl) (fun t => by rw [hafter]; unfold Dat.blockOf nnblk; rw [hA]; try rfl) t d).trans
    (by unfold Dat.fetched Dat.blockOf nnblk; rw [hA]; try rfl)
theorem nnbefore_of2 {c : Dev nD} (dat : Dat τ (Elt F) Unit ℕ (UR sig nD τ) ℕ cfg2 c) (hA : dat.A 2 = V c (Pipeline.arrRef spec2 2))
    (hafter : ∀ t, dat.after 2 t = nnblk V c 2 t) (t : Fin cfg2.N) (d) : dat.before 2 t d = nnblk V c 2 t :=
  (dat.before_in_eq_fetched 2 rfl (fun _ => rfl) (fun _ _ _ => rfl) (fun t => by rw [hafter]; unfold Dat.blockOf nnblk; rw [hA]; try rfl) t d).trans
    (by unfold Dat.fetched Dat.blockOf nnblk; rw [hA]; try rfl)
theorem nnbefore_of3 {c : Dev nD} (dat : Dat τ (Elt F) Unit ℕ (UR sig nD τ) ℕ cfg2 c) (hA : dat.A 3 = V c (Pipeline.arrRef spec2 3))
    (hafter : ∀ t, dat.after 3 t = nnblk V c 3 t) (t : Fin cfg2.N) (d) : dat.before 3 t d = nnblk V c 3 t :=
  (dat.before_in_eq_fetched 3 rfl (fun _ => rfl) (fun _ _ _ => rfl) (fun t => by rw [hafter]; unfold Dat.blockOf nnblk; rw [hA]; try rfl) t d).trans
    (by unfold Dat.fetched Dat.blockOf nnblk; rw [hA]; try rfl)

/-! ## The accumulators, point by point -/

/-- One point's effect on (running minimum, diagonal entry). -/
def accStep (c : Dev nD) (t : Fin cfg2.N) (prev : Vec F S1024x1 .f32 × Vec F S1024x1 .f32) : Vec F S1024x1 .f32 × Vec F S1024x1 .f32 :=
  if t.val / 32 = t.val % 32 then
    (k2_pay6 (bX V c t) (bY V c t) (bYs V c t) (if t.val % 32 = 0 then k2_pay1 else prev.1), k2_pay7 (bX V c t) (bY V c t) (bYs V c t))
  else
    (k2_pay4 (bX V c t) (bY V c t) (bYs V c t) (if t.val % 32 = 0 then k2_pay1 else prev.1), if t.val % 32 = 0 then k2_pay2 else prev.2)

/-- (running minimum, diagonal entry) after the body at point `n`. -/
def accAt (c : Dev nD) : (n : ℕ) → n < cfg2.N → Vec F S1024x1 .f32 × Vec F S1024x1 .f32
  | 0, hn => accStep V c ⟨0, hn⟩ (k2_pay1, k2_pay2)
  | n + 1, hn => accStep V c ⟨n + 1, hn⟩ (accAt c n (Nat.lt_of_succ_lt hn))

theorem accAt_pos (c : Dev nD) (t : Fin cfg2.N) (ht : t.val ≠ 0) :
    accAt V c t.val t.isLt = accStep V c t (accAt V c (t.val - 1) (Nat.lt_of_le_of_lt (Nat.sub_le _ _) t.isLt)) := by
  obtain ⟨n, hn⟩ := t
  cases n with
  | zero => exact absurd rfl ht
  | succ n => rfl

theorem accAt_zero (c : Dev nD) (t : Fin cfg2.N) (ht : t.val = 0) :
    accAt V c t.val t.isLt = accStep V c t (k2_pay1, k2_pay2) := by
  obtain ⟨n, hn⟩ := t
  cases n with
  | zero => rfl
  | succ n => exact absurd ht (Nat.succ_ne_zero n)

/-- The output block a last-column-tile point stores: the finalize of the row tile's squared lengths, the finished
    running minimum and the diagonal entry. -/
def outAt (c : Dev nD) (t : Fin cfg2.N) : Vec F S1024x1 .f32 :=
  k2_pay8 (bXs V c t) (accAt V c t.val t.isLt).1 (bXs V c t) (accAt V c t.val t.isLt).2

/-! ## The invariant between points -/

/-- Before the first point: the class invariant (both accumulators at anything). Afterwards: both accumulators at
    what the point before left; the other regions' staging buffers and the generator register ride along. -/
def PhiS (c : Dev nD) : (n : ℕ) → n ≤ cfg2.N → sProp 𝕄
  | 0, _ => Pipeline.ΦA spec2 c
  | n + 1, hn => iprop(iprop(owns (c : Thread nD τ) accM fullShare (accAt V c n hn).1 ∗ owns (c : Thread nD τ) diagM fullShare (accAt V c n hn).2)
      ∗ otherScoped c iprop(emp) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) accM fullShare (accAt V c n hn).1 ∗ owns (c : Thread nD τ) diagM fullShare (accAt V c n hn).2)
      ∗ otherScoped c iprop(emp) ∗ (∃ r, prngReg c r)) := rfl
theorem PhiS_pos (c : Dev nD) (n : ℕ) (h : n ≤ cfg2.N) (hz : n ≠ 0) :
    PhiS V c n h = iprop(iprop(owns (c : Thread nD τ) accM fullShare (accAt V c (n - 1) (by omega)).1 ∗ owns (c : Thread nD τ) diagM fullShare (accAt V c (n - 1) (by omega)).2)
      ∗ otherScoped c iprop(emp) ∗ (∃ r, prngReg c r)) := by
  cases n with
  | zero => exact absurd rfl hz
  | succ n => rfl

/-! ## The proof data -/

def nndat (c : Dev nD) : Dat τ (Elt F) Unit ℕ (UR sig nD τ) ℕ cfg2 c where
  A w := V c (Pipeline.arrRef spec2 w)
  after w t := match w with
    | ⟨0, _⟩ => nnblk V c 0 t
    | ⟨1, _⟩ => nnblk V c 1 t
    | ⟨2, _⟩ => nnblk V c 2 t
    | ⟨3, _⟩ => nnblk V c 3 t
    | ⟨4, _⟩ => outAt V c t
  Φ t := PhiS V c t.val (Nat.le_of_lt_succ t.isLt)
  q _ := fullShare
  owed _ := 0

theorem nndat_A (c : Dev nD) (w : Fin cfg2.W) : (nndat V c).A w = V c (Pipeline.arrRef spec2 w) := by
  dsimp only [nndat]
theorem nndat_after0 (c : Dev nD) (t : Fin cfg2.N) : (nndat V c).after 0 t = nnblk V c 0 t := by dsimp only [nndat]
theorem nndat_after1 (c : Dev nD) (t : Fin cfg2.N) : (nndat V c).after 1 t = nnblk V c 1 t := by dsimp only [nndat]
theorem nndat_after2 (c : Dev nD) (t : Fin cfg2.N) : (nndat V c).after 2 t = nnblk V c 2 t := by dsimp only [nndat]
theorem nndat_after3 (c : Dev nD) (t : Fin cfg2.N) : (nndat V c).after 3 t = nnblk V c 3 t := by dsimp only [nndat]
theorem nndat_after4 (c : Dev nD) (t : Fin cfg2.N) : (nndat V c).after 4 t = outAt V c t := by dsimp only [nndat]

theorem nnbefore0 (c : Dev nD) (t : Fin cfg2.N) (d) : (nndat V c).before 0 t d = nnblk V c 0 t :=
  nnbefore_of0 V (nndat V c) (nndat_A V c 0) (nndat_after0 V c) t d
theorem nnbefore1 (c : Dev nD) (t : Fin cfg2.N) (d) : (nndat V c).before 1 t d = nnblk V c 1 t :=
  nnbefore_of1 V (nndat V c) (nndat_A V c 1) (nndat_after1 V c) t d
theorem nnbefore2 (c : Dev nD) (t : Fin cfg2.N) (d) : (nndat V c).before 2 t d = nnblk V c 2 t :=
  nnbefore_of2 V (nndat V c) (nndat_A V c 2) (nndat_after2 V c) t d
theorem nnbefore3 (c : Dev nD) (t : Fin cfg2.N) (d) : (nndat V c).before 3 t d = nnblk V c 3 t :=
  nnbefore_of3 V (nndat V c) (nndat_A V c 3) (nndat_after3 V c) t d

theorem PhiS_castSucc (c : Dev nD) (t : Fin cfg2.N) :
    (nndat V c).Φ t.castSucc = PhiS V c t.val (Nat.le_of_lt t.isLt) := by
  dsimp only [nndat]; simp only [Fin.coe_castSucc]

/-! ## The body obligation -/

def nnPre (c : Dev nD) (t : Fin cfg2.N) : sProp 𝕄 :=
  iprop((nndat V c).Φ t.castSucc ∗ (nndat V c).owesAt () t.castSucc
    ∗ (∃ d, owns (c : Thread nD τ) (ms2_0 t) fullShare ((nndat V c).before 0 t d))
    ∗ (∃ d, owns (c : Thread nD τ) (ms2_1 t) fullShare ((nndat V c).before 1 t d))
    ∗ (∃ d, owns (c : Thread nD τ) (ms2_2 t) fullShare ((nndat V c).before 2 t d))
    ∗ (∃ d, owns (c : Thread nD τ) (ms2_3 t) fullShare ((nndat V c).before 3 t d))
    ∗ (∃ d, owns (c : Thread nD τ) (ms2_4 t) fullShare ((nndat V c).before 4 t d)))

def nnPost (c : Dev nD) (t : Fin cfg2.N) : sProp 𝕄 :=
  iprop((nndat V c).Φ t.succ ∗ (nndat V c).owesAt () t.succ
    ∗ (nndat V c).leavesExact 0 t ∗ (nndat V c).leavesExact 1 t ∗ (nndat V c).leavesExact 2 t
    ∗ (nndat V c).leavesExact 3 t ∗ (nndat V c).leavesExact 4 t)

theorem leaves_in0 (c : Dev nD) (t : Fin cfg2.N) :
    (nndat V c).leavesExact 0 t = owns (c : Thread nD τ) (ms2_0 t) fullShare (nnblk V c 0 t) := by
  unfold Dat.leavesExact; rw [live2_0 t, nndat_after0]
theorem leaves_in1 (c : Dev nD) (t : Fin cfg2.N) :
    (nndat V c).leavesExact 1 t = owns (c : Thread nD τ) (ms2_1 t) fullShare (nnblk V c 1 t) := by
  unfold Dat.leavesExact; rw [live2_1 t, nndat_after1]
theorem leaves_in2 (c : Dev nD) (t : Fin cfg2.N) :
    (nndat V c).leavesExact 2 t = owns (c : Thread nD τ) (ms2_2 t) fullShare (nnblk V c 2 t) := by
  unfold Dat.leavesExact; rw [live2_2 t, nndat_after2]
theorem leaves_in3 (c : Dev nD) (t : Fin cfg2.N) :
    (nndat V c).leavesExact 3 t = owns (c : Thread nD τ) (ms2_3 t) fullShare (nnblk V c 3 t) := by
  unfold Dat.leavesExact; rw [live2_3 t, nndat_after3]
theorem leaves_out_live (c : Dev nD) (t : Fin cfg2.N) (h : condLast (grid2.coords t)) :
    (nndat V c).leavesExact 4 t = owns (c : Thread nD τ) (ms2_4 t) fullShare (outAt V c t) := by
  unfold Dat.leavesExact; rw [live2_4 t h, nndat_after4]

set_option maxHeartbeats 8000000 in
/-- The body at any point. The point's position decides the case (first point; first column tile off the diagonal;
    diagonal tile; middle tile; last column tile); the invariant hands the body the two accumulators at what the
    point before left (at anything at the very first point) and takes them back at this point's values. -/
theorem sound_nnbody (c : Dev nD) (t : Fin cfg2.N) :
    nnPre V c t ⊢ wp frame (wpE (defs₀ (F := F)) Variants.none c none) Set.univ (bodyAt2 t) (fun _ => nnPost V c t) := by
  unfold nnPre nnPost bodyAt2
  simp only [nnbefore0, nnbefore1, nnbefore2, nnbefore3]
  rw [show (nndat V c).owesAt () t.succ = (nndat V c).owesAt () t.castSucc from rfl]
  rw [show (nndat V c).Φ t.succ = PhiS V c (t.val + 1) t.isLt from rfl, PhiS_succ]
  rw [leaves_in0, leaves_in1, leaves_in2, leaves_in3]
  have hN : t.val < 256 := lt_of_lt_of_eq t.isLt (show cfg2.N = 256 from N_2)
  by_cases h0 : t.val % 32 = 0
  · by_cases hd : t.val / 32 = t.val % 32
    · -- the very first point: row tile 0, column tile 0
      have hz : t.val = 0 := by omega
      have hc1 : condFirst (grid2.coords t) := (hcondFirst t).mpr h0
      have hc2 : ¬condOff (grid2.coords t) := fun h => ((hcondOff t).mp h) hd
      have hc3 : condDiag (grid2.coords t) := (hcondDiag t).mpr hd
      have hc4 : ¬condLast (grid2.coords t) := fun h => by have := (hcondLast t).mp h; omega
      rw [Dat.leavesExact_idle (nndat V c) 4 t (idle2_4 t hc4) (noFlush2_4 t hc4)]
      rw [accAt_zero V c t hz]; unfold accStep; rw [if_pos hd, if_pos h0]
      rw [PhiS_castSucc V c t, PhiS_zero V c _ _ hz, PhiA2_eq]
      iintro ⟨⟨HOS, Hg⟩, Ho, ⟨%d0, H0⟩, ⟨%d1, H1⟩, ⟨%d2, H2⟩, ⟨%d3, H3⟩, ⟨%d4, H4⟩⟩
      have hfr := otherScoped_frame (F := F) c iprop((∃ d, owns (c : Thread nD τ) accM fullShare d) ∗ (∃ d, owns (c : Thread nD τ) diagM fullShare d)) iprop(emp)
      ihave HOS' := hfr $$ HOS
      icases HOS' with ⟨⟨⟨%xa, HA⟩, ⟨%xd, HD⟩⟩, Hback⟩
      iapply ((runFirst c (grid2.coords t) (ms2_0 t) (hs2_0 t) (ms2_1 t) (hs2_1 t) (ms2_2 t) (hs2_2 t) (ms2_3 t) (hs2_3 t) (ms2_4 t) (hs2_4 t) accM (Memref.isWhole_whole _) diagM (Memref.isWhole_whole _) hc1 hc2 hc3 hc4 (bX V c t) (bXs V c t) (bY V c t) (bYs V c t)).2.2 _ xa xd Set.univ _)
      isplitl [H0]; · iexact H0
      isplitl [H1]; · iexact H1
      isplitl [H2]; · iexact H2
      isplitl [H3]; · iexact H3
      isplitl [H4]; · iexact H4
      isplitl [HA]; · iexact HA
      isplitl [HD]; · iexact HD
      iintro ⟨H0, H1, H2, H3, H4, ⟨%fa, HA⟩, ⟨%fd, HD⟩⟩
      isplitl [HA HD Hback Hg]
      · isplitl [HA HD]
        · isplitl [HA]
          · unfold owns; iexists _; isplitr
            swap; · iexact HA
            ipureintro; exact firstAcc_eq (hc1 := hc1) (hc2 := hc2) (hc3 := hc3) (hc4 := hc4) ..
          · unfold owns; iexists _; isplitr
            swap; · iexact HD
            ipureintro; exact firstDiag_eq (hc1 := hc1) (hc2 := hc2) (hc3 := hc3) (hc4 := hc4) ..
        isplitl [Hback]
        · iapply Hback; iempintro
        iexact Hg
      isplitl [Ho]; · iexact Ho
      isplitl [H0]; · iexact H0
      isplitl [H1]; · iexact H1
      isplitl [H2]; · iexact H2
      isplitl [H3]; · iexact H3
      iexists _; iexact H4
    · -- the first column tile of a later row tile
      have hz : t.val ≠ 0 := by omega
      have hc1 : condFirst (grid2.coords t) := (hcondFirst t).mpr h0
      have hc2 : condOff (grid2.coords t) := (hcondOff t).mpr hd
      have hc3 : ¬condDiag (grid2.coords t) := fun h => hd ((hcondDiag t).mp h)
      have hc4 : ¬condLast (grid2.coords t) := fun h => by have := (hcondLast t).mp h; omega
      rw [Dat.leavesExact_idle (nndat V c) 4 t (idle2_4 t hc4) (noFlush2_4 t hc4)]
      rw [accAt_pos V c t hz]; unfold accStep; rw [if_neg hd, if_pos h0, if_pos h0]
      rw [PhiS_castSucc V c t, PhiS_pos V c _ _ hz]
      iintro ⟨⟨⟨HA, HD⟩, HR⟩, Ho, ⟨%d0, H0⟩, ⟨%d1, H1⟩, ⟨%d2, H2⟩, ⟨%d3, H3⟩, ⟨%d4, H4⟩⟩
      iapply ((runFirstOff c (grid2.coords t) (ms2_0 t) (hs2_0 t) (ms2_1 t) (hs2_1 t) (ms2_2 t) (hs2_2 t) (ms2_3 t) (hs2_3 t) (ms2_4 t) (hs2_4 t) accM (Memref.isWhole_whole _) diagM (Memref.isWhole_whole _) hc1 hc2 hc3 hc4 (bX V c t) (bXs V c t) (bY V c t) (bYs V c t)).2.2 _ _ _ Set.univ _)
      isplitl [H0]; · iexact H0
      isplitl [H1]; · iexact H1
      isplitl [H2]; · iexact H2
      isplitl [H3]; · iexact H3
      isplitl [H4]; · iexact H4
      isplitl [HA]; · iexact HA
      isplitl [HD]; · iexact HD
      iintro ⟨H0, H1, H2, H3, H4, ⟨%fa, HA⟩, ⟨%fd, HD⟩⟩
      isplitl [HA HD HR]
      · isplitl [HA HD]
        · isplitl [HA]
          · unfold owns; iexists _; isplitr
            swap; · iexact HA
            ipureintro; exact firstOffAcc_eq (hc1 := hc1) (hc2 := hc2) (hc3 := hc3) (hc4 := hc4) ..
          · unfold owns; iexists _; isplitr
            swap; · iexact HD
            ipureintro; exact firstOffDiag_eq (hc1 := hc1) (hc2 := hc2) (hc3 := hc3) (hc4 := hc4) ..
        iexact HR
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases hd : t.val / 32 = t.val % 32
    · -- the diagonal tile of a later row tile
      have hc1 : ¬condFirst (grid2.coords t) := fun h => h0 ((hcondFirst t).mp h)
      have hc2 : ¬condOff (grid2.coords t) := fun h => ((hcondOff t).mp h) hd
      have hc3 : condDiag (grid2.coords t) := (hcondDiag t).mpr hd
      have hc4 : ¬condLast (grid2.coords t) := fun h => by have := (hcondLast t).mp h; omega
      rw [Dat.leavesExact_idle (nndat V c) 4 t (idle2_4 t hc4) (noFlush2_4 t hc4)]
      rw [accAt_pos V c t hz]; unfold accStep; rw [if_pos hd, if_neg h0]
      rw [PhiS_castSucc V c t, PhiS_pos V c _ _ hz]
      iintro ⟨⟨⟨HA, HD⟩, HR⟩, Ho, ⟨%d0, H0⟩, ⟨%d1, H1⟩, ⟨%d2, H2⟩, ⟨%d3, H3⟩, ⟨%d4, H4⟩⟩
      iapply ((runDiag c (grid2.coords t) (ms2_0 t) (hs2_0 t) (ms2_1 t) (hs2_1 t) (ms2_2 t) (hs2_2 t) (ms2_3 t) (hs2_3 t) (ms2_4 t) (hs2_4 t) accM (Memref.isWhole_whole _) diagM (Memref.isWhole_whole _) hc1 hc2 hc3 hc4 (bX V c t) (bXs V c t) (bY V c t) (bYs V c t) _).2.2 _ _ Set.univ _)
      isplitl [H0]; · iexact H0
      isplitl [H1]; · iexact H1
      isplitl [H2]; · iexact H2
      isplitl [H3]; · iexact H3
      isplitl [H4]; · iexact H4
      isplitl [HA]; · iexact HA
      isplitl [HD]; · iexact HD
      iintro ⟨H0, H1, H2, H3, H4, ⟨%fa, HA⟩, ⟨%fd, HD⟩⟩
      isplitl [HA HD HR]
      · isplitl [HA HD]
        · isplitl [HA]
          · unfold owns; iexists _; isplitr
            swap; · iexact HA
            ipureintro; exact diagAcc_eq (hc1 := hc1) (hc2 := hc2) (hc3 := hc3) (hc4 := hc4) ..
          · unfold owns; iexists _; isplitr
            swap; · iexact HD
            ipureintro; exact diagDiag_eq (hc1 := hc1) (hc2 := hc2) (hc3 := hc3) (hc4 := hc4) ..
        iexact HR
      isplitl [Ho]; · iexact Ho
      isplitl [H0]; · iexact H0
      isplitl [H1]; · iexact H1
      isplitl [H2]; · iexact H2
      isplitl [H3]; · iexact H3
      iexists _; iexact H4
    · have hc1 : ¬condFirst (grid2.coords t) := fun h => h0 ((hcondFirst t).mp h)
      have hc2 : condOff (grid2.coords t) := (hcondOff t).mpr hd
      have hc3 : ¬condDiag (grid2.coords t) := fun h => hd ((hcondDiag t).mp h)
      by_cases hl : t.val % 32 = 31
      · -- the last column tile
        have hc4 : condLast (grid2.coords t) := (hcondLast t).mpr hl
        rw [leaves_out_live V c t hc4]; unfold outAt
        rw [accAt_pos V c t hz]; unfold accStep; rw [if_neg hd, if_neg h0, if_neg h0]
        rw [PhiS_castSucc V c t, PhiS_pos V c _ _ hz]
        iintro ⟨⟨⟨HA, HD⟩, HR⟩, Ho, ⟨%d0, H0⟩, ⟨%d1, H1⟩, ⟨%d2, H2⟩, ⟨%d3, H3⟩, ⟨%d4, H4⟩⟩
        iapply ((runLast c (grid2.coords t) (ms2_0 t) (hs2_0 t) (ms2_1 t) (hs2_1 t) (ms2_2 t) (hs2_2 t) (ms2_3 t) (hs2_3 t) (ms2_4 t) (hs2_4 t) accM (Memref.isWhole_whole _) diagM (Memref.isWhole_whole _) hc1 hc2 hc3 hc4 (bX V c t) (bXs V c t) (bY V c t) (bYs V c t) _ _).2.2 _ Set.univ _)
        isplitl [H0]; · iexact H0
        isplitl [H1]; · iexact H1
        isplitl [H2]; · iexact H2
        isplitl [H3]; · iexact H3
        isplitl [H4]; · iexact H4
        isplitl [HA]; · iexact HA
        isplitl [HD]; · iexact HD
        iintro ⟨H0, H1, H2, H3, ⟨%fo, H4⟩, ⟨%fa, HA⟩, HD⟩
        isplitl [HA HD HR]
        · isplitl [HA HD]
          · isplitl [HA]
            · unfold owns; iexists _; isplitr
              swap; · iexact HA
              ipureintro; exact lastAcc_eq (hc1 := hc1) (hc2 := hc2) (hc3 := hc3) (hc4 := hc4) ..
            · iexact HD
          iexact HR
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact lastOut_eq (hc1 := hc1) (hc2 := hc2) (hc3 := hc3) (hc4 := hc4) ..
      · -- a middle tile
        have hc4 : ¬condLast (grid2.coords t) := fun h => hl ((hcondLast t).mp h)
        rw [Dat.leavesExact_idle (nndat V c) 4 t (idle2_4 t hc4) (noFlush2_4 t hc4)]
        rw [accAt_pos V c t hz]; unfold accStep; rw [if_neg hd, if_neg h0, if_neg h0]
        rw [PhiS_castSucc V c t, PhiS_pos V c _ _ hz]
        iintro ⟨⟨⟨HA, HD⟩, HR⟩, Ho, ⟨%d0, H0⟩, ⟨%d1, H1⟩, ⟨%d2, H2⟩, ⟨%d3, H3⟩, ⟨%d4, H4⟩⟩
        iapply ((runMid c (grid2.coords t) (ms2_0 t) (hs2_0 t) (ms2_1 t) (hs2_1 t) (ms2_2 t) (hs2_2 t) (ms2_3 t) (hs2_3 t) (ms2_4 t) (hs2_4 t) accM (Memref.isWhole_whole _) diagM (Memref.isWhole_whole _) hc1 hc2 hc3 hc4 (bX V c t) (bXs V c t) (bY V c t) (bYs V c t) _).2 _ _ Set.univ _)
        isplitl [H0]; · iexact H0
        isplitl [H1]; · iexact H1
        isplitl [H2]; · iexact H2
        isplitl [H3]; · iexact H3
        isplitl [H4]; · iexact H4
        isplitl [HA]; · iexact HA
        isplitl [HD]; · iexact HD
        iintro ⟨H0, H1, H2, H3, H4, ⟨%fa, HA⟩, HD⟩
        isplitl [HA HD HR]
        · isplitl [HA HD]
          · isplitl [HA]
            · unfold owns; iexists _; isplitr
              swap; · iexact HA
              ipureintro; exact midAcc_eq (hc1 := hc1) (hc2 := hc2) (hc3 := hc3) (hc4 := hc4) ..
            · iexact HD
          iexact HR
        isplitl [Ho]; · iexact Ho
        isplitl [H0]; · iexact H0
        isplitl [H1]; · iexact H1
        isplitl [H2]; · iexact H2
        isplitl [H3]; · iexact H3
        iexists _; iexact H4

/-- The library's body obligation, at every point. -/
theorem nnbody (c : Dev nD) : BodyObligation (nndat (F := F) V c) (defs₀ (F := F)) Variants.none () Set.univ := fun t => by
  rw [bigSep_W2, bigSep_W2]
  exact sound_nnbody V c t

/-- After the last point the invariant gives the class invariant back: the accumulators' values are forgotten. -/
theorem nnhout (c : Dev nD) : (nndat V c).Φ (Fin.last cfg2.N) ⊢ Pipeline.ΦA spec2 c := by
  rw [show (nndat V c).Φ (Fin.last cfg2.N) = PhiS V c (Fin.last cfg2.N).val (Nat.le_of_lt_succ (Fin.last cfg2.N).isLt) from rfl,
    PhiS_pos V c _ _ (by rw [Fin.val_last]; have : cfg2.N = 256 := N_2; omega), PhiA2_eq]
  iintro ⟨⟨HA, HD⟩, HOS, Hg⟩
  have hfr := otherScoped_frame (F := F) c iprop(emp) iprop((∃ d, owns (c : Thread nD τ) accM fullShare d) ∗ (∃ d, owns (c : Thread nD τ) diagM fullShare d))
  ihave HOS' := hfr $$ HOS
  icases HOS' with ⟨-, Hback⟩
  isplitl [HA HD Hback]
  · iapply Hback
    isplitl [HA]
    · iexists _; iexact HA
    iexists _; iexact HD
  iexact Hg

end Region

end Cert.KernelIdeal.Hand

end
-- ==== Proof.NNPt.lean ====
/-
  The grid of the nearest-neighbour region is 8 row tiles by 32 column tiles, visited row-major: the point of row tile
  `i` and column tile `j` is number `32 i + j`.
-/
import proofs.«152194_j74887049773256_2_alg».proof.Proof.NNDefs

noncomputable section

namespace Cert.KernelIdeal.Hand

open Cert.KernelIdeal Cert.KernelIdeal.Gen
open Idealize.ShloMosaic

/-- The grid point of row tile `i`, column tile `j`. -/
def gpt (i : Fin 8) (j : Fin 32) : Fin cfg2.N := ⟨i.val * 32 + j.val, by have : cfg2.N = 256 := N_2; omega⟩

theorem gpt_val (i : Fin 8) (j : Fin 32) : (gpt i j).val = i.val * 32 + j.val := rfl
theorem gpt_div (i : Fin 8) (j : Fin 32) : (gpt i j).val / 32 = i.val := by rw [gpt_val]; omega
theorem gpt_mod (i : Fin 8) (j : Fin 32) : (gpt i j).val % 32 = j.val := by rw [gpt_val]; omega
/-- Every point is the point of its row tile and column tile. -/
theorem gpt_surj (t : Fin cfg2.N) : t = gpt ⟨t.val / 32, by have : cfg2.N = 256 := N_2; have := t.isLt; omega⟩ ⟨t.val % 32, Nat.mod_lt _ (by decide)⟩ := by
  apply Fin.ext; rw [gpt_val]; show t.val = t.val / 32 * 32 + t.val % 32; omega

end Cert.KernelIdeal.Hand

end
-- ==== Proof.Spec.lean ====
/-
  The mathematics of the nearest-neighbour loss, stated once over plain index types.

  For a matrix `A` with rows of length 1024, every row is divided by `max (‖row‖₂) ε` (`nrm`); `ssq` is the
  squared length of a normalised row and `dotp` the inner product of a normalised row of `X` with one of `Y`.
  The squared distance of row `r` of `X` to row `c` of `Y` is `ssq X r + ssq Y c - 2 · dotp r c`, clamped at
  zero before the root. Row `r` of `X` is paired with row `r` of `Y` (the "diagonal"), whose distance is
  penalised by `+1`. Two arrangements of the same number are stated:

  * `rowRef`: the infimum over ALL columns `c` of the rooted, clamped distance, the diagonal one carrying `+1`;
  * `rowKer`: the smaller of (the root of the clamped `ssq X r +` infimum over the OFF-diagonal columns of
    `ssq Y c - 2 · dotp r c`) and (the rooted clamped diagonal distance `+ 1`).

  They agree on the extended reals with no finiteness assumption: the root, the clamp and `a + ·` are monotone,
  so they commute with a nonempty infimum, and `(a + b) - t = a + (b - t)` is associativity of `+`.
  `lossOf` is the common last step: minus the mean of `log (row + ε)`.
-/
import Idealize.ShloMosaic.PureOps.Ideal
import Idealize.ShloMosaic.Lib.ValueIdx

noncomputable section

open scoped BigOperators

namespace Cert.KoLeo

open Idealize.ShloMosaic

/-- The literals of both programs, as the extended reals their words denote. -/
def eps : EReal := Ideal.ofBits .f32 0x322BCC77#32
def two : EReal := Ideal.ofBits .f32 0x40000000#32
def one : EReal := Ideal.ofBits .f32 0x3F800000#32
def zero : EReal := Ideal.ofBits .f32 0x00000000#32
def pinf : EReal := Ideal.ofBits .f32 0x7F800000#32
def nRows : EReal := Ideal.ofBits .f32 0x46000000#32

/-- The length a row is divided by: `max (√(Σ_q A r q ²)) ε`. -/
def rowLen {n : Nat} (A : Fin n → Fin 1024 → EReal) (r : Fin n) : EReal :=
  max (Ideal.sqrt (∑ q : Fin 1024, A r q * A r q)) eps

/-- The normalised matrix. -/
def nrm {n : Nat} (A : Fin n → Fin 1024 → EReal) (r : Fin n) (k : Fin 1024) : EReal :=
  Ideal.div (A r k) (rowLen A r)

/-- The squared length of a normalised row. -/
def ssq {n : Nat} (A : Fin n → Fin 1024 → EReal) (r : Fin n) : EReal :=
  ∑ k : Fin 1024, nrm A r k * nrm A r k

/-- The inner product of normalised rows. -/
def dotp {n p : Nat} (X : Fin n → Fin 1024 → EReal) (Y : Fin p → Fin 1024 → EReal) (r : Fin n) (c : Fin p) : EReal :=
  ∑ k : Fin 1024, nrm X r k * nrm Y c k

/-- The part of the squared distance that depends on the column: `ssq Y c - 2 · dotp r c`. -/
def colPart {n p : Nat} (X : Fin n → Fin 1024 → EReal) (Y : Fin p → Fin 1024 → EReal) (r : Fin n) (c : Fin p) : EReal :=
  ssq Y c - two * dotp X Y r c

/-- Clamp at zero, then the root. -/
def rootClamp (x : EReal) : EReal := Ideal.sqrt (max x zero)

/-- The column paired with row `r`. -/
def diagCol (r : Fin 8192) : Fin 32768 := ⟨r.val, by omega⟩

/-- The reference's arrangement: the infimum over all columns, the diagonal column penalised. -/
def rowRef (X : Fin 8192 → Fin 1024 → EReal) (Y : Fin 32768 → Fin 1024 → EReal) (r : Fin 8192) : EReal :=
  Finset.univ.inf fun c : Fin 32768 =>
    rootClamp ((ssq X r + ssq Y c) - two * dotp X Y r c) + (if c = diagCol r then one else 0)

/-- The kernel's arrangement: the row's own `ssq` added after the infimum over the off-diagonal columns. -/
def rowKer (X : Fin 8192 → Fin 1024 → EReal) (Y : Fin 32768 → Fin 1024 → EReal) (r : Fin 8192) : EReal :=
  min (rootClamp (ssq X r + (Finset.univ.filter fun c : Fin 32768 => c ≠ diagCol r).inf (colPart X Y r)))
    (rootClamp (ssq X r + colPart X Y r (diagCol r)) + one)

/-- The last step of both programs: minus the mean of `log (row + ε)`. -/
def lossOf (row : Fin 8192 → EReal) : EReal :=
  -(Ideal.div (zero + ∑ r : Fin 8192, Ideal.log (row r + eps)) nRows)

end Cert.KoLeo

end
-- ==== Proof.NNValue.lean ====
/-
  The third region's payloads read at an index, at the ideal values.

  One tile of the distance computation: for a block `s` of 1024 normalised rows, a block `mm` of 1024
  normalised rows of the other matrix and their squared lengths `b`, entry `(p, q)` is
  `b q - 2 · Σ_k s p k · mm q k` (`tileVal`). The running values a row keeps are the minimum of `tileVal p ·`
  over the tile's columns, the same minimum with column `p` left out, and the entry `tileVal p p` itself;
  the last payload combines them by the root of the clamped sums.
-/
import proofs.«152194_j74887049773256_2_alg».proof.Proof.Gen.KernelIdeal.Skeleton
import proofs.«152194_j74887049773256_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The f32 word of `+∞` is `⊤`. -/
theorem ofBits_pinf : Ideal.ofBits .f32 0x7F800000#32 = ⊤ := by
  simp [Ideal.ofBits, Ideal.ieee]

/-- Entry `(p, q)` of a tile: `b q - 2 · Σ_k s p k · mm q k`. -/
def tileVal (s mm : Vec Ideal S1024x1024 .bf16) (b : Vec Ideal S1x1024 .f32) (p q : Fin 1024) : EReal :=
  b (ix2 0 q) - Cert.KoLeo.two * ∑ k : Fin 1024, (s (ix2 p k) : EReal) * (mm (ix2 q k) : EReal)

/-- The operand indices of the product at output index `i` and contraction index `k`: `(i 0, k)` on the
    left and `(k, i 1)` on the right. -/
theorem dotT_lhs0 (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem dotT_lhs1 (i : S1024x1024.Idx) (k : dot_S1024x1024_S1024x1024_S1024x1024_1_0_0_1_n_n.contr.Idx) :
    (dot_S1024x1024_S1024x1024_S1024x1024_1_0_0_1_n_n.lhsIdx i k 1).val = (k ⟨0, by decide⟩).val :=
  dot_S1024x1024_S1024x1024_S1024x1024_1_0_0_1_n_n.lhsIdx_val_of_single rfl i k
theorem dotT_rhs0 (i : S1024x1024.Idx) (k : dot_S1024x1024_S1024x1024_S1024x1024_1_0_0_1_n_n.contr.Idx) :
    (dot_S1024x1024_S1024x1024_S1024x1024_1_0_0_1_n_n.rhsIdx i k 0).val = (k ⟨0, by decide⟩).val :=
  dot_S1024x1024_S1024x1024_S1024x1024_1_0_0_1_n_n.rhsIdx_val_of_single rfl i k
theorem dotT_rhs1 (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The product of a block with the transpose of another into a zero accumulator, at `(p, q)`:
    `Σ_k s p k · mm q k`. -/
theorem matT_apply (s mm : FVec Ideal S1024x1024 .bf16) (p q : Fin 1024) :
    (matmul (F := Ideal) dot_S1024x1024_S1024x1024_S1024x1024_1_0_0_1_n_n none s
      (transpose S1024x1024 [1, 0] mm Facts₀.transposes_S1024x1024_p1_0_S1024x1024)
      (constant (F := Ideal) S1024x1024 .f32 0x00000000#32)) (ix2 p q)
      = ∑ k : Fin 1024, (s (ix2 p k) : EReal) * (mm (ix2 q k) : EReal) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q)
      ((contrEquiv1 dot_S1024x1024_S1024x1024_S1024x1024_1_0_0_1_n_n 1024 rfl rfl).symm k) = ix2 p k :=
    funext fun a => Fin.ext (by
      match a with
      | ⟨0, _⟩ => exact dotT_lhs0 _ _
      | ⟨1, _⟩ => exact (dotT_lhs1 _ _).trans hk)
  have er : dot_S1024x1024_S1024x1024_S1024x1024_1_0_0_1_n_n.rhsIdx (ix2 p q)
      ((contrEquiv1 dot_S1024x1024_S1024x1024_S1024x1024_1_0_0_1_n_n 1024 rfl rfl).symm k) = ix2 k q :=
    funext fun a => Fin.ext (by
      match a with
      | ⟨0, _⟩ => exact (dotT_rhs0 _ _).trans hk
      | ⟨1, _⟩ => exact dotT_rhs1 _ _)
  rw [el, er, transpose_apply [1, 0] mm _ (ix2 k q) (ix2 q k)
    (fun b => match b with | ⟨0, _⟩ => rfl | ⟨1, _⟩ => rfl)]

theorem k2_pay1_apply (p : Fin 1024) (z : Fin 1) : k2_pay1 (F := Ideal) (ix2 p z) = ⊤ := by
  unfold k2_pay1
  rw [shapeCast_self]
  exact ofBits_pinf

theorem k2_pay2_apply (p : Fin 1024) (z : Fin 1) : k2_pay2 (F := Ideal) (ix2 p z) = ⊤ := by
  unfold k2_pay2
  rw [shapeCast_self]
  exact ofBits_pinf

theorem k2_pay3_apply (s mm : Vec Ideal S1024x1024 .bf16) (b : Vec Ideal S1x1024 .f32) (p q : Fin 1024) :
    k2_pay3 (F := Ideal) s mm b (ix2 p q) = tileVal s mm b p q := by
  unfold k2_pay3 tileVal
  rw [shapeCast_self, shapeCast_self, shapeCast_self]
  refine congrArg₂ (fun x y : EReal => x - Cert.KoLeo.two * y) ?_ ?_
  · exact broadcastTo_apply b _ (ix2 p q) (ix2 0 q) (fun a => match a with | ⟨0, _⟩ => rfl | ⟨1, _⟩ => rfl)
  · exact matT_apply s mm p q

/-! ## The lane reductions of a tile, at a row -/

/-- A `minimumf` reduction over one axis, at the ideal values: the fold of `min` from the accumulator's value over
    that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Row `p` with coordinate `k` inserted on the lane axis is `(p, k)`. -/
theorem lift_row (h : S1024x1024.Reduces [1] S1024) (p k : Fin 1024) : h.lift (ix1 p) k = ix2 p k :=
  funext fun c => Fin.ext (by
    match c with
    | ⟨0, _⟩ => rfl
    | ⟨1, _⟩ => rfl)

/-- A column vector read at `(p, 0)` is the vector at `p`. -/
theorem colCast_apply {α : Type} (v : S1024.Idx → α) (h : S1024.ShapeCasts S1024x1) (p : Fin 1024) (z : Fin 1) :
    shapeCast S1024x1 v h (ix2 p z) = v (ix1 p) :=
  shapeCast_apply v h (ix2 p z) (ix1 p) (by
    rw [Shape.rowMajor_val_one, Shape.rowMajor_val_two]
    show p.val = p.val * 1 + z.val
    omega)

/-- The lane minimum from `+∞` of a tile, as a column, at row `p`: the infimum of the row. -/
theorem rowMin_apply (v : FVec Ideal S1024x1024 .f32) (hφ : FKind.Formats .f32)
    (hacc : (0x7F800000#32 : BitVec 32) = FKind.minimumf.neutral .f32 hφ) (p : Fin 1024) (z : Fin 1) :
    shapeCast S1024x1 (multiReduction (F := Ideal) .minimumf [1] S1024 v 0x7F800000#32
        Facts₀.reduces_S1024x1024_S1024 hφ hacc) Facts₀.shapeCasts_S1024_S1024x1 (ix2 p z)
      = Finset.univ.inf fun q : Fin 1024 => (v (ix2 p q) : EReal) := by
  rw [colCast_apply, multiReduction_minimumf_single]
  show (Finset.univ : Finset (Fin 1024)).fold min (Ideal.ofBits .f32 0x7F800000#32)
    (fun k => v (Facts₀.reduces_S1024x1024_S1024.lift (ix1 p) k)) = _
  rw [ofBits_pinf]
  refine (congrArg (fun f : Fin 1024 → EReal => Finset.fold min ⊤ f Finset.univ)
    (funext fun k => congrArg v (lift_row _ p k))).trans ?_
  rfl

theorem k2_pay4_apply (s mm : Vec Ideal S1024x1024 .bf16) (b : Vec Ideal S1x1024 .f32) (a : Vec Ideal S1024x1 .f32)
    (p : Fin 1024) (z : Fin 1) :
    k2_pay4 (F := Ideal) s mm b a (ix2 p z)
      = min (a (ix2 p z)) (Finset.univ.inf fun q : Fin 1024 => tileVal s mm b p q) := by
  unfold k2_pay4
  rw [shapeCast_self]
  refine congrArg (fun y : EReal => min (a (ix2 p z)) y) ?_
  refine (rowMin_apply _ _ _ p z).trans ?_
  simp only [k2_pay3_apply]

/-- The lane sum from zero of a tile, as a column, at row `p`: the sum of the row. -/
theorem tileRowSum_apply (v : FVec Ideal S1024x1024 .f32) (hφ : FKind.Formats .f32)
    (hacc : (0x00000000#32 : BitVec 32) = FKind.add.neutral .f32 hφ) (p : Fin 1024) (z : Fin 1) :
    shapeCast S1024x1 (multiReduction (F := Ideal) .add [1] S1024 v 0x00000000#32
        Facts₀.reduces_S1024x1024_S1024 hφ hacc) Facts₀.shapeCasts_S1024_S1024x1 (ix2 p z)
      = ∑ q : Fin 1024, (v (ix2 p q) : EReal) := by
  rw [colCast_apply, Ideal.multiReduction_add_single]
  show ∑ k : Fin 1024, v (Facts₀.reduces_S1024x1024_S1024.lift (ix1 p) k) = _
  exact Finset.sum_congr rfl fun k _ => congrArg v (lift_row _ p k)

/-- The diagonal mask: at `(p, q)` the bit says whether `p = q`. -/
theorem k2_pay5_apply (p q : Fin 1024) : k2_pay5 (ix2 p q) = if p = q then 1#1 else 0#1 := by
  unfold k2_pay5
  show IntOp.cmpi .eq (iota .tc S1024x1024 32 [0] Facts₀.iota_S1024x1024_d0_w32 (ix2 p q))
    (iota .tc S1024x1024 32 [1] Facts₀.iota_S1024x1024_d1_w32 (ix2 p q)) = _
  rw [iota_single_apply, iota_single_apply]
  show BitVec.ofBool (BitVec.ofNat 32 p.val == BitVec.ofNat 32 q.val) = _
  by_cases h : p = q
  · subst h
    rw [if_pos rfl, beq_self_eq_true]
    rfl
  · rw [if_neg h]
    have hne : ¬ BitVec.ofNat 32 p.val = BitVec.ofNat 32 q.val := by
      intro e
      apply h
      apply Fin.ext
      have e' := congrArg BitVec.toNat e
      simp only [BitVec.toNat_ofNat] at e'
      have hp := p.isLt
      have hq := q.isLt
      omega
    rw [beq_eq_false_iff_ne.mpr hne]
    rfl

/-- An infimum in which one index carries `⊤` is the infimum over the other indices. -/
theorem inf_masked (f : Fin 1024 → EReal) (p : Fin 1024) :
    (Finset.univ.inf fun q : Fin 1024 => if p = q then (⊤ : EReal) else f q)
      = (Finset.univ.filter fun q : Fin 1024 => q ≠ p).inf f := by
  apply le_antisymm
  · refine Finset.le_inf fun q hq => ?_
    have hne : q ≠ p := (Finset.mem_filter.mp hq).2
    refine (Finset.inf_le (Finset.mem_univ q)).trans ?_
    rw [if_neg (fun e => hne e.symm)]
  · refine Finset.le_inf fun q _ => ?_
    by_cases h : p = q
    · rw [if_pos h]; exact le_top
    · rw [if_neg h]
      exact Finset.inf_le (Finset.mem_filter.mpr ⟨Finset.mem_univ q, fun e => h e.symm⟩)

theorem k2_pay6_apply (s mm : Vec Ideal S1024x1024 .bf16) (b : Vec Ideal S1x1024 .f32) (a : Vec Ideal S1024x1 .f32)
    (p : Fin 1024) (z : Fin 1) :
    k2_pay6 (F := Ideal) s mm b a (ix2 p z)
      = min (a (ix2 p z)) ((Finset.univ.filter fun q : Fin 1024 => q ≠ p).inf fun q => tileVal s mm b p q) := by
  unfold k2_pay6
  rw [shapeCast_self]
  refine congrArg (fun y : EReal => min (a (ix2 p z)) y) ?_
  refine (rowMin_apply _ _ _ p z).trans ?_
  rw [← inf_masked]
  refine congrArg (Finset.inf Finset.univ) (funext fun q => ?_)
  rw [select_apply, k2_pay5_apply, k2_pay3_apply, broadcast_apply]
  by_cases h : p = q
  · rw [if_pos h, if_pos h, select_one]; exact ofBits_pinf
  · rw [if_neg h, if_neg h, select_zero]

theorem k2_pay7_apply (s mm : Vec Ideal S1024x1024 .bf16) (b : Vec Ideal S1x1024 .f32) (p : Fin 1024) (z : Fin 1) :
    k2_pay7 (F := Ideal) s mm b (ix2 p z) = tileVal s mm b p p := by
  unfold k2_pay7
  rw [shapeCast_self]
  refine (tileRowSum_apply _ _ _ p z).trans ?_
  have e : (fun q : Fin 1024 => (select k2_pay5 (k2_pay3 (F := Ideal) s mm b)
      (broadcast S1024x1024 (Scalar.ofBits (F := Ideal) .f32 0x00000000#32)) (ix2 p q) : EReal))
      = fun q => if q = p then tileVal s mm b p q else 0 := funext fun q => by
    rw [select_apply, k2_pay5_apply, k2_pay3_apply, broadcast_apply]
    by_cases h : p = q
    · rw [if_pos h, if_pos h.symm, select_one]
    · rw [if_neg h, if_neg (fun e => h e.symm), select_zero]; exact Ideal.ofBits_zero_f32
  refine (congrArg (fun f : Fin 1024 → EReal => ∑ q : Fin 1024, f q) e).trans ?_
  rw [Finset.sum_ite_eq' Finset.univ p (fun q => tileVal s mm b p q), if_pos (Finset.mem_univ p)]

theorem k2_pay8_apply (ss a ss' d : Vec Ideal S1024x1 .f32) (p : Fin 1024) (z : Fin 1) :
    k2_pay8 (F := Ideal) ss a ss' d (ix2 p z)
      = min (Cert.KoLeo.rootClamp (ss (ix2 p z) + a (ix2 p z)))
          (Cert.KoLeo.rootClamp (ss' (ix2 p z) + d (ix2 p z)) + Cert.KoLeo.one) := by
  unfold k2_pay8
  rw [shapeCast_self, shapeCast_self]
  rfl

end Cert.KernelIdeal.Hand

end
-- ==== Proof.RowLaw2.lean ====
/-
  The infimum over 32768 columns, taken tile by tile: 32 tiles of 1024 consecutive columns each.

  Column `c` is column `c % 1024` of tile `c / 1024`, so an infimum over the columns that satisfy `P` is the
  infimum over the tiles of the infimum inside each tile; restricted to the first `n` tiles this gives the
  running minimum an induction over the tile number consumes (`⊤` before the first tile, one more `min` per
  tile, everything after the last). Also: a sum whose terms vanish off one index is the term at that index.
-/
import proofs.«152194_j74887049773256_2_alg».proof.Proof.Spec

noncomputable section

open scoped BigOperators

namespace Cert.KoLeo

/-- Column `q` of tile `j`. -/
def colOf (j : Fin 32) (q : Fin 1024) : Fin 32768 := ⟨j.val * 1024 + q.val, by omega⟩

theorem colOf_val (j : Fin 32) (q : Fin 1024) : (colOf j q).val = j.val * 1024 + q.val := rfl

/-- The tile of a column. -/
theorem colOf_div (j : Fin 32) (q : Fin 1024) : (colOf j q).val / 1024 = j.val := by
  have hq := q.isLt
  simp only [colOf]
  omega

/-- The place of a column inside its tile. -/
theorem colOf_mod (j : Fin 32) (q : Fin 1024) : (colOf j q).val % 1024 = q.val := by
  have hq := q.isLt
  simp only [colOf]
  omega

/-- Every column is a column of a tile. -/
theorem colOf_split (c : Fin 32768) :
    colOf ⟨c.val / 1024, by omega⟩ ⟨c.val % 1024, Nat.mod_lt _ (by norm_num)⟩ = c := by
  apply Fin.ext
  simp only [colOf]
  omega

theorem colOf_injective : Function.Injective2 colOf := by
  intro j j' q q' h
  have h' := congrArg Fin.val h
  simp only [colOf] at h'
  have hq := q.isLt
  have hq' := q'.isLt
  exact ⟨Fin.ext (by omega), Fin.ext (by omega)⟩

/-- The infimum over the columns of the first `n` tiles that satisfy `P`, tile by tile. -/
theorem inf_tiles_upto (f : Fin 32768 → EReal) (P : Fin 32768 → Prop) [DecidablePred P] (n : Nat) :
    (Finset.univ.filter fun c : Fin 32768 => P c ∧ c.val / 1024 < n).inf f =
      (Finset.univ.filter fun j : Fin 32 => j.val < n).inf fun j =>
        (Finset.univ.filter fun q : Fin 1024 => P (colOf j q)).inf fun q => f (colOf j q) := by
  apply le_antisymm
  · refine Finset.le_inf fun j hj => Finset.le_inf fun q hq => Finset.inf_le ?_
    rw [Finset.mem_filter] at hj hq ⊢
    exact ⟨Finset.mem_univ _, hq.2, by rw [colOf_div]; exact hj.2⟩
  · refine Finset.le_inf fun c hc => ?_
    rw [Finset.mem_filter] at hc
    have hj : (⟨c.val / 1024, by omega⟩ : Fin 32) ∈ Finset.univ.filter fun j : Fin 32 => j.val < n := by
      rw [Finset.mem_filter]
      exact ⟨Finset.mem_univ _, hc.2.2⟩
    refine (Finset.inf_le hj).trans ?_
    have hq : (⟨c.val % 1024, Nat.mod_lt _ (by norm_num)⟩ : Fin 1024) ∈
        Finset.univ.filter fun q : Fin 1024 => P (colOf ⟨c.val / 1024, by omega⟩ q) := by
      rw [Finset.mem_filter, colOf_split]
      exact ⟨Finset.mem_univ _, hc.2.1⟩
    refine (Finset.inf_le hq).trans ?_
    rw [colOf_split]

/-- Before the first tile the running infimum is `⊤`. -/
theorem inf_tiles_zero (f : Fin 32768 → EReal) (P : Fin 32768 → Prop) [DecidablePred P] :
    (Finset.univ.filter fun c : Fin 32768 => P c ∧ c.val / 1024 < 0).inf f = ⊤ := by
  have h : (Finset.univ.filter fun c : Fin 32768 => P c ∧ c.val / 1024 < 0) = ∅ :=
    Finset.filter_false_of_mem fun c _ hc => Nat.not_lt_zero _ hc.2
  rw [h, Finset.inf_empty]

/-- One more tile: the running infimum takes one more `min`. -/
theorem inf_tiles_step (f : Fin 32768 → EReal) (P : Fin 32768 → Prop) [DecidablePred P] (n : Nat) (hn : n < 32) :
    (Finset.univ.filter fun c : Fin 32768 => P c ∧ c.val / 1024 < n + 1).inf f =
      min ((Finset.univ.filter fun c : Fin 32768 => P c ∧ c.val / 1024 < n).inf f)
        ((Finset.univ.filter fun q : Fin 1024 => P (colOf ⟨n, hn⟩ q)).inf fun q => f (colOf ⟨n, hn⟩ q)) := by
  rw [inf_tiles_upto f P (n + 1), inf_tiles_upto f P n]
  have h : (Finset.univ.filter fun j : Fin 32 => j.val < n + 1) =
      insert (⟨n, hn⟩ : Fin 32) (Finset.univ.filter fun j : Fin 32 => j.val < n) := by
    ext j
    simp only [Finset.mem_filter, Finset.mem_univ, true_and, Finset.mem_insert, Fin.ext_iff]
    omega
  rw [h, Finset.inf_insert, inf_comm]

/-- After the last tile the running infimum is the infimum over all the columns that satisfy `P`. -/
theorem inf_tiles_full (f : Fin 32768 → EReal) (P : Fin 32768 → Prop) [DecidablePred P] :
    (Finset.univ.filter fun c : Fin 32768 => P c ∧ c.val / 1024 < 32).inf f = (Finset.univ.filter P).inf f := by
  have h : (Finset.univ.filter fun c : Fin 32768 => P c ∧ c.val / 1024 < 32) = Finset.univ.filter P := by
    refine Finset.filter_congr fun c _ => ⟨fun hc => hc.1, fun hc => ⟨hc, ?_⟩⟩
    have := c.isLt
    omega
  rw [h]

/-- The infimum over the columns that satisfy `P` is the infimum over the tiles of the infimum inside each. -/
theorem inf_tiles (f : Fin 32768 → EReal) (P : Fin 32768 → Prop) [DecidablePred P] :
    (Finset.univ.filter P).inf f =
      Finset.univ.inf fun j : Fin 32 =>
        (Finset.univ.filter fun q : Fin 1024 => P (colOf j q)).inf fun q => f (colOf j q) := by
  have h2 : (Finset.univ.filter fun j : Fin 32 => j.val < 32) = Finset.univ :=
    Finset.filter_true_of_mem fun j _ => j.isLt
  rw [← inf_tiles_full f P, inf_tiles_upto f P 32, h2]

/-- A sum whose terms vanish off the index `p` is its term at `p`. -/
theorem sum_diag_single (g : Fin 1024 → EReal) (p : Fin 1024) :
    (∑ q : Fin 1024, if q = p then g q else 0) = g p := by
  rw [Finset.sum_ite_eq' Finset.univ p g, if_pos (Finset.mem_univ p)]

end Cert.KoLeo

end
-- ==== Proof.AccLaw.lean ====
/-
  The closed form of a row's two running values after the 32 column tiles.

  Fix the column part `f` of one row's squared distances, the number `i` of the row's own tile and the row's
  place `p` inside it, so that the row's diagonal column is column `p` of tile `i`. The running minimum starts
  from `⊤` and takes, at tile `j`, the infimum of `f` over the tile, column `p` left out when `j = i`
  (`tileInf`); the diagonal value is `⊤` until tile `i` records `f` at the diagonal column and is kept afterwards.
  After tile `j` the first is the infimum of `f` over the off-diagonal columns of tiles `0 … j`, the second is
  `f` at the diagonal column once `i ≤ j`; after the last tile they are the infimum over all the off-diagonal
  columns and the diagonal entry.
-/
import proofs.«152194_j74887049773256_2_alg».proof.Proof.Spec
import proofs.«152194_j74887049773256_2_alg».proof.Proof.RowLaw2

noncomputable section

open scoped BigOperators

namespace Cert.KoLeo

/-- What tile `j` contributes to the running minimum of the row at place `p` of tile `i`. -/
def tileInf (f : Fin 32768 → EReal) (i : Fin 32) (p : Fin 1024) (j : Fin 32) : EReal :=
  if i = j then (Finset.univ.filter fun q : Fin 1024 => q ≠ p).inf (fun q => f (colOf j q))
  else Finset.univ.inf (fun q : Fin 1024 => f (colOf j q))

/-- It is tile `j`'s infimum over the columns other than the diagonal one: on another tile every column passes,
    on tile `i` exactly the columns `q ≠ p`. -/
theorem tileInf_eq (f : Fin 32768 → EReal) (i : Fin 32) (p : Fin 1024) (j : Fin 32) :
    tileInf f i p j =
      (Finset.univ.filter fun q : Fin 1024 => colOf j q ≠ colOf i p).inf fun q => f (colOf j q) := by
  unfold tileInf
  by_cases h : i = j
  · subst h
    rw [if_pos rfl]
    refine congrArg (fun S : Finset (Fin 1024) => S.inf fun q => f (colOf i q)) (Finset.filter_congr fun q _ => ?_)
    exact ⟨fun hq e => hq (colOf_injective e).2, fun hq e => hq (by rw [e])⟩
  · rw [if_neg h]
    refine congrArg (fun S : Finset (Fin 1024) => S.inf fun q => f (colOf j q)) ?_
    have hall : ∀ q ∈ (Finset.univ : Finset (Fin 1024)), colOf j q ≠ colOf i p :=
      fun q _ e => h (colOf_injective e).1.symm
    exact (Finset.filter_true_of_mem hall).symm

/-- One more tile, for the off-diagonal columns. -/
theorem offDiag_step (f : Fin 32768 → EReal) (i : Fin 32) (p : Fin 1024) (n : Nat) (hn : n < 32) :
    (Finset.univ.filter fun c : Fin 32768 => c ≠ colOf i p ∧ c.val / 1024 < n + 1).inf f =
      min ((Finset.univ.filter fun c : Fin 32768 => c ≠ colOf i p ∧ c.val / 1024 < n).inf f)
        (tileInf f i p ⟨n, hn⟩) := by
  rw [tileInf_eq]
  exact inf_tiles_step f (fun c => c ≠ colOf i p) n hn

/-- The two running values after tile `n`. -/
theorem acc_upto (f : Fin 32768 → EReal) (i : Fin 32) (p : Fin 1024) (a d : Fin 32 → EReal)
    (ha0 : a 0 = min ⊤ (tileInf f i p 0))
    (ha : ∀ j : Fin 32, (h : j.val ≠ 0) → a j = min (a ⟨j.val - 1, by omega⟩) (tileInf f i p j))
    (hd0 : d 0 = if i = 0 then f (colOf 0 p) else ⊤)
    (hd : ∀ j : Fin 32, (h : j.val ≠ 0) → d j = if i = j then f (colOf j p) else d ⟨j.val - 1, by omega⟩) :
    ∀ (n : Nat) (hn : n < 32),
      a ⟨n, hn⟩ = (Finset.univ.filter fun c : Fin 32768 => c ≠ colOf i p ∧ c.val / 1024 < n + 1).inf f
        ∧ d ⟨n, hn⟩ = if i.val ≤ n then f (colOf i p) else ⊤ := by
  intro n
  induction n with
  | zero =>
    intro hn
    refine ⟨?_, ?_⟩
    · rw [offDiag_step f i p 0 hn, inf_tiles_zero]
      exact ha0
    · refine hd0.trans ?_
      by_cases h : i = 0
      · subst h
        rw [if_pos rfl, if_pos (show ((0 : Fin 32) : Nat) ≤ 0 from Nat.le_refl 0)]
      · have hv : ¬ i.val ≤ 0 := fun hle => h (Fin.ext (by simpa using hle))
        rw [if_neg h, if_neg hv]
  | succ n ih =>
    intro hn
    obtain ⟨iha, ihd⟩ := ih (by omega)
    have hpred : (⟨(⟨n + 1, hn⟩ : Fin 32).val - 1, by omega⟩ : Fin 32) = ⟨n, by omega⟩ := Fin.ext (by simp)
    refine ⟨?_, ?_⟩
    · rw [offDiag_step f i p (n + 1) hn, ← iha]
      have h1 := ha ⟨n + 1, hn⟩ (by simp)
      rw [hpred] at h1
      exact h1
    · have h1 := hd ⟨n + 1, hn⟩ (by simp)
      rw [hpred, ihd] at h1
      refine h1.trans ?_
      by_cases h : i = ⟨n + 1, hn⟩
      · subst h
        rw [if_pos rfl, if_pos (show ((⟨n + 1, hn⟩ : Fin 32) : Nat) ≤ n + 1 from Nat.le_refl _)]
      · have hv : i.val ≠ n + 1 := fun e => h (Fin.ext e)
        rw [if_neg h]
        by_cases hle : i.val ≤ n
        · rw [if_pos hle, if_pos (by omega)]
        · rw [if_neg hle, if_neg (by omega)]

/-- After the last tile: the infimum over all the off-diagonal columns, and the diagonal entry. -/
theorem acc_closed (f : Fin 32768 → EReal) (i : Fin 32) (p : Fin 1024) (a d : Fin 32 → EReal)
    (ha0 : a 0 = min ⊤ (tileInf f i p 0))
    (ha : ∀ j : Fin 32, (h : j.val ≠ 0) → a j = min (a ⟨j.val - 1, by omega⟩) (tileInf f i p j))
    (hd0 : d 0 = if i = 0 then f (colOf 0 p) else ⊤)
    (hd : ∀ j : Fin 32, (h : j.val ≠ 0) → d j = if i = j then f (colOf j p) else d ⟨j.val - 1, by omega⟩) :
    a 31 = (Finset.univ.filter fun c : Fin 32768 => c ≠ colOf i p).inf f ∧ d 31 = f (colOf i p) := by
  obtain ⟨h1, h2⟩ := acc_upto f i p a d ha0 ha hd0 hd 31 (by norm_num)
  refine ⟨?_, ?_⟩
  · exact h1.trans (inf_tiles_full f fun c => c ≠ colOf i p)
  · exact h2.trans (if_pos (by have := i.isLt; omega))

/-! ## The link to the row's value -/

/-- The diagonal column of row `r` is column `r % 1024` of tile `r / 1024`. -/
theorem diagCol_eq (r : Fin 8192) :
    diagCol r = colOf ⟨r.val / 1024, by omega⟩ ⟨r.val % 1024, Nat.mod_lt _ (by norm_num)⟩ := by
  apply Fin.ext
  simp only [diagCol, colOf]
  omega

/-- Row `p` of row tile `i`: its diagonal column is column `p` of column tile `i`. -/
theorem diagCol_of (i : Fin 8) (p : Fin 1024) :
    diagCol ⟨i.val * 1024 + p.val, by omega⟩ = colOf ⟨i.val, by omega⟩ p := rfl

/-- The row's value from the two running values after the last tile, the diagonal column named as column `p` of
    tile `i`. -/
theorem rowKer_of_acc_at (X : Fin 8192 → Fin 1024 → EReal) (Y : Fin 32768 → Fin 1024 → EReal) (r : Fin 8192)
    (i : Fin 32) (p : Fin 1024) (hr : diagCol r = colOf i p) (a d : Fin 32 → EReal)
    (ha0 : a 0 = min ⊤ (tileInf (colPart X Y r) i p 0))
    (ha : ∀ j : Fin 32, (h : j.val ≠ 0) → a j = min (a ⟨j.val - 1, by omega⟩) (tileInf (colPart X Y r) i p j))
    (hd0 : d 0 = if i = 0 then colPart X Y r (colOf 0 p) else ⊤)
    (hd : ∀ j : Fin 32, (h : j.val ≠ 0) →
      d j = if i = j then colPart X Y r (colOf j p) else d ⟨j.val - 1, by omega⟩) :
    min (rootClamp (ssq X r + a 31)) (rootClamp (ssq X r + d 31) + one) = rowKer X Y r := by
  obtain ⟨h1, h2⟩ := acc_closed (colPart X Y r) i p a d ha0 ha hd0 hd
  unfold rowKer
  rw [h1, h2, hr]

/-- The same with the tile and the place computed from the row's number. -/
theorem rowKer_of_acc (X : Fin 8192 → Fin 1024 → EReal) (Y : Fin 32768 → Fin 1024 → EReal) (r : Fin 8192)
    (a d : Fin 32 → EReal)
    (ha0 : a 0 = min ⊤ (tileInf (colPart X Y r) ⟨r.val / 1024, by omega⟩ ⟨r.val % 1024, Nat.mod_lt _ (by norm_num)⟩ 0))
    (ha : ∀ j : Fin 32, (h : j.val ≠ 0) → a j = min (a ⟨j.val - 1, by omega⟩)
      (tileInf (colPart X Y r) ⟨r.val / 1024, by omega⟩ ⟨r.val % 1024, Nat.mod_lt _ (by norm_num)⟩ j))
    (hd0 : d 0 = if (⟨r.val / 1024, by omega⟩ : Fin 32) = 0
      then colPart X Y r (colOf 0 ⟨r.val % 1024, Nat.mod_lt _ (by norm_num)⟩) else ⊤)
    (hd : ∀ j : Fin 32, (h : j.val ≠ 0) → d j = if (⟨r.val / 1024, by omega⟩ : Fin 32) = j
      then colPart X Y r (colOf j ⟨r.val % 1024, Nat.mod_lt _ (by norm_num)⟩) else d ⟨j.val - 1, by omega⟩) :
    min (rootClamp (ssq X r + a 31)) (rootClamp (ssq X r + d 31) + one) = rowKer X Y r :=
  rowKer_of_acc_at X Y r _ _ (diagCol_eq r) a d ha0 ha hd0 hd

end Cert.KoLeo

end
-- ==== Proof.NNAcc.lean ====
/-
  The two running values of the nearest-neighbour region as the sequences of the closed form.

  At the ideal values, suppose the blocks of a point hold what the other regions left: the row tile's normalised
  rows, the column tile's normalised rows and their squared lengths. Then every entry of a tile is the column
  part of the squared distance (`tileVal_eq`), one point's effect on the two running values at row `p` of row
  tile `i` is one step of the recursion of the closed form (`accStep_fst`, `accStep_snd`), and after the last
  column tile the finalize of the two values is the row's value in the kernel's arrangement (`acc_final`).
-/
import proofs.«152194_j74887049773256_2_alg».proof.Proof.NNRegion
import proofs.«152194_j74887049773256_2_alg».proof.Proof.NNPt
import proofs.«152194_j74887049773256_2_alg».proof.Proof.NNValue
import proofs.«152194_j74887049773256_2_alg».proof.Proof.AccLaw
import proofs.«152194_j74887049773256_2_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

section Acc

variable (V : (c : Dev nD) → (b : Ref sig .tc) → Buf (Elt Ideal) ((c : Thread nD τ).loc b))
variable (c : Dev nD) (X : Fin 8192 → Fin 1024 → EReal) (Y : Fin 32768 → Fin 1024 → EReal)

/-- The running values at equal point numbers are equal. -/
theorem accAt_congr (n m : ℕ) (h : n = m) (hn : n < cfg2.N) (hm : m < cfg2.N) : accAt V c n hn = accAt V c m hm := by
  subst h; rfl

/-- Every entry of a tile is the column part of the squared distance. -/
theorem tileVal_eq
    (hX : ∀ (i : Fin 8) (j : Fin 32) (p k : Fin 1024), bX V c (gpt i j) (ix2 p k) = Cert.KoLeo.nrm X ⟨i.val * 1024 + p.val, by omega⟩ k)
    (hY : ∀ (i : Fin 8) (j : Fin 32) (q k : Fin 1024), bY V c (gpt i j) (ix2 q k) = Cert.KoLeo.nrm Y (Cert.KoLeo.colOf j q) k)
    (hYs : ∀ (i : Fin 8) (j : Fin 32) (q : Fin 1024) (z : Fin 1), bYs V c (gpt i j) (ix2 z q) = Cert.KoLeo.ssq Y (Cert.KoLeo.colOf j q))
    (i : Fin 8) (j : Fin 32) (p q : Fin 1024) :
    tileVal (bX V c (gpt i j)) (bY V c (gpt i j)) (bYs V c (gpt i j)) p q
      = Cert.KoLeo.colPart X Y ⟨i.val * 1024 + p.val, by omega⟩ (Cert.KoLeo.colOf j q) := by
  unfold tileVal Cert.KoLeo.colPart Cert.KoLeo.dotp
  rw [hYs i j q 0]
  refine congrArg (fun y : EReal => Cert.KoLeo.ssq Y (Cert.KoLeo.colOf j q) - Cert.KoLeo.two * y)
    (Finset.sum_congr rfl fun k _ => ?_)
  rw [hX i j p k, hY i j q k]

/-- One point's effect on the running minimum at row `p`: one more `min` with the tile's contribution, from
    `⊤` at the first column tile. -/
theorem accStep_fst
    (hX : ∀ (i : Fin 8) (j : Fin 32) (p k : Fin 1024), bX V c (gpt i j) (ix2 p k) = Cert.KoLeo.nrm X ⟨i.val * 1024 + p.val, by omega⟩ k)
    (hY : ∀ (i : Fin 8) (j : Fin 32) (q k : Fin 1024), bY V c (gpt i j) (ix2 q k) = Cert.KoLeo.nrm Y (Cert.KoLeo.colOf j q) k)
    (hYs : ∀ (i : Fin 8) (j : Fin 32) (q : Fin 1024) (z : Fin 1), bYs V c (gpt i j) (ix2 z q) = Cert.KoLeo.ssq Y (Cert.KoLeo.colOf j q))
    (i : Fin 8) (j : Fin 32) (p : Fin 1024) (z : Fin 1) (prev : Vec Ideal S1024x1 .f32 × Vec Ideal S1024x1 .f32) :
    (accStep V c (gpt i j) prev).1 (ix2 p z)
      = min (if j.val = 0 then ⊤ else prev.1 (ix2 p z))
          (Cert.KoLeo.tileInf (Cert.KoLeo.colPart X Y ⟨i.val * 1024 + p.val, by omega⟩) ⟨i.val, by omega⟩ p j) := by
  have hsel : (if (gpt i j).val % 32 = 0 then k2_pay1 (F := Ideal) else prev.1) (ix2 p z)
      = if j.val = 0 then ⊤ else prev.1 (ix2 p z) := by
    rw [gpt_mod]
    by_cases h0 : j.val = 0
    · rw [if_pos h0, if_pos h0]; exact k2_pay1_apply p z
    · rw [if_neg h0, if_neg h0]
  unfold accStep Cert.KoLeo.tileInf
  by_cases hd : i.val = j.val
  · rw [if_pos (show (gpt i j).val / 32 = (gpt i j).val % 32 by rw [gpt_div, gpt_mod]; exact hd),
      if_pos (show (⟨i.val, by omega⟩ : Fin 32) = j from Fin.ext hd)]
    refine (k2_pay6_apply _ _ _ _ p z).trans ?_
    rw [hsel]
    refine congrArg (fun y : EReal => min (if j.val = 0 then ⊤ else prev.1 (ix2 p z)) y) ?_
    refine congrArg (Finset.inf (Finset.univ.filter fun q : Fin 1024 => q ≠ p)) (funext fun q => ?_)
    exact tileVal_eq V c X Y hX hY hYs i j p q
  · rw [if_neg (show ¬ (gpt i j).val / 32 = (gpt i j).val % 32 by rw [gpt_div, gpt_mod]; exact hd),
      if_neg (show ¬ (⟨i.val, by omega⟩ : Fin 32) = j from fun e => hd (congrArg Fin.val e))]
    refine (k2_pay4_apply _ _ _ _ p z).trans ?_
    rw [hsel]
    refine congrArg (fun y : EReal => min (if j.val = 0 then ⊤ else prev.1 (ix2 p z)) y) ?_
    refine congrArg (Finset.inf Finset.univ) (funext fun q => ?_)
    exact tileVal_eq V c X Y hX hY hYs i j p q

/-- One point's effect on the diagonal value at row `p`: recorded on the diagonal tile, `⊤` at the first column
    tile otherwise, kept otherwise. -/
theorem accStep_snd
    (hX : ∀ (i : Fin 8) (j : Fin 32) (p k : Fin 1024), bX V c (gpt i j) (ix2 p k) = Cert.KoLeo.nrm X ⟨i.val * 1024 + p.val, by omega⟩ k)
    (hY : ∀ (i : Fin 8) (j : Fin 32) (q k : Fin 1024), bY V c (gpt i j) (ix2 q k) = Cert.KoLeo.nrm Y (Cert.KoLeo.colOf j q) k)
    (hYs : ∀ (i : Fin 8) (j : Fin 32) (q : Fin 1024) (z : Fin 1), bYs V c (gpt i j) (ix2 z q) = Cert.KoLeo.ssq Y (Cert.KoLeo.colOf j q))
    (i : Fin 8) (j : Fin 32) (p : Fin 1024) (z : Fin 1) (prev : Vec Ideal S1024x1 .f32 × Vec Ideal S1024x1 .f32) :
    (accStep V c (gpt i j) prev).2 (ix2 p z)
      = if (⟨i.val, by omega⟩ : Fin 32) = j
          then Cert.KoLeo.colPart X Y ⟨i.val * 1024 + p.val, by omega⟩ (Cert.KoLeo.colOf j p)
          else (if j.val = 0 then ⊤ else prev.2 (ix2 p z)) := by
  unfold accStep
  by_cases hd : i.val = j.val
  · rw [if_pos (show (gpt i j).val / 32 = (gpt i j).val % 32 by rw [gpt_div, gpt_mod]; exact hd),
      if_pos (show (⟨i.val, by omega⟩ : Fin 32) = j from Fin.ext hd)]
    refine (k2_pay7_apply _ _ _ p z).trans ?_
    exact tileVal_eq V c X Y hX hY hYs i j p p
  · rw [if_neg (show ¬ (gpt i j).val / 32 = (gpt i j).val % 32 by rw [gpt_div, gpt_mod]; exact hd),
      if_neg (show ¬ (⟨i.val, by omega⟩ : Fin 32) = j from fun e => hd (congrArg Fin.val e))]
    show (if (gpt i j).val % 32 = 0 then k2_pay2 (F := Ideal) else prev.2) (ix2 p z) = _
    rw [gpt_mod]
    by_cases h0 : j.val = 0
    · rw [if_pos h0, if_pos h0]; exact k2_pay2_apply p z
    · rw [if_neg h0, if_neg h0]

/-- The running values after point `(i, j)` are one step from those after the point before, and at the first
    column tile the step does not read them. -/
theorem accAt_pt (i : Fin 8) (j : Fin 32) :
    ∃ prev, accAt V c (gpt i j).val (gpt i j).isLt = accStep V c (gpt i j) prev
      ∧ ((h : j.val ≠ 0) → prev = accAt V c (gpt i ⟨j.val - 1, by omega⟩).val (gpt i ⟨j.val - 1, by omega⟩).isLt) := by
  by_cases hz : (gpt i j).val = 0
  · refine ⟨_, accAt_zero V c (gpt i j) hz, fun h => absurd hz ?_⟩
    rw [gpt_val]; omega
  · refine ⟨_, accAt_pos V c (gpt i j) hz, fun h => accAt_congr V c _ _ ?_ _ _⟩
    rw [gpt_val, gpt_val]
    show i.val * 32 + j.val - 1 = i.val * 32 + (j.val - 1)
    omega

/-- After the last column tile of row tile `i`, the finalize of the two running values at row `p` is the row's
    value in the kernel's arrangement. -/
theorem acc_final
    (hX : ∀ (i : Fin 8) (j : Fin 32) (p k : Fin 1024), bX V c (gpt i j) (ix2 p k) = Cert.KoLeo.nrm X ⟨i.val * 1024 + p.val, by omega⟩ k)
    (hY : ∀ (i : Fin 8) (j : Fin 32) (q k : Fin 1024), bY V c (gpt i j) (ix2 q k) = Cert.KoLeo.nrm Y (Cert.KoLeo.colOf j q) k)
    (hYs : ∀ (i : Fin 8) (j : Fin 32) (q : Fin 1024) (z : Fin 1), bYs V c (gpt i j) (ix2 z q) = Cert.KoLeo.ssq Y (Cert.KoLeo.colOf j q))
    (i : Fin 8) (p : Fin 1024) (z : Fin 1) :
    min (Cert.KoLeo.rootClamp (Cert.KoLeo.ssq X ⟨i.val * 1024 + p.val, by omega⟩
          + (accAt V c (gpt i 31).val (gpt i 31).isLt).1 (ix2 p z)))
        (Cert.KoLeo.rootClamp (Cert.KoLeo.ssq X ⟨i.val * 1024 + p.val, by omega⟩
          + (accAt V c (gpt i 31).val (gpt i 31).isLt).2 (ix2 p z)) + Cert.KoLeo.one)
      = Cert.KoLeo.rowKer X Y ⟨i.val * 1024 + p.val, by omega⟩ := by
  refine Cert.KoLeo.rowKer_of_acc_at X Y ⟨i.val * 1024 + p.val, by omega⟩ ⟨i.val, by omega⟩ p
    (Cert.KoLeo.diagCol_of i p)
    (fun j => (accAt V c (gpt i j).val (gpt i j).isLt).1 (ix2 p z))
    (fun j => (accAt V c (gpt i j).val (gpt i j).isLt).2 (ix2 p z)) ?_ ?_ ?_ ?_
  · obtain ⟨prev, hstep, -⟩ := accAt_pt V c i 0
    show (accAt V c (gpt i 0).val (gpt i 0).isLt).1 (ix2 p z) = _
    rw [hstep, accStep_fst V c X Y hX hY hYs i 0 p z prev, if_pos (show ((0 : Fin 32) : ℕ) = 0 from rfl)]
  · intro j h
    obtain ⟨prev, hstep, hprev⟩ := accAt_pt V c i j
    show (accAt V c (gpt i j).val (gpt i j).isLt).1 (ix2 p z) = _
    rw [hstep, accStep_fst V c X Y hX hY hYs i j p z prev, if_neg h, hprev h]
  · obtain ⟨prev, hstep, -⟩ := accAt_pt V c i 0
    show (accAt V c (gpt i 0).val (gpt i 0).isLt).2 (ix2 p z) = _
    rw [hstep, accStep_snd V c X Y hX hY hYs i 0 p z prev, if_pos (show ((0 : Fin 32) : ℕ) = 0 from rfl)]
  · intro j h
    obtain ⟨prev, hstep, hprev⟩ := accAt_pt V c i j
    show (accAt V c (gpt i j).val (gpt i j).isLt).2 (ix2 p z) = _
    rw [hstep, accStep_snd V c X Y hX hY hYs i j p z prev, if_neg h, hprev h]

/-- The output block a row tile's last point stores, at row `p`: the row's value in the kernel's arrangement. -/
theorem out_final
    (hX : ∀ (i : Fin 8) (j : Fin 32) (p k : Fin 1024), bX V c (gpt i j) (ix2 p k) = Cert.KoLeo.nrm X ⟨i.val * 1024 + p.val, by omega⟩ k)
    (hXs : ∀ (i : Fin 8) (j : Fin 32) (p : Fin 1024) (z : Fin 1), bXs V c (gpt i j) (ix2 p z) = Cert.KoLeo.ssq X ⟨i.val * 1024 + p.val, by omega⟩)
    (hY : ∀ (i : Fin 8) (j : Fin 32) (q k : Fin 1024), bY V c (gpt i j) (ix2 q k) = Cert.KoLeo.nrm Y (Cert.KoLeo.colOf j q) k)
    (hYs : ∀ (i : Fin 8) (j : Fin 32) (q : Fin 1024) (z : Fin 1), bYs V c (gpt i j) (ix2 z q) = Cert.KoLeo.ssq Y (Cert.KoLeo.colOf j q))
    (i : Fin 8) (p : Fin 1024) (z : Fin 1) :
    outAt V c (gpt i 31) (ix2 p z) = Cert.KoLeo.rowKer X Y ⟨i.val * 1024 + p.val, by omega⟩ := by
  unfold outAt
  refine (k2_pay8_apply _ _ _ _ p z).trans ?_
  rw [hXs i 31 p z]
  exact acc_final V c X Y hX hY hYs i p z

end Acc

end Cert.KernelIdeal.Hand

end
-- ==== Proof.NNBlocks.lean ====
/-
  The nearest-neighbour region's blocks read at an index, and its output array read off the blocks written back.

  The grid point of row tile `i` and column tile `j` reads rows `1024 i … 1024 i + 1023` of the normalised X and of
  the column of its squared lengths, and rows `1024 j … 1024 j + 1023` of the normalised Y and the same columns of
  the row of its squared lengths: a block's element sits in its array, on each axis, at block index times block
  size plus its own coordinate. The output column is written back only at the last column tile of each row tile,
  into the rows of that row tile; those eight blocks are pairwise disjoint, so after the last point the rows of
  row tile `i` hold exactly what the point `(i, 31)` wrote.
-/
import proofs.«152194_j74887049773256_2_alg».proof.Proof.NNRegion
import proofs.«152194_j74887049773256_2_alg».proof.Proof.NNPt
import proofs.«152194_j74887049773256_2_alg».proof.Proof.RowLaw2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

/-- The five windows' block indices at point `t`, decided over the grid: the row tile `t / 32` for the windows over
    the rows of X and over the output, the column tile `t % 32` for the windows over the rows of Y. -/
theorem nnidx : ∀ t : Fin cfg2.N,
    win2_0.index t (0 : Fin 2) = t.val / 32 ∧ win2_0.index t (1 : Fin 2) = 0
    ∧ win2_1.index t (0 : Fin 2) = t.val / 32 ∧ win2_1.index t (1 : Fin 2) = 0
    ∧ win2_2.index t (0 : Fin 2) = t.val % 32 ∧ win2_2.index t (1 : Fin 2) = 0
    ∧ win2_3.index t (0 : Fin 2) = 0 ∧ win2_3.index t (1 : Fin 2) = t.val % 32
    ∧ win2_4.index t (0 : Fin 2) = t.val / 32 ∧ win2_4.index t (1 : Fin 2) = 0 :=
  (by decide +kernel : ∀ t : Fin grid2.N, _)

section Blocks

variable (V : (c : Dev nD) → (b : Ref sig .tc) → Buf (Elt F) ((c : Thread nD τ).loc b))

/-- Row tile `i`'s block of the normalised X at `(p, k)` is the array at row `1024 i + p`, column `k`. -/
theorem bX_apply (c : Dev nD) (i : Fin 8) (j : Fin 32) (p k : Fin 1024) :
    bX V c (gpt i j) (ix2 p k)
      = (V c main_v0_0 : S8192x1024.Idx → Elt F .bf16) (ix2 ⟨i.val * 1024 + p.val, by omega⟩ k) := by
  obtain ⟨e0, e1, -⟩ := nnidx (gpt i j)
  unfold bX nnblk
  rw [View.read_apply]
  show V c main_v0_0 _ = V c main_v0_0 _
  refine congrArg (V c main_v0_0) ?_
  funext a
  apply Fin.ext
  match a with
  | ⟨0, _⟩ => show win2_0.index (gpt i j) (0 : Fin 2) * 1024 + 1 * p.val = i.val * 1024 + p.val; rw [e0, gpt_div]; omega
  | ⟨1, _⟩ => show win2_0.index (gpt i j) (1 : Fin 2) * 1024 + 1 * k.val = k.val; rw [e1]; omega

/-- Row tile `i`'s block of X's squared lengths at `(p, 0)` is the column at row `1024 i + p`. -/
theorem bXs_apply (c : Dev nD) (i : Fin 8) (j : Fin 32) (p : Fin 1024) (z : Fin 1) :
    bXs V c (gpt i j) (ix2 p z)
      = (V c main_v0_1 : S8192x1.Idx → Elt F .f32) (ix2 ⟨i.val * 1024 + p.val, by omega⟩ z) := by
  obtain ⟨-, -, e2, e3, -⟩ := nnidx (gpt i j)
  unfold bXs nnblk
  rw [View.read_apply]
  show V c main_v0_1 _ = V c main_v0_1 _
  refine congrArg (V c main_v0_1) ?_
  funext a
  apply Fin.ext
  match a with
  | ⟨0, _⟩ => show win2_1.index (gpt i j) (0 : Fin 2) * 1024 + 1 * p.val = i.val * 1024 + p.val; rw [e2, gpt_div]; omega
  | ⟨1, _⟩ => show win2_1.index (gpt i j) (1 : Fin 2) * 1 + 1 * z.val = z.val; rw [e3]; omega

/-- Column tile `j`'s block of the normalised Y at `(q, k)` is the array at row `1024 j + q`, column `k`. -/
theorem bY_apply (c : Dev nD) (i : Fin 8) (j : Fin 32) (q k : Fin 1024) :
    bY V c (gpt i j) (ix2 q k)
      = (V c main_v1_0 : S32768x1024.Idx → Elt F .bf16) (ix2 (Cert.KoLeo.colOf j q) k) := by
  obtain ⟨-, -, -, -, e4, e5, -⟩ := nnidx (gpt i j)
  unfold bY nnblk
  rw [View.read_apply]
  show V c main_v1_0 _ = V c main_v1_0 _
  refine congrArg (V c main_v1_0) ?_
  funext a
  apply Fin.ext
  match a with
  | ⟨0, _⟩ => show win2_2.index (gpt i j) (0 : Fin 2) * 1024 + 1 * q.val = j.val * 1024 + q.val; rw [e4, gpt_mod]; omega
  | ⟨1, _⟩ => show win2_2.index (gpt i j) (1 : Fin 2) * 1024 + 1 * k.val = k.val; rw [e5]; omega

/-- Column tile `j`'s block of Y's squared lengths, a row, at `(0, q)` is the row at column `1024 j + q`. -/
theorem bYs_apply (c : Dev nD) (i : Fin 8) (j : Fin 32) (q : Fin 1024) (z : Fin 1) :
    bYs V c (gpt i j) (ix2 z q)
      = (V c main_v2 : S1x32768.Idx → Elt F .f32) (ix2 z (Cert.KoLeo.colOf j q)) := by
  obtain ⟨-, -, -, -, -, -, e6, e7, -⟩ := nnidx (gpt i j)
  unfold bYs nnblk
  rw [View.read_apply]
  show V c main_v2 _ = V c main_v2 _
  refine congrArg (V c main_v2) ?_
  funext a
  apply Fin.ext
  match a with
  | ⟨0, _⟩ => show win2_3.index (gpt i j) (0 : Fin 2) * 1 + 1 * z.val = z.val; rw [e6]; omega
  | ⟨1, _⟩ => show win2_3.index (gpt i j) (1 : Fin 2) * 1024 + 1 * q.val = j.val * 1024 + q.val; rw [e7, gpt_mod]; omega

/-! ## The output window: from the blocks written back to the array -/

/-- An index of the output column is in point `t`'s block iff each coordinate is in the block's range. -/
theorem mem_blk4 (t : Fin cfg2.N) (x : S8192x1.Idx) :
    x ∈ ((cfg2.win 4).blk t).view.set ↔ ∀ a : Fin 2, win2_4.index t a * S1024x1.size a ≤ (x a).val
      ∧ (x a).val < win2_4.index t a * S1024x1.size a + S1024x1.size a := by
  show x ∈ ((View.whole main_v3).slice (win2_4.rect t)).set ↔ _
  rw [View.set_slice_whole, Rect.mem_set_unit]
  exact Iff.rfl

/-- Two different points that write the output back are last column tiles of different row tiles: their blocks
    of rows do not meet. -/
theorem disj4 (t t' : Fin cfg2.N) (hf : (cfg2.win 4).flush t = true) (hf' : (cfg2.win 4).flush t' = true) (hne : t ≠ t') :
    Disjoint ((cfg2.win 4).blk t).view.set ((cfg2.win 4).blk t').view.set := by
  rw [Finset.disjoint_left]
  intro x hx hx'
  rw [mem_blk4] at hx hx'
  obtain ⟨-, -, -, -, -, -, -, -, e, -⟩ := nnidx t
  obtain ⟨-, -, -, -, -, -, -, -, e', -⟩ := nnidx t'
  have h0 : win2_4.index t (0 : Fin 2) * 1024 ≤ (x 0).val ∧ (x 0).val < win2_4.index t (0 : Fin 2) * 1024 + 1024 := hx 0
  have h0' : win2_4.index t' (0 : Fin 2) * 1024 ≤ (x 0).val ∧ (x 0).val < win2_4.index t' (0 : Fin 2) * 1024 + 1024 := hx' 0
  rw [e] at h0; rw [e'] at h0'
  have hm := (flush2_4 t).mp hf
  have hm' := (flush2_4 t').mp hf'
  exact hne (Fin.ext (by omega))

/-- After the last point the output column holds, in the rows of row tile `i`, the block the last column tile of
    that row tile wrote. -/
theorem nnarr_out (c : Dev nD) (i : Fin 8) (p : Fin 1024) (z : Fin 1) :
    ((nndat V c).arrAt 4 cfg2.N : S8192x1.Idx → Elt F .f32) (ix2 ⟨i.val * 1024 + p.val, by omega⟩ z)
      = outAt V c (gpt i 31) (ix2 p z) := by
  have hf : (cfg2.win 4).flush (gpt i 31) = true := (flush2_4 _).mpr (gpt_mod i 31)
  obtain ⟨-, -, -, -, -, -, -, -, e8, e9⟩ := nnidx (gpt i 31)
  have h := (nndat V c).arrAt_emb_eq_flushed 4 disj4 (gpt i 31) hf (ix2 p z)
  have hemb : ((cfg2.win 4).blk (gpt i 31)).view.emb (ix2 p z) = ix2 (⟨i.val * 1024 + p.val, by omega⟩ : Fin 8192) z := by
    funext a
    apply Fin.ext
    match a with
    | ⟨0, _⟩ => show win2_4.index (gpt i 31) (0 : Fin 2) * 1024 + 1 * p.val = i.val * 1024 + p.val; rw [e8, gpt_div]; omega
    | ⟨1, _⟩ => show win2_4.index (gpt i 31) (1 : Fin 2) * 1 + 1 * z.val = z.val; rw [e9]; omega
  rw [hemb] at h
  refine h.trans ?_
  show (cfg2.win 4).cut (grid2.coords (gpt i 31)) ((nndat V c).after 4 (gpt i 31)) (ix2 p z) = _
  rw [nndat_after4]
  show outAt V c (gpt i 31) ((cfg2.win 4).xinj (grid2.coords (gpt i 31)) (ix2 p z)) = _
  refine congrArg (outAt V c (gpt i 31)) ?_
  funext a
  match a with
  | ⟨0, _⟩ => rfl
  | ⟨1, _⟩ => rfl

end Blocks

end Cert.KernelIdeal.Hand

end
-- ==== Proof.NormRegions.lean ====
/-
  The two row-normalising regions, each at the buffer contents `V` it is entered with.

  At every grid point the body reads one block `x` of 1024 rows of length 1024 and leaves, in its first output
  buffer, every row of `x` divided by `max (√(Σ_q x r q ²)) ε` (narrowed to the 16-bit format), and in its second
  output buffer the column of the squared lengths of the normalised rows. Both output buffers are loaded before
  they are stored; the loaded values are not used, and each store covers its whole buffer, so what the buffers
  held before the body does not matter.

  Per region: a window's block at a point (`nblkK`), what the body leaves in the two output buffers as functions
  of the input block (`nOutAK`, `nOutBK`), the body's triple (`sound_normK`), the pipeline's proof data (`ndatK`)
  and the body obligation at every point (`nbodyK`).
-/
import proofs.«152194_j74887049773256_2_alg».proof.Proof.Gen.KernelIdeal.Launch
import proofs.«152194_j74887049773256_2_alg».proof.Proof.Gen.KernelIdeal.Skeleton
import proofs.«152194_j74887049773256_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two rectangles the body reads and writes through: each is its whole buffer -/

/-- The whole 1024 × 1024 block. -/
abbrev rSq : Rect S1024x1024 := Rect.unit (s := S1024x1024) ![0, 0] S1024x1024.size inb_S1024x1024_S1024x1024_0_0
/-- The whole 1024 × 1 column. -/
abbrev rCol : Rect S1024x1 := Rect.unit (s := S1024x1) ![0, 0] S1024x1.size inb_S1024x1_S1024x1_0_0

/-- The zero offsets of rank 2 are the constant zero function. -/
theorem zeros2 : (![0, 0] : Fin 2 → ℕ) = fun _ => 0 := by
  funext a; fin_cases a <;> rfl

/-- One store through the whole block covers it. -/
theorem coverSq {e : EltTy} (p0 : S1024x1024.Idx → Elt F e) (y : S1024x1024.Idx) :
    ∃ pc ∈ ([⟨rSq, p0⟩] : List (View.Piece (Elt F) S1024x1024 e)), y ∈ pc.1.set :=
  ⟨_, List.mem_singleton_self _, View.mem_set_unit_zero (S := S1024x1024) zeros2 inb_S1024x1024_S1024x1024_0_0 y⟩

/-- One store through the whole column covers it. -/
theorem coverCol {e : EltTy} (p0 : S1024x1.Idx → Elt F e) (y : S1024x1.Idx) :
    ∃ pc ∈ ([⟨rCol, p0⟩] : List (View.Piece (Elt F) S1024x1 e)), y ∈ pc.1.set :=
  ⟨_, List.mem_singleton_self _, View.mem_set_unit_zero (S := S1024x1) zeros2 inb_S1024x1_S1024x1_0_0 y⟩

section Regions
-- the buffer contents when a region is entered
variable (V : (c : Dev nD) → (b : Ref sig .tc) → Buf (Elt F) ((c : Thread nD τ).loc b))

/-! # Region 0: the normalisation of the first matrix, at the entry contents `V` -/

/-- Window `w`'s block at point `t`, read off its array as the region finds it. -/
def nblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first output buffer after the body: the block's rows divided by their lengths, narrowed. -/
def nOutA0 (x0 : Vec F S1024x1024 .f32) : Vec F S1024x1024 .bf16 :=
  View.canon [⟨rSq, k0_pay2 (View.ld x0 rSq)⟩]

/-- The second output buffer after the body: the squared lengths of the normalised rows. -/
def nOutB0 (x0 : Vec F S1024x1024 .f32) : Vec F S1024x1 .f32 :=
  View.canon [⟨rCol, k0_pay3 (View.ld x0 rSq)⟩]

set_option maxHeartbeats 1000000 in
/-- The body on whole staging memrefs, the input's at contents `x0` and the outputs' at anything, runs to the
    continuation holding the input's as it was and the outputs' at `nOutA0 x0`, `nOutB0 x0`. -/
theorem sound_norm0 (c : Dev nD) (E : Set ℕ) (i : grid0.Coords)
    (arg1 : Memref sig .tc .vmem S1024x1024 .f32) (harg1 : arg1.IsWhole)
    (arg2 : Memref sig .tc .vmem S1024x1024 .bf16) (harg2 : arg2.IsWhole)
    (arg3 : Memref sig .tc .vmem S1024x1 .f32) (harg3 : arg3.IsWhole)
    (x0 : Vec F S1024x1024 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (nOutA0 x0) ∗ owns (c : Thread nD τ) arg3 fullShare (nOutB0 x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverSq _)
  iexists _; isplitr
  swap; · iexact H2
  ipureintro
  exact View.read_writes_eq_canon _ _ _ (coverCol _)

/-! ## The pipeline's proof data -/

/-- Input window 0's current staging buffer holds its block at every point, fetched there or not, for any proof
    data whose array is `V`'s and whose body leaves the block in place: the window is fetched whole at every point
    and is never idle. -/
theorem nbefore0_of {c : Dev nD} (dat : Dat τ (Elt F) Unit ℕ (UR sig nD τ) ℕ cfg0 c) (hA : dat.A 0 = V c (Pipeline.arrRef spec0 0))
    (hafter : ∀ t, dat.after 0 t = nblk0 V c 0 t) (t : Fin cfg0.N) (d) : dat.before 0 t d = nblk0 V c 0 t :=
  (dat.before_in_eq_fetched 0 rfl (fun _ => rfl) (fun _ _ _ => rfl) (fun t => by rw [hafter]; unfold Dat.blockOf nblk0; rw [hA]; try rfl) t d).trans
    (by unfold Dat.fetched Dat.blockOf nblk0; rw [hA]; try rfl)

/-- The proof data of the region on core `c`: the arrays as the region finds them; after the body at point `t` the
    input's buffer at its block and the outputs' at `nOutA0`, `nOutB0` of that block; the invariant that leaves the
    scoped rest and the generator register untouched; nothing owed; full shares. -/
def ndat0 (c : Dev nD) : Dat τ (Elt F) Unit ℕ (UR sig nD τ) ℕ cfg0 c where
  A w := V c (Pipeline.arrRef spec0 w)
  after w t := match w with
    | ⟨0, _⟩ => nblk0 V c 0 t
    | ⟨1, _⟩ => nOutA0 (nblk0 V c 0 t)
    | ⟨2, _⟩ => nOutB0 (nblk0 V c 0 t)
  Φ _ := Pipeline.ΦA spec0 c
  q _ := fullShare
  owed _ := 0

/-- The proof data's arrays are the region-entry contents. -/
theorem ndat0_A (c : Dev nD) (w : Fin cfg0.W) : (ndat0 V c).A w = V c (Pipeline.arrRef spec0 w) := by
  dsimp only [ndat0]

/-- What the body leaves, window by window. -/
theorem ndat0_after0 (c : Dev nD) (t : Fin cfg0.N) : (ndat0 V c).after 0 t = nblk0 V c 0 t := by dsimp only [ndat0]
theorem ndat0_after1 (c : Dev nD) (t : Fin cfg0.N) : (ndat0 V c).after 1 t = nOutA0 (nblk0 V c 0 t) := by dsimp only [ndat0]
theorem ndat0_after2 (c : Dev nD) (t : Fin cfg0.N) : (ndat0 V c).after 2 t = nOutB0 (nblk0 V c 0 t) := by dsimp only [ndat0]

/-- The input's current staging buffer holds its block at every point. -/
theorem nbefore0 (c : Dev nD) (t : Fin cfg0.N) (d) : (ndat0 V c).before 0 t d = nblk0 V c 0 t :=
  nbefore0_of V (ndat0 V c) (ndat0_A V c 0) (ndat0_after0 V c) t d

/-! ## The body obligation, at a generic point -/

/-- What the body is called with at point `t`, the windows one by one, -/
def nbodyPre0 (c : Dev nD) (t : Fin cfg0.N) : sProp 𝕄 :=
  iprop((ndat0 V c).Φ t.castSucc ∗ (ndat0 V c).owesAt () t.castSucc
    ∗ (∃ d, owns (c : Thread nD τ) (st0_0 t) fullShare ((ndat0 V c).before 0 t d))
    ∗ (∃ d, owns (c : Thread nD τ) (st0_1 t) fullShare ((ndat0 V c).before 1 t d))
    ∗ (∃ d, owns (c : Thread nD τ) (st0_2 t) fullShare ((ndat0 V c).before 2 t d)))

/-- and what it returns. -/
def nbodyPost0 (c : Dev nD) (t : Fin cfg0.N) : sProp 𝕄 :=
  iprop((ndat0 V c).Φ t.succ ∗ (ndat0 V c).owesAt () t.succ
    ∗ owns (c : Thread nD τ) (st0_0 t) fullShare ((ndat0 V c).after 0 t)
    ∗ owns (c : Thread nD τ) (st0_1 t) fullShare ((ndat0 V c).after 1 t)
    ∗ owns (c : Thread nD τ) (st0_2 t) fullShare ((ndat0 V c).after 2 t))

/-- The body at any point: the input's memref holds its block, so `sound_norm0` applies; the invariant and the
    core's debts pass through unread. -/
theorem sound_nbody0 (c : Dev nD) (t : Fin cfg0.N) :
    nbodyPre0 V c t ⊢ wp frame (wpE (defs₀ (F := F)) Variants.none c none) Set.univ (bodyAt0 t) (fun _ => nbodyPost0 V c t) := by
  unfold nbodyPre0 nbodyPost0 bodyAt0
  simp only [nbefore0]
  rw [show (ndat0 V c).Φ t.succ = (ndat0 V c).Φ t.castSucc from rfl,
    show (ndat0 V c).owesAt () t.succ = (ndat0 V c).owesAt () t.castSucc from rfl,
    ndat0_after0, ndat0_after1, ndat0_after2]
  iintro ⟨HΦ, Ho, ⟨%d0, H0⟩, ⟨%d1, H1⟩, ⟨%d2, H2⟩⟩
  iapply (sound_norm0 c Set.univ _ _ _ _ _ _ _ (nblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem nbody0 (c : Dev nD) : BodyObligation (ndat0 (F := F) V c) (defs₀ (F := F)) Variants.none () Set.univ := fun t => by
  rw [bigSep_W0, bigSep_W0]
  exact sound_nbody0 V c t

/-! # Region 1: the normalisation of the second matrix, at the entry contents `V` -/

/-- Window `w`'s block at point `t`, read off its array as the region finds it. -/
def nblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first output buffer after the body: the block's rows divided by their lengths, narrowed. -/
def nOutA1 (x0 : Vec F S1024x1024 .f32) : Vec F S1024x1024 .bf16 :=
  View.canon [⟨rSq, k1_pay2 (View.ld x0 rSq)⟩]

/-- The second output buffer after the body: the squared lengths of the normalised rows. -/
def nOutB1 (x0 : Vec F S1024x1024 .f32) : Vec F S1024x1 .f32 :=
  View.canon [⟨rCol, k1_pay3 (View.ld x0 rSq)⟩]

set_option maxHeartbeats 1000000 in
/-- The body on whole staging memrefs, the input's at contents `x0` and the outputs' at anything, runs to the
    continuation holding the input's as it was and the outputs' at `nOutA1 x0`, `nOutB1 x0`. -/
theorem sound_norm1 (c : Dev nD) (E : Set ℕ) (i : grid1.Coords)
    (arg1 : Memref sig .tc .vmem S1024x1024 .f32) (harg1 : arg1.IsWhole)
    (arg2 : Memref sig .tc .vmem S1024x1024 .bf16) (harg2 : arg2.IsWhole)
    (arg3 : Memref sig .tc .vmem S1024x1 .f32) (harg3 : arg3.IsWhole)
    (x0 : Vec F S1024x1024 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (nOutA1 x0) ∗ owns (c : Thread nD τ) arg3 fullShare (nOutB1 x0)) -∗ K ⟨⟩))
      ⊢ wp frame (wpE (defs₀ (F := F)) Variants.none c none) E (cc1__normalize_kernel i arg1 harg1 arg2 harg2 arg3 harg3) K := by
  simp only [cc1__normalize_kernel_eq_skeleton]; unfold cc1__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverSq _)
  iexists _; isplitr
  swap; · iexact H2
  ipureintro
  exact View.read_writes_eq_canon _ _ _ (coverCol _)

/-! ## The pipeline's proof data -/

/-- Input window 0's current staging buffer holds its block at every point, fetched there or not, for any proof
    data whose array is `V`'s and whose body leaves the block in place: the window is fetched whole at every point
    and is never idle. -/
theorem nbefore1_of {c : Dev nD} (dat : Dat τ (Elt F) Unit ℕ (UR sig nD τ) ℕ cfg1 c) (hA : dat.A 0 = V c (Pipeline.arrRef spec1 0))
    (hafter : ∀ t, dat.after 0 t = nblk1 V c 0 t) (t : Fin cfg1.N) (d) : dat.before 0 t d = nblk1 V c 0 t :=
  (dat.before_in_eq_fetched 0 rfl (fun _ => rfl) (fun _ _ _ => rfl) (fun t => by rw [hafter]; unfold Dat.blockOf nblk1; rw [hA]; try rfl) t d).trans
    (by unfold Dat.fetched Dat.blockOf nblk1; rw [hA]; try rfl)

/-- The proof data of the region on core `c`: the arrays as the region finds them; after the body at point `t` the
    input's buffer at its block and the outputs' at `nOutA1`, `nOutB1` of that block; the invariant that leaves the
    scoped rest and the generator register untouched; nothing owed; full shares. -/
def ndat1 (c : Dev nD) : Dat τ (Elt F) Unit ℕ (UR sig nD τ) ℕ cfg1 c where
  A w := V c (Pipeline.arrRef spec1 w)
  after w t := match w with
    | ⟨0, _⟩ => nblk1 V c 0 t
    | ⟨1, _⟩ => nOutA1 (nblk1 V c 0 t)
    | ⟨2, _⟩ => nOutB1 (nblk1 V c 0 t)
  Φ _ := Pipeline.ΦA spec1 c
  q _ := fullShare
  owed _ := 0

/-- The proof data's arrays are the region-entry contents. -/
theorem ndat1_A (c : Dev nD) (w : Fin cfg1.W) : (ndat1 V c).A w = V c (Pipeline.arrRef spec1 w) := by
  dsimp only [ndat1]

/-- What the body leaves, window by window. -/
theorem ndat1_after0 (c : Dev nD) (t : Fin cfg1.N) : (ndat1 V c).after 0 t = nblk1 V c 0 t := by dsimp only [ndat1]
theorem ndat1_after1 (c : Dev nD) (t : Fin cfg1.N) : (ndat1 V c).after 1 t = nOutA1 (nblk1 V c 0 t) := by dsimp only [ndat1]
theorem ndat1_after2 (c : Dev nD) (t : Fin cfg1.N) : (ndat1 V c).after 2 t = nOutB1 (nblk1 V c 0 t) := by dsimp only [ndat1]

/-- The input's current staging buffer holds its block at every point. -/
theorem nbefore1 (c : Dev nD) (t : Fin cfg1.N) (d) : (ndat1 V c).before 0 t d = nblk1 V c 0 t :=
  nbefore1_of V (ndat1 V c) (ndat1_A V c 0) (ndat1_after0 V c) t d

/-! ## The body obligation, at a generic point -/

/-- What the body is called with at point `t`, the windows one by one, -/
def nbodyPre1 (c : Dev nD) (t : Fin cfg1.N) : sProp 𝕄 :=
  iprop((ndat1 V c).Φ t.castSucc ∗ (ndat1 V c).owesAt () t.castSucc
    ∗ (∃ d, owns (c : Thread nD τ) (st1_0 t) fullShare ((ndat1 V c).before 0 t d))
    ∗ (∃ d, owns (c : Thread nD τ) (st1_1 t) fullShare ((ndat1 V c).before 1 t d))
    ∗ (∃ d, owns (c : Thread nD τ) (st1_2 t) fullShare ((ndat1 V c).before 2 t d)))

/-- and what it returns. -/
def nbodyPost1 (c : Dev nD) (t : Fin cfg1.N) : sProp 𝕄 :=
  iprop((ndat1 V c).Φ t.succ ∗ (ndat1 V c).owesAt () t.succ
    ∗ owns (c : Thread nD τ) (st1_0 t) fullShare ((ndat1 V c).after 0 t)
    ∗ owns (c : Thread nD τ) (st1_1 t) fullShare ((ndat1 V c).after 1 t)
    ∗ owns (c : Thread nD τ) (st1_2 t) fullShare ((ndat1 V c).after 2 t))

/-- The body at any point: the input's memref holds its block, so `sound_norm1` applies; the invariant and the
    core's debts pass through unread. -/
theorem sound_nbody1 (c : Dev nD) (t : Fin cfg1.N) :
    nbodyPre1 V c t ⊢ wp frame (wpE (defs₀ (F := F)) Variants.none c none) Set.univ (bodyAt1 t) (fun _ => nbodyPost1 V c t) := by
  unfold nbodyPre1 nbodyPost1 bodyAt1
  simp only [nbefore1]
  rw [show (ndat1 V c).Φ t.succ = (ndat1 V c).Φ t.castSucc from rfl,
    show (ndat1 V c).owesAt () t.succ = (ndat1 V c).owesAt () t.castSucc from rfl,
    ndat1_after0, ndat1_after1, ndat1_after2]
  iintro ⟨HΦ, Ho, ⟨%d0, H0⟩, ⟨%d1, H1⟩, ⟨%d2, H2⟩⟩
  iapply (sound_norm1 c Set.univ _ _ _ _ _ _ _ (nblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem nbody1 (c : Dev nD) : BodyObligation (ndat1 (F := F) V c) (defs₀ (F := F)) Variants.none () Set.univ := fun t => by
  rw [bigSep_W1, bigSep_W1]
  exact sound_nbody1 V c t

end Regions

end Cert.KernelIdeal.Hand

end
-- ==== Proof.RunAll.lean ====
/-
  The run of the whole program: the two normalisations, the reshaping of the second matrix's column of squared
  lengths into a row, the nearest-neighbour region, and the ten host operations that turn its column of distances
  into the loss.

  The buffer contents at each boundary between two of these five pieces are written as a fold from the launch
  memory: a region replaces its windows' arrays by what its write-backs leave and keeps every other buffer; a
  stretch of host operations is the fold of its operations. Each region is entered from every unscoped buffer held at
  the boundary's contents beside the generator register and nothing owed, and leaves the next boundary's contents in
  the same form. Every weakly fair execution from any memory with zero counters terminates, and every final memory
  holds each unscoped buffer at the last boundary's contents; no piece writes either argument.
-/
import proofs.«152194_j74887049773256_2_alg».proof.Proof.Gen.KernelIdeal.Launch
import proofs.«152194_j74887049773256_2_alg».proof.Proof.Gen.KernelIdeal.Skeleton
import proofs.«152194_j74887049773256_2_alg».proof.Proof.Gen.KernelIdeal.Points
import proofs.«152194_j74887049773256_2_alg».proof.Proof.Gen.KernelIdeal.Regions
import proofs.«152194_j74887049773256_2_alg».proof.Proof.NormRegions
import proofs.«152194_j74887049773256_2_alg».proof.Proof.NNRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch (the first region's entry). -/
abbrev W0 : Dev nD → Valuation τ sig (Elt F) := fun c b => (s₀ m ρ).mem ((c : Dev nD), b)
/-- The same read at the core's references. -/
abbrev VW0 : (c : Dev nD) → (b : Ref sig .tc) → Buf (Elt F) ((c : Thread nD τ).loc b) := fun c b => W0 m ρ c b

/-- After the first normalisation: its arrays at what the write-backs leave, every other buffer as entered. -/
def W1 (c : Dev nD) : Valuation τ sig (Elt F) :=
  Pipeline.withArrays spec0 c (W0 m ρ c) fun w => (ndat0 (VW0 m ρ) c).arrAt w cfg0.N
theorem W1_arr (c : Dev nD) (w : Fin cfg0.W) :
    W1 m ρ c (Proc.devRef .tc (Pipeline.arrRef spec0 w)) = (ndat0 (VW0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's references. -/
abbrev VW1 : (c : Dev nD) → (b : Ref sig .tc) → Buf (Elt F) ((c : Thread nD τ).loc b) := fun c b => W1 m ρ c b
/-- At the region's exit each of its arrays holds what the pipeline leaves, and every other buffer what it held. -/
theorem hF0 (c : Dev nD) (w : Fin cfg0.W) : (ndat0 (VW0 m ρ) c).arrAt w cfg0.N = VW1 m ρ c (Pipeline.arrRef spec0 w) :=
  (W1_arr m ρ c w).symm
theorem hrest0 (c : Dev nD) : ∀ b, b ∉ Finset.univ.image (Pipeline.arrRef spec0) → VW1 m ρ c b = VW0 m ρ c b :=
  fun b hb => W1_of_ne m ρ c b fun w e => hb (Finset.mem_image.mpr ⟨w, Finset.mem_univ _, e⟩)

/-- After the second normalisation. -/
def W2 (c : Dev nD) : Valuation τ sig (Elt F) :=
  Pipeline.withArrays spec1 c (W1 m ρ c) fun w => (ndat1 (VW1 m ρ) c).arrAt w cfg1.N
theorem W2_arr (c : Dev nD) (w : Fin cfg1.W) :
    W2 m ρ c (Proc.devRef .tc (Pipeline.arrRef spec1 w)) = (ndat1 (VW1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the core's references. -/
abbrev VW2 : (c : Dev nD) → (b : Ref sig .tc) → Buf (Elt F) ((c : Thread nD τ).loc b) := fun c b => W2 m ρ c b
theorem hF1 (c : Dev nD) (w : Fin cfg1.W) : (ndat1 (VW1 m ρ) c).arrAt w cfg1.N = VW2 m ρ c (Pipeline.arrRef spec1 w) :=
  (W2_arr m ρ c w).symm
theorem hrest1 (c : Dev nD) : ∀ b, b ∉ Finset.univ.image (Pipeline.arrRef spec1) → VW2 m ρ c b = VW1 m ρ c b :=
  fun b hb => W2_of_ne m ρ c b fun w e => hb (Finset.mem_image.mpr ⟨w, Finset.mem_univ _, e⟩)

/-- After the reshaping of the column of squared lengths into a row (the third region's entry). -/
abbrev W3 : Dev nD → Valuation τ sig (Elt F) := fun c => StableHlo.after hostOps2 (W2 m ρ c)
/-- The same read at the core's references. -/
abbrev VW3 : (c : Dev nD) → (b : Ref sig .tc) → Buf (Elt F) ((c : Thread nD τ).loc b) := fun c b => W3 m ρ c b

/-- After the nearest-neighbour region. -/
def W4 (c : Dev nD) : Valuation τ sig (Elt F) :=
  Pipeline.withArrays spec2 c (W3 m ρ c) fun w => (nndat (VW3 m ρ) c).arrAt w cfg2.N
theorem W4_arr (c : Dev nD) (w : Fin cfg2.W) :
    W4 m ρ c (Proc.devRef .tc (Pipeline.arrRef spec2 w)) = (nndat (VW3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the core's references. -/
abbrev VW4 : (c : Dev nD) → (b : Ref sig .tc) → Buf (Elt F) ((c : Thread nD τ).loc b) := fun c b => W4 m ρ c b
theorem hF2 (c : Dev nD) (w : Fin cfg2.W) : (nndat (VW3 m ρ) c).arrAt w cfg2.N = VW4 m ρ c (Pipeline.arrRef spec2 w) :=
  (W4_arr m ρ c w).symm
theorem hrest2 (c : Dev nD) : ∀ b, b ∉ Finset.univ.image (Pipeline.arrRef spec2) → VW4 m ρ c b = VW3 m ρ c b :=
  fun b hb => W4_of_ne m ρ c b fun w e => hb (Finset.mem_image.mpr ⟨w, Finset.mem_univ _, e⟩)

/-- After the ten closing host operations: the contents the program returns with. -/
abbrev W5 : Dev nD → Valuation τ sig (Elt F) := fun c => StableHlo.after hostOps3 (W4 m ρ c)

/-! ### The arguments end as launched: no host operation writes one, and a region only reads its own -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (r := main_arg0) (by decide)
    _ = W3 m ρ c (Proc.devRef .tc main_arg0) := W4_of_ne m ρ c main_arg0 (by decide)
    _ = W2 m ρ c (Proc.devRef .tc main_arg0) := StableHlo.after_of_writes_sub hostOps2 _ hostOps2_writes (r := main_arg0) (by decide)
    _ = W1 m ρ c (Proc.devRef .tc main_arg0) := W2_of_ne m ρ c main_arg0 (by decide)
    _ = W0 m ρ c (Proc.devRef .tc main_arg0) := (W1_arr m ρ c 0).trans (((ndat0 (VW0 m ρ) c).arrAt_in 0 rfl _).trans (ndat0_A (VW0 m ρ) c 0))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (r := main_arg1) (by decide)
    _ = W3 m ρ c (Proc.devRef .tc main_arg1) := W4_of_ne m ρ c main_arg1 (by decide)
    _ = W2 m ρ c (Proc.devRef .tc main_arg1) := StableHlo.after_of_writes_sub hostOps2 _ hostOps2_writes (r := main_arg1) (by decide)
    _ = W1 m ρ c (Proc.devRef .tc main_arg1) := (W2_arr m ρ c 0).trans (((ndat1 (VW1 m ρ) c).arrAt_in 0 rfl _).trans (ndat1_A (VW1 m ρ) c 0))
    _ = W0 m ρ c (Proc.devRef .tc main_arg1) := W1_of_ne m ρ c main_arg1 (by decide)
    _ = m ((c : Thread nD τ).loc main_arg1) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => ndat0 (VW0 m ρ) c
  | ⟨1, _⟩ => fun c => ndat1 (VW1 m ρ) c
  | ⟨2, _⟩ => fun c => nndat (VW3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every piece: the core's generator register at some state, and nothing owed. -/
abbrev R (c : Dev nD) : sProp 𝕄 := iprop((∃ r, prngReg c r) ∗ ∃ W, owes (c : Thread nD τ) (0 : CellTallies nD τ sig Unit) W)
/-- A stretch of host operations as a segment, over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the debts: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

-- the library's statement and this one name the same pipeline configuration
set_option backward.isDefEq.respectTransparency.types false in
/-- Region 0 over the thread state: entered from every unscoped buffer at `W0`, left at `W1`. Its arrays are
    split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (nbody0 (VW0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VW0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VW0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VW0 m ρ c) (VW1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's statement and this one name the same pipeline configuration
set_option backward.isDefEq.respectTransparency.types false in
/-- Region 1 over the thread state: entered from every unscoped buffer at `W1`, left at `W2`. Its arrays are
    split out of the unscoped buffers and put back at the exit contents; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (nbody1 (VW1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (VW1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VW1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VW1 m ρ c) (VW2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's statement and this one name the same pipeline configuration
set_option backward.isDefEq.respectTransparency.types false in
/-- Region 2 over the thread state: entered from every unscoped buffer at `W3`, left at `W4`. Its arrays are
    split out of the unscoped buffers and put back at the exit contents; the generator register goes into the
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (nnbody (VW3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (VW3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VW3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from nnhout (VW3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (VW3 m ρ c) (VW4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order. -/
abbrev segsAll : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)) ]
/-- The program is the run of the segments. -/
theorem main_run (c : Dev nD) : main (F := F) c = Pipeline.Seg.run (segsAll m ρ) := (main_chain c).trans (by chain_rfl)

-- the library's statement and this one name the same pipeline configuration
set_option backward.isDefEq.respectTransparency.types false in
/-- From any memory with zero counters every weakly fair execution of the program terminates, nothing faulting, and
    every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segsAll m ρ)
    (fun c Q => by rw [main_run m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- An unscoped reference of the core is among those the final memory is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.NormValue.lean ====
/-
  What the two row-normalising bodies leave, read one element at a time over the extended reals.

  For a block `x` of 1024 rows of length 1024, the first output buffer at `(p, q)` is `x p q` divided by
  `max (√(Σ_k x p k ²)) ε`, and the second at `(p, 0)` is the sum over `q` of the squares of those quotients:
  the normalised matrix and the squared length of its rows, as the shared specification names them.

  Each operation of the body is read at an index: products, quotients and maxima elementwise; the sum along a row
  as a sum over the column coordinate; the reshaping of a vector of 1024 sums into a column and the spreading of a
  column over the row read off the coordinates; the narrowing to the 16-bit format is the identity on the extended
  reals.
-/
import proofs.«152194_j74887049773256_2_alg».proof.Proof.NormRegions
import proofs.«152194_j74887049773256_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-! ## Two layout operations read at an index -/

/-- A vector of `a` entries reshaped into a column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column spread over rows of length `b` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along each row of a 1024 × 1024 block, read at row `r`, is the sum over the column coordinate. -/
theorem rowSum_apply (src : FVec Ideal S1024x1024 .f32) (h : S1024x1024.Reduces [1] S1024) (hφ : FKind.Formats .f32)
    (hacc : (0x00000000#32 : BitVec 32) = 0x00000000#32) (r : Fin 1024) :
    multiReduction .add [1] S1024 src 0x00000000#32 h hφ hacc (ix1 r) = ∑ k : Fin 1024, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-! # Region 0 -/

/-- The quotient block at `(p, q)`: `x p q` divided by the length of row `p`. -/
theorem k0_pay1_apply (x0 : Vec Ideal S1024x1024 .f32) (p q : Fin 1024) :
    k0_pay1 (F := Ideal) x0 (ix2 p q) = Cert.KoLeo.nrm (fun a b => x0 (ix2 a b)) p q := by
  unfold k0_pay1 Cert.KoLeo.nrm Cert.KoLeo.rowLen
  refine (divf_apply _ _ _).trans ?_
  refine congrArg (Ideal.div (x0 (ix2 p q))) ?_
  refine (broadcastTo_a1_ab_apply _ _ p q).trans ?_
  refine (maximumf_apply _ _ _).trans ?_
  refine congrArg₂ max ?_ rfl
  show Ideal.sqrt (shapeCast S1024x1 _ _ (ix2 p (0 : Fin 1))) = _
  refine congrArg Ideal.sqrt ?_
  refine (shapeCast_a_a1_apply _ _ p 0).trans ?_
  refine (rowSum_apply _ _ _ _ p).trans ?_
  rfl

/-- The narrowed quotient block at `(p, q)`: the same extended real. -/
theorem k0_pay2_apply (x0 : Vec Ideal S1024x1024 .f32) (p q : Fin 1024) :
    k0_pay2 (F := Ideal) x0 (ix2 p q) = Cert.KoLeo.nrm (fun a b => x0 (ix2 a b)) p q :=
  k0_pay1_apply x0 p q

/-- The column of sums at `(p, z)`: the squared length of the normalised row `p`. -/
theorem k0_pay3_apply (x0 : Vec Ideal S1024x1024 .f32) (p : Fin 1024) (z : Fin 1) :
    k0_pay3 (F := Ideal) x0 (ix2 p z) = Cert.KoLeo.ssq (fun a b => x0 (ix2 a b)) p := by
  unfold k0_pay3 Cert.KoLeo.ssq
  refine (shapeCast_a_a1_apply _ _ p z).trans ?_
  refine (rowSum_apply _ _ _ _ p).trans ?_
  refine Finset.sum_congr rfl fun k _ => ?_
  refine (mulf_apply _ _ _).trans ?_
  rw [k0_pay1_apply x0 p k]

/-- The first output buffer after the body is the narrowed quotient block of the input block. -/
theorem nOutA0_eq (x0 : Vec Ideal S1024x1024 .f32) : nOutA0 (F := Ideal) x0 = k0_pay2 x0 := by
  unfold nOutA0
  rw [View.canon_unit_zero (S := S1024x1024) zeros2 inb_S1024x1024_S1024x1024_0_0,
    View.ld_unit_zero (S := S1024x1024) zeros2 inb_S1024x1024_S1024x1024_0_0]

/-- The second output buffer after the body is the column of sums of the input block. -/
theorem nOutB0_eq (x0 : Vec Ideal S1024x1024 .f32) : nOutB0 (F := Ideal) x0 = k0_pay3 x0 := by
  unfold nOutB0
  rw [View.canon_unit_zero (S := S1024x1) zeros2 inb_S1024x1_S1024x1_0_0,
    View.ld_unit_zero (S := S1024x1024) zeros2 inb_S1024x1024_S1024x1024_0_0]

/-- The first output buffer at `(p, q)`: the normalised block. -/
theorem nOutA0_apply (x0 : Vec Ideal S1024x1024 .f32) (p q : Fin 1024) :
    nOutA0 (F := Ideal) x0 (ix2 p q) = Cert.KoLeo.nrm (fun a b => x0 (ix2 a b)) p q := by
  rw [nOutA0_eq]; exact k0_pay2_apply x0 p q

/-- The second output buffer at `(p, z)`: the squared length of the normalised row `p`. -/
theorem nOutB0_apply (x0 : Vec Ideal S1024x1024 .f32) (p : Fin 1024) (z : Fin 1) :
    nOutB0 (F := Ideal) x0 (ix2 p z) = Cert.KoLeo.ssq (fun a b => x0 (ix2 a b)) p := by
  rw [nOutB0_eq]; exact k0_pay3_apply x0 p z

/-! # Region 1 -/

/-- The quotient block at `(p, q)`: `x p q` divided by the length of row `p`. -/
theorem k1_pay1_apply (x0 : Vec Ideal S1024x1024 .f32) (p q : Fin 1024) :
    k1_pay1 (F := Ideal) x0 (ix2 p q) = Cert.KoLeo.nrm (fun a b => x0 (ix2 a b)) p q := by
  unfold k1_pay1 Cert.KoLeo.nrm Cert.KoLeo.rowLen
  refine (divf_apply _ _ _).trans ?_
  refine congrArg (Ideal.div (x0 (ix2 p q))) ?_
  refine (broadcastTo_a1_ab_apply _ _ p q).trans ?_
  refine (maximumf_apply _ _ _).trans ?_
  refine congrArg₂ max ?_ rfl
  show Ideal.sqrt (shapeCast S1024x1 _ _ (ix2 p (0 : Fin 1))) = _
  refine congrArg Ideal.sqrt ?_
  refine (shapeCast_a_a1_apply _ _ p 0).trans ?_
  refine (rowSum_apply _ _ _ _ p).trans ?_
  rfl

/-- The narrowed quotient block at `(p, q)`: the same extended real. -/
theorem k1_pay2_apply (x0 : Vec Ideal S1024x1024 .f32) (p q : Fin 1024) :
    k1_pay2 (F := Ideal) x0 (ix2 p q) = Cert.KoLeo.nrm (fun a b => x0 (ix2 a b)) p q :=
  k1_pay1_apply x0 p q

/-- The column of sums at `(p, z)`: the squared length of the normalised row `p`. -/
theorem k1_pay3_apply (x0 : Vec Ideal S1024x1024 .f32) (p : Fin 1024) (z : Fin 1) :
    k1_pay3 (F := Ideal) x0 (ix2 p z) = Cert.KoLeo.ssq (fun a b => x0 (ix2 a b)) p := by
  unfold k1_pay3 Cert.KoLeo.ssq
  refine (shapeCast_a_a1_apply _ _ p z).trans ?_
  refine (rowSum_apply _ _ _ _ p).trans ?_
  refine Finset.sum_congr rfl fun k _ => ?_
  refine (mulf_apply _ _ _).trans ?_
  rw [k1_pay1_apply x0 p k]

/-- The first output buffer after the body is the narrowed quotient block of the input block. -/
theorem nOutA1_eq (x0 : Vec Ideal S1024x1024 .f32) : nOutA1 (F := Ideal) x0 = k1_pay2 x0 := by
  unfold nOutA1
  rw [View.canon_unit_zero (S := S1024x1024) zeros2 inb_S1024x1024_S1024x1024_0_0,
    View.ld_unit_zero (S := S1024x1024) zeros2 inb_S1024x1024_S1024x1024_0_0]

/-- The second output buffer after the body is the column of sums of the input block. -/
theorem nOutB1_eq (x0 : Vec Ideal S1024x1024 .f32) : nOutB1 (F := Ideal) x0 = k1_pay3 x0 := by
  unfold nOutB1
  rw [View.canon_unit_zero (S := S1024x1) zeros2 inb_S1024x1_S1024x1_0_0,
    View.ld_unit_zero (S := S1024x1024) zeros2 inb_S1024x1024_S1024x1024_0_0]

/-- The first output buffer at `(p, q)`: the normalised block. -/
theorem nOutA1_apply (x0 : Vec Ideal S1024x1024 .f32) (p q : Fin 1024) :
    nOutA1 (F := Ideal) x0 (ix2 p q) = Cert.KoLeo.nrm (fun a b => x0 (ix2 a b)) p q := by
  rw [nOutA1_eq]; exact k1_pay2_apply x0 p q

/-- The second output buffer at `(p, z)`: the squared length of the normalised row `p`. -/
theorem nOutB1_apply (x0 : Vec Ideal S1024x1024 .f32) (p : Fin 1024) (z : Fin 1) :
    nOutB1 (F := Ideal) x0 (ix2 p z) = Cert.KoLeo.ssq (fun a b => x0 (ix2 a b)) p := by
  rw [nOutB1_eq]; exact k1_pay3_apply x0 p z

end Cert.KernelIdeal.Hand

end
-- ==== Proof.NormArrays.lean ====
/-
  From blocks to whole arrays, for the two row-normalising regions.

  The grid point `t` of either region reads rows `1024 t … 1024 t + 1023` of its matrix and writes the same rows of
  its two result arrays. Normalising a row and taking its squared length look at that row only, so what point `t`
  writes is the restriction to those rows of ONE function of the whole matrix: the normalised matrix, and the
  column of the squared lengths of its rows. The points' row ranges cover every row (row `r` is in the range of
  point `r / 1024`), so after the last point the two result arrays hold those two functions.
-/
import proofs.«152194_j74887049773256_2_alg».proof.Proof.NormRegions
import proofs.«152194_j74887049773256_2_alg».proof.Proof.NormValue
import proofs.«152194_j74887049773256_2_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## Normalising a row looks at that row only -/

/-- Two matrices that agree on a row have the same normalised row. -/
theorem nrm_congr_row {n n' : ℕ} (A : Fin n → Fin 1024 → EReal) (B : Fin n' → Fin 1024 → EReal) (r : Fin n) (r' : Fin n')
    (h : ∀ k, A r k = B r' k) (k : Fin 1024) : Cert.KoLeo.nrm A r k = Cert.KoLeo.nrm B r' k := by
  unfold Cert.KoLeo.nrm Cert.KoLeo.rowLen
  simp only [h]

/-- Two matrices that agree on a row have the same squared length of the normalised row. -/
theorem ssq_congr_row {n n' : ℕ} (A : Fin n → Fin 1024 → EReal) (B : Fin n' → Fin 1024 → EReal) (r : Fin n) (r' : Fin n')
    (h : ∀ k, A r k = B r' k) : Cert.KoLeo.ssq A r = Cert.KoLeo.ssq B r' := by
  unfold Cert.KoLeo.ssq
  simp only [nrm_congr_row A B r r' h]

/-- Indices with the same values name the same entry of the normalised matrix. -/
theorem nrm_val_congr {n : ℕ} (A : Fin n → Fin 1024 → EReal) (r r' : Fin n) (k k' : Fin 1024) (hr : r.val = r'.val)
    (hk : k.val = k'.val) : Cert.KoLeo.nrm A r k = Cert.KoLeo.nrm A r' k' := by
  obtain rfl := Fin.ext hr; obtain rfl := Fin.ext hk; rfl

/-- Rows with the same number have the same squared length. -/
theorem ssq_val_congr {n : ℕ} (A : Fin n → Fin 1024 → EReal) (r r' : Fin n) (hr : r.val = r'.val) :
    Cert.KoLeo.ssq A r = Cert.KoLeo.ssq A r' := by
  obtain rfl := Fin.ext hr; rfl

section Arrays
-- the buffer contents when a region is entered
variable (V : (c : Dev nD) → (b : Ref sig .tc) → Buf (Elt Ideal) ((c : Thread nD τ).loc b))

/-! # Region 0: 8192 rows in 8 blocks of 1024 -/

/-- The matrix the region normalises, as the region finds it. -/
def X0 (c : Dev nD) : Fin 8192 → Fin 1024 → EReal :=
  fun a k => (V c main_arg0 : S8192x1024.Idx → Elt Ideal .f32) (ix2 a k)

/-- The normalised matrix, as an array. -/
def GA0 (c : Dev nD) : S8192x1024.Idx → Elt Ideal .bf16 :=
  fun i => Cert.KoLeo.nrm (X0 V c) ⟨(i 0).val, (i 0).isLt⟩ ⟨(i 1).val, (i 1).isLt⟩

/-- The squared lengths of its rows, as a column. -/
def GB0 (c : Dev nD) : S8192x1.Idx → Elt Ideal .f32 :=
  fun i => Cert.KoLeo.ssq (X0 V c) ⟨(i 0).val, (i 0).isLt⟩

/-- The three windows' block indices at point `t`, decided over the grid: block row `t`, block column 0. -/
theorem nidx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The input block of point `t` at `(p, q)` is the matrix at row `1024 t + p`, column `q`. -/
theorem nblk0_apply (c : Dev nD) (t : Fin cfg0.N) (p q : Fin 1024) (r : Fin 8192) (hr : r.val = t.val * 1024 + p.val) :
    (nblk0 V c 0 t : Vec Ideal S1024x1024 .f32) (ix2 p q) = X0 V c r q := by
  obtain ⟨e0, e1, -, -, -, -⟩ := nidx0 t
  unfold nblk0 X0
  rw [View.read_apply]
  show V c main_arg0 _ = V c main_arg0 _
  refine congrArg (V c main_arg0) ?_
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * q.val = q.val; rw [e1]; omega

/-- What point `t` leaves in the first output buffer at `(p, q)`: the normalised matrix at row `1024 t + p`. -/
theorem nOutA0_blk (c : Dev nD) (t : Fin cfg0.N) (p q : Fin 1024) (r : Fin 8192) (hr : r.val = t.val * 1024 + p.val) :
    nOutA0 (F := Ideal) (nblk0 V c 0 t) (ix2 p q) = Cert.KoLeo.nrm (X0 V c) r q :=
  (nOutA0_apply (nblk0 V c 0 t) p q).trans
    (nrm_congr_row _ _ p r (fun k => nblk0_apply V c t p k r hr) q)

/-- What point `t` leaves in the second output buffer at `(p, z)`: the squared length of row `1024 t + p`. -/
theorem nOutB0_blk (c : Dev nD) (t : Fin cfg0.N) (p : Fin 1024) (z : Fin 1) (r : Fin 8192) (hr : r.val = t.val * 1024 + p.val) :
    nOutB0 (F := Ideal) (nblk0 V c 0 t) (ix2 p z) = Cert.KoLeo.ssq (X0 V c) r :=
  (nOutB0_apply (nblk0 V c 0 t) p z).trans
    (ssq_congr_row _ _ p r (fun k => nblk0_apply V c t p k r hr))

/-- What point `t` writes back into the first result array is block `t` of the normalised matrix. -/
theorem nflushA0 (c : Dev nD) (t : Fin cfg0.N) :
    (ndat0 (F := Ideal) V c).flushed 1 t = ((cfg0.win 1).blk t).view.read (Elt Ideal) (GA0 V c) := by
  show (cfg0.win 1).cut (grid0.coords t) ((ndat0 V c).after 1 t) = _
  rw [ndat0_after1]
  obtain ⟨-, -, e2, e3, -, -⟩ := nidx0 t
  have ht : t.val < 8 := Nat.lt_of_lt_of_eq t.isLt N_0
  funext j
  have hj0 : (j 0).val < 1024 := (j 0).isLt
  have hj1 : (j 1).val < 1024 := (j 1).isLt
  rw [View.read_apply]
  show nOutA0 (nblk0 V c 0 t) ((cfg0.win 1).xinj (grid0.coords t) j) = GA0 V c (((cfg0.win 1).blk t).view.emb j)
  rw [show (cfg0.win 1).xinj (grid0.coords t) j = ix2 (⟨(j 0).val, hj0⟩ : Fin 1024) (⟨(j 1).val, hj1⟩ : Fin 1024) from
    funext fun a => by match a with | ⟨0, _⟩ => rfl | ⟨1, _⟩ => rfl]
  refine (nOutA0_blk V c t _ _ ⟨t.val * 1024 + (j 0).val, by omega⟩ rfl).trans ?_
  unfold GA0
  refine nrm_val_congr _ _ _ _ _ ?_ ?_
  · show t.val * 1024 + (j 0).val = win0_1.index t (0 : Fin 2) * 1024 + 1 * (j 0).val
    rw [e2]; omega
  · show (j 1).val = win0_1.index t (1 : Fin 2) * 1024 + 1 * (j 1).val
    rw [e3]; omega

/-- What point `t` writes back into the second result array is block `t` of the column of squared lengths. -/
theorem nflushB0 (c : Dev nD) (t : Fin cfg0.N) :
    (ndat0 (F := Ideal) V c).flushed 2 t = ((cfg0.win 2).blk t).view.read (Elt Ideal) (GB0 V c) := by
  show (cfg0.win 2).cut (grid0.coords t) ((ndat0 V c).after 2 t) = _
  rw [ndat0_after2]
  obtain ⟨-, -, -, -, e4, e5⟩ := nidx0 t
  have ht : t.val < 8 := Nat.lt_of_lt_of_eq t.isLt N_0
  funext j
  have hj0 : (j 0).val < 1024 := (j 0).isLt
  have hj1 : (j 1).val < 1 := (j 1).isLt
  rw [View.read_apply]
  show nOutB0 (nblk0 V c 0 t) ((cfg0.win 2).xinj (grid0.coords t) j) = GB0 V c (((cfg0.win 2).blk t).view.emb j)
  rw [show (cfg0.win 2).xinj (grid0.coords t) j = ix2 (⟨(j 0).val, hj0⟩ : Fin 1024) (⟨(j 1).val, hj1⟩ : Fin 1) from
    funext fun a => by match a with | ⟨0, _⟩ => rfl | ⟨1, _⟩ => rfl]
  refine (nOutB0_blk V c t _ _ ⟨t.val * 1024 + (j 0).val, by omega⟩ rfl).trans ?_
  unfold GB0
  refine ssq_val_congr _ _ _ ?_
  show t.val * 1024 + (j 0).val = win0_2.index t (0 : Fin 2) * 1024 + 1 * (j 0).val
  rw [e4]; omega

/-- An index of the first result array is in point `t`'s block iff each coordinate is in the block's range. -/
theorem mem_blkA0 (t : Fin cfg0.N) (i : S8192x1024.Idx) :
    i ∈ ((cfg0.win 1).blk t).view.set ↔ ∀ a : Fin 2, win0_1.index t a * S1024x1024.size a ≤ (i a).val ∧ (i a).val < win0_1.index t a * S1024x1024.size a + S1024x1024.size a := by
  show i ∈ ((View.whole main_v0_0).slice (win0_1.rect t)).set ↔ _
  rw [View.set_slice_whole, Rect.mem_set_unit]
  exact Iff.rfl

/-- The same for the second result array. -/
theorem mem_blkB0 (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0_1).slice (win0_2.rect t)).set ↔ _
  rw [View.set_slice_whole, Rect.mem_set_unit]
  exact Iff.rfl

/-- Every index of the first result array is in the block of the point its row number divided by 1024 names. -/
theorem coverA0 (i : S8192x1024.Idx) :
    ∃ t : Fin cfg0.N, (cfg0.win 1).flush t = true ∧ i ∈ ((cfg0.win 1).blk t).view.set := by
  have hi0 : (i 0).val < 8192 := (i 0).isLt
  have hi1 : (i 1).val < 1024 := (i 1).isLt
  have hN : cfg0.N = 8 := N_0
  refine ⟨⟨(i 0).val / 1024, by rw [hN]; omega⟩, flush0_1 _, ?_⟩
  rw [mem_blkA0]
  obtain ⟨-, -, e2, e3, -, -⟩ := nidx0 ⟨(i 0).val / 1024, by rw [hN]; omega⟩
  intro a
  match a with
  | ⟨0, _⟩ =>
    show win0_1.index _ (0 : Fin 2) * 1024 ≤ (i 0).val ∧ (i 0).val < win0_1.index _ (0 : Fin 2) * 1024 + 1024
    rw [e2]; show (i 0).val / 1024 * 1024 ≤ (i 0).val ∧ (i 0).val < (i 0).val / 1024 * 1024 + 1024; omega
  | ⟨1, _⟩ =>
    show win0_1.index _ (1 : Fin 2) * 1024 ≤ (i 1).val ∧ (i 1).val < win0_1.index _ (1 : Fin 2) * 1024 + 1024
    rw [e3]; omega

/-- The same for the second result array. -/
theorem coverB0 (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 8 := N_0
  refine ⟨⟨(i 0).val / 1024, by rw [hN]; omega⟩, flush0_2 _, ?_⟩
  rw [mem_blkB0]
  obtain ⟨-, -, -, -, e4, e5⟩ := nidx0 ⟨(i 0).val / 1024, by rw [hN]; omega⟩
  intro a
  match a with
  | ⟨0, _⟩ =>
    show win0_2.index _ (0 : Fin 2) * 1024 ≤ (i 0).val ∧ (i 0).val < win0_2.index _ (0 : Fin 2) * 1024 + 1024
    rw [e4]; show (i 0).val / 1024 * 1024 ≤ (i 0).val ∧ (i 0).val < (i 0).val / 1024 * 1024 + 1024; omega
  | ⟨1, _⟩ =>
    show win0_2.index _ (1 : Fin 2) * 1 ≤ (i 1).val ∧ (i 1).val < win0_2.index _ (1 : Fin 2) * 1 + 1
    rw [e5]; omega

/-- After the last point the first result array holds the normalised matrix, -/
theorem nfinalA0 (c : Dev nD) : (ndat0 (F := Ideal) V c).arrAt 1 cfg0.N = GA0 V c :=
  (ndat0 (F := Ideal) V c).arrAt_eq_of_cover 1 (GA0 V c) (fun t _ => nflushA0 V c t) (coverA0)

/-- and the second the squared lengths of its rows. -/
theorem nfinalB0 (c : Dev nD) : (ndat0 (F := Ideal) V c).arrAt 2 cfg0.N = GB0 V c :=
  (ndat0 (F := Ideal) V c).arrAt_eq_of_cover 2 (GB0 V c) (fun t _ => nflushB0 V c t) (coverB0)

/-- The first result array at `(r, k)`. -/
theorem narr0A (c : Dev nD) (r : Fin 8192) (k : Fin 1024) :
    ((ndat0 (F := Ideal) V c).arrAt 1 cfg0.N : S8192x1024.Idx → Elt Ideal .bf16) (ix2 r k) = Cert.KoLeo.nrm (X0 V c) r k := by
  rw [nfinalA0]; rfl

/-- The second result array at `(r, z)`. -/
theorem narr0B (c : Dev nD) (r : Fin 8192) (z : Fin 1) :
    ((ndat0 (F := Ideal) V c).arrAt 2 cfg0.N : S8192x1.Idx → Elt Ideal .f32) (ix2 r z) = Cert.KoLeo.ssq (X0 V c) r := by
  rw [nfinalB0]; rfl

/-! # Region 1: 32768 rows in 32 blocks of 1024 -/

/-- The matrix the region normalises, as the region finds it. -/
def X1 (c : Dev nD) : Fin 32768 → Fin 1024 → EReal :=
  fun a k => (V c main_arg1 : S32768x1024.Idx → Elt Ideal .f32) (ix2 a k)

/-- The normalised matrix, as an array. -/
def GA1 (c : Dev nD) : S32768x1024.Idx → Elt Ideal .bf16 :=
  fun i => Cert.KoLeo.nrm (X1 V c) ⟨(i 0).val, (i 0).isLt⟩ ⟨(i 1).val, (i 1).isLt⟩

/-- The squared lengths of its rows, as a column. -/
def GB1 (c : Dev nD) : S32768x1.Idx → Elt Ideal .f32 :=
  fun i => Cert.KoLeo.ssq (X1 V c) ⟨(i 0).val, (i 0).isLt⟩

/-- The three windows' block indices at point `t`, decided over the grid: block row `t`, block column 0. -/
theorem nidx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The input block of point `t` at `(p, q)` is the matrix at row `1024 t + p`, column `q`. -/
theorem nblk1_apply (c : Dev nD) (t : Fin cfg1.N) (p q : Fin 1024) (r : Fin 32768) (hr : r.val = t.val * 1024 + p.val) :
    (nblk1 V c 0 t : Vec Ideal S1024x1024 .f32) (ix2 p q) = X1 V c r q := by
  obtain ⟨e0, e1, -, -, -, -⟩ := nidx1 t
  unfold nblk1 X1
  rw [View.read_apply]
  show V c main_arg1 _ = V c main_arg1 _
  refine congrArg (V c main_arg1) ?_
  funext a
  apply Fin.ext
  match a with
  | ⟨0, _⟩ => show win1_0.index t (0 : Fin 2) * 1024 + 1 * p.val = r.val; rw [e0, hr]; omega
  | ⟨1, _⟩ => show win1_0.index t (1 : Fin 2) * 1024 + 1 * q.val = q.val; rw [e1]; omega

/-- What point `t` leaves in the first output buffer at `(p, q)`: the normalised matrix at row `1024 t + p`. -/
theorem nOutA1_blk (c : Dev nD) (t : Fin cfg1.N) (p q : Fin 1024) (r : Fin 32768) (hr : r.val = t.val * 1024 + p.val) :
    nOutA1 (F := Ideal) (nblk1 V c 0 t) (ix2 p q) = Cert.KoLeo.nrm (X1 V c) r q :=
  (nOutA1_apply (nblk1 V c 0 t) p q).trans
    (nrm_congr_row _ _ p r (fun k => nblk1_apply V c t p k r hr) q)

/-- What point `t` leaves in the second output buffer at `(p, z)`: the squared length of row `1024 t + p`. -/
theorem nOutB1_blk (c : Dev nD) (t : Fin cfg1.N) (p : Fin 1024) (z : Fin 1) (r : Fin 32768) (hr : r.val = t.val * 1024 + p.val) :
    nOutB1 (F := Ideal) (nblk1 V c 0 t) (ix2 p z) = Cert.KoLeo.ssq (X1 V c) r :=
  (nOutB1_apply (nblk1 V c 0 t) p z).trans
    (ssq_congr_row _ _ p r (fun k => nblk1_apply V c t p k r hr))

/-- What point `t` writes back into the first result array is block `t` of the normalised matrix. -/
theorem nflushA1 (c : Dev nD) (t : Fin cfg1.N) :
    (ndat1 (F := Ideal) V c).flushed 1 t = ((cfg1.win 1).blk t).view.read (Elt Ideal) (GA1 V c) := by
  show (cfg1.win 1).cut (grid1.coords t) ((ndat1 V c).after 1 t) = _
  rw [ndat1_after1]
  obtain ⟨-, -, e2, e3, -, -⟩ := nidx1 t
  have ht : t.val < 32 := Nat.lt_of_lt_of_eq t.isLt N_1
  funext j
  have hj0 : (j 0).val < 1024 := (j 0).isLt
  have hj1 : (j 1).val < 1024 := (j 1).isLt
  rw [View.read_apply]
  show nOutA1 (nblk1 V c 0 t) ((cfg1.win 1).xinj (grid1.coords t) j) = GA1 V c (((cfg1.win 1).blk t).view.emb j)
  rw [show (cfg1.win 1).xinj (grid1.coords t) j = ix2 (⟨(j 0).val, hj0⟩ : Fin 1024) (⟨(j 1).val, hj1⟩ : Fin 1024) from
    funext fun a => by match a with | ⟨0, _⟩ => rfl | ⟨1, _⟩ => rfl]
  refine (nOutA1_blk V c t _ _ ⟨t.val * 1024 + (j 0).val, by omega⟩ rfl).trans ?_
  unfold GA1
  refine nrm_val_congr _ _ _ _ _ ?_ ?_
  · show t.val * 1024 + (j 0).val = win1_1.index t (0 : Fin 2) * 1024 + 1 * (j 0).val
    rw [e2]; omega
  · show (j 1).val = win1_1.index t (1 : Fin 2) * 1024 + 1 * (j 1).val
    rw [e3]; omega

/-- What point `t` writes back into the second result array is block `t` of the column of squared lengths. -/
theorem nflushB1 (c : Dev nD) (t : Fin cfg1.N) :
    (ndat1 (F := Ideal) V c).flushed 2 t = ((cfg1.win 2).blk t).view.read (Elt Ideal) (GB1 V c) := by
  show (cfg1.win 2).cut (grid1.coords t) ((ndat1 V c).after 2 t) = _
  rw [ndat1_after2]
  obtain ⟨-, -, -, -, e4, e5⟩ := nidx1 t
  have ht : t.val < 32 := Nat.lt_of_lt_of_eq t.isLt N_1
  funext j
  have hj0 : (j 0).val < 1024 := (j 0).isLt
  have hj1 : (j 1).val < 1 := (j 1).isLt
  rw [View.read_apply]
  show nOutB1 (nblk1 V c 0 t) ((cfg1.win 2).xinj (grid1.coords t) j) = GB1 V c (((cfg1.win 2).blk t).view.emb j)
  rw [show (cfg1.win 2).xinj (grid1.coords t) j = ix2 (⟨(j 0).val, hj0⟩ : Fin 1024) (⟨(j 1).val, hj1⟩ : Fin 1) from
    funext fun a => by match a with | ⟨0, _⟩ => rfl | ⟨1, _⟩ => rfl]
  refine (nOutB1_blk V c t _ _ ⟨t.val * 1024 + (j 0).val, by omega⟩ rfl).trans ?_
  unfold GB1
  refine ssq_val_congr _ _ _ ?_
  show t.val * 1024 + (j 0).val = win1_2.index t (0 : Fin 2) * 1024 + 1 * (j 0).val
  rw [e4]; omega

/-- An index of the first result array is in point `t`'s block iff each coordinate is in the block's range. -/
theorem mem_blkA1 (t : Fin cfg1.N) (i : S32768x1024.Idx) :
    i ∈ ((cfg1.win 1).blk t).view.set ↔ ∀ a : Fin 2, win1_1.index t a * S1024x1024.size a ≤ (i a).val ∧ (i a).val < win1_1.index t a * S1024x1024.size a + S1024x1024.size a := by
  show i ∈ ((View.whole main_v1_0).slice (win1_1.rect t)).set ↔ _
  rw [View.set_slice_whole, Rect.mem_set_unit]
  exact Iff.rfl

/-- The same for the second result array. -/
theorem mem_blkB1 (t : Fin cfg1.N) (i : S32768x1.Idx) :
    i ∈ ((cfg1.win 2).blk t).view.set ↔ ∀ a : Fin 2, win1_2.index t a * S1024x1.size a ≤ (i a).val ∧ (i a).val < win1_2.index t a * S1024x1.size a + S1024x1.size a := by
  show i ∈ ((View.whole main_v1_1).slice (win1_2.rect t)).set ↔ _
  rw [View.set_slice_whole, Rect.mem_set_unit]
  exact Iff.rfl

/-- Every index of the first result array is in the block of the point its row number divided by 1024 names. -/
theorem coverA1 (i : S32768x1024.Idx) :
    ∃ t : Fin cfg1.N, (cfg1.win 1).flush t = true ∧ i ∈ ((cfg1.win 1).blk t).view.set := by
  have hi0 : (i 0).val < 32768 := (i 0).isLt
  have hi1 : (i 1).val < 1024 := (i 1).isLt
  have hN : cfg1.N = 32 := N_1
  refine ⟨⟨(i 0).val / 1024, by rw [hN]; omega⟩, flush1_1 _, ?_⟩
  rw [mem_blkA1]
  obtain ⟨-, -, e2, e3, -, -⟩ := nidx1 ⟨(i 0).val / 1024, by rw [hN]; omega⟩
  intro a
  match a with
  | ⟨0, _⟩ =>
    show win1_1.index _ (0 : Fin 2) * 1024 ≤ (i 0).val ∧ (i 0).val < win1_1.index _ (0 : Fin 2) * 1024 + 1024
    rw [e2]; show (i 0).val / 1024 * 1024 ≤ (i 0).val ∧ (i 0).val < (i 0).val / 1024 * 1024 + 1024; omega
  | ⟨1, _⟩ =>
    show win1_1.index _ (1 : Fin 2) * 1024 ≤ (i 1).val ∧ (i 1).val < win1_1.index _ (1 : Fin 2) * 1024 + 1024
    rw [e3]; omega

/-- The same for the second result array. -/
theorem coverB1 (i : S32768x1.Idx) :
    ∃ t : Fin cfg1.N, (cfg1.win 2).flush t = true ∧ i ∈ ((cfg1.win 2).blk t).view.set := by
  have hi0 : (i 0).val < 32768 := (i 0).isLt
  have hi1 : (i 1).val < 1 := (i 1).isLt
  have hN : cfg1.N = 32 := N_1
  refine ⟨⟨(i 0).val / 1024, by rw [hN]; omega⟩, flush1_2 _, ?_⟩
  rw [mem_blkB1]
  obtain ⟨-, -, -, -, e4, e5⟩ := nidx1 ⟨(i 0).val / 1024, by rw [hN]; omega⟩
  intro a
  match a with
  | ⟨0, _⟩ =>
    show win1_2.index _ (0 : Fin 2) * 1024 ≤ (i 0).val ∧ (i 0).val < win1_2.index _ (0 : Fin 2) * 1024 + 1024
    rw [e4]; show (i 0).val / 1024 * 1024 ≤ (i 0).val ∧ (i 0).val < (i 0).val / 1024 * 1024 + 1024; omega
  | ⟨1, _⟩ =>
    show win1_2.index _ (1 : Fin 2) * 1 ≤ (i 1).val ∧ (i 1).val < win1_2.index _ (1 : Fin 2) * 1 + 1
    rw [e5]; omega

/-- After the last point the first result array holds the normalised matrix, -/
theorem nfinalA1 (c : Dev nD) : (ndat1 (F := Ideal) V c).arrAt 1 cfg1.N = GA1 V c :=
  (ndat1 (F := Ideal) V c).arrAt_eq_of_cover 1 (GA1 V c) (fun t _ => nflushA1 V c t) (coverA1)

/-- and the second the squared lengths of its rows. -/
theorem nfinalB1 (c : Dev nD) : (ndat1 (F := Ideal) V c).arrAt 2 cfg1.N = GB1 V c :=
  (ndat1 (F := Ideal) V c).arrAt_eq_of_cover 2 (GB1 V c) (fun t _ => nflushB1 V c t) (coverB1)

/-- The first result array at `(r, k)`. -/
theorem narr1A (c : Dev nD) (r : Fin 32768) (k : Fin 1024) :
    ((ndat1 (F := Ideal) V c).arrAt 1 cfg1.N : S32768x1024.Idx → Elt Ideal .bf16) (ix2 r k) = Cert.KoLeo.nrm (X1 V c) r k := by
  rw [nfinalA1]; rfl

/-- The second result array at `(r, z)`. -/
theorem narr1B (c : Dev nD) (r : Fin 32768) (z : Fin 1) :
    ((ndat1 (F := Ideal) V c).arrAt 2 cfg1.N : S32768x1.Idx → Elt Ideal .f32) (ix2 r z) = Cert.KoLeo.ssq (X1 V c) r := by
  rw [nfinalB1]; rfl

end Arrays

end Cert.KernelIdeal.Hand

end
-- ==== Proof.KerHost.lean ====
/-
  The two stretches of plain array operations between and after the kernel regions, read as values.

  Between the second and third regions a column of 32768 entries is recast as a row: both have the same row-major
  order, so the row's entry (0, c) is the column's entry (c, 0). After the third region the column y of 8192 row
  minima is recast as a vector (entry r is y (r, 0)), ε is added, the logarithm taken, the entries summed from 0,
  the sum divided by 8192 and negated: minus the mean of `log (y r + ε)`, the specification's `lossOf`.
-/
import proofs.«152194_j74887049773256_2_alg».proof.Proof.Gen.KernelIdeal.Launch
import proofs.«152194_j74887049773256_2_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.ShloMosaic.ValueIdx
  Idealize.ShloMosaic.StableHlo

/-- A sum over a rank-1 index set is the sum over its coordinate. -/
theorem sum_idx1 {M : Type} [AddCommMonoid M] {n : Nat} (f : (⟨1, ![n]⟩ : Shape).Idx → M) :
    ∑ j, f j = ∑ a : Fin n, f (ix1 a) := by
  let e : (⟨1, ![n]⟩ : Shape).Idx ≃ Fin n :=
    { toFun := fun j => j 0, invFun := ix1, left_inv := fun j => (eq_ix1 j).symm, right_inv := fun _ => rfl }
  rw [← Equiv.sum_comp e.symm f]
  rfl

/-- A column of 32768 entries recast as a row: the row's entry (0, c) is the column's entry (c, 0). -/
theorem resh_value (y : S32768x1.Idx → EReal) (cc : Fin 32768) (z : Fin 1) :
    shapeCast S1x32768 y shapeCasts_S32768x1_S1x32768 (ix2 z cc) = y (ix2 cc z) :=
  shapeCast_apply y shapeCasts_S32768x1_S1x32768 (ix2 z cc) (ix2 cc z) (by
    rw [Shape.rowMajor_val_two, Shape.rowMajor_val_two]
    show cc.val * 1 + z.val = z.val * 32768 + cc.val
    omega)

/-- The one reshape between the second and third kernel regions, read at an index. -/
theorem resh_eq (Wv : Valuation τ sig (Elt Ideal)) (cc : Fin 32768) (z : Fin 1) :
    StableHlo.after (hostOps2 (F := Ideal)) Wv (Proc.devRef .tc main_v2) (ix2 z cc)
      = Wv (Proc.devRef .tc main_v1_1) (ix2 cc z) := by
  have e : StableHlo.after (hostOps2 (F := Ideal)) Wv (Proc.devRef .tc main_v2)
      = (shapeCast S1x32768 (Wv (Proc.devRef .tc main_v1_1)) shapeCasts_S32768x1_S1x32768 : S1x32768.Idx → EReal) := by
    after_results; rfl
  exact (congrFun e (ix2 z cc)).trans (resh_value _ cc z)

/-- The last operations on a column y of 8192 row minima: minus the mean of `log (y r + ε)`. -/
theorem tail_value (y : S8192x1.Idx → EReal) :
    (Host.negf (Host.divf (Host.reduceAdd (Host.log (addf
          (shapeCast S8192 y shapeCasts_S8192x1_S8192 : FVec Ideal S8192 .f32)
          (broadcastInDim S8192 ![] bcast_S_S8192 (constant (F := Ideal) S_ .f32 0x322BCC77#32))))
        (constant (F := Ideal) S_ .f32 0x00000000#32) reducesTo_S8192_S_d0 h_S_)
      (constant (F := Ideal) S_ .f32 0x46000000#32)) : FVec Ideal S_ .f32)
      = fun _ => Cert.KoLeo.lossOf (fun r : Fin 8192 => y (ix2 r (0 : Fin 1))) := by
  funext i
  simp only [Host.negf, Host.divf, Host.reduceAdd, Ideal.hostNegf_def, Ideal.negf_def, Ideal.hostDivf_def,
    Ideal.hostReduceAdd_def, constant_apply]
  rw [Ideal.hostReduceAdd_total reducesTo_S8192_S_d0 (fun b => b.elim0)]
  unfold Cert.KoLeo.lossOf Cert.KoLeo.zero Cert.KoLeo.nRows
  refine congrArg (fun s => -(Ideal.div (Ideal.ofBits .f32 0x00000000#32 + s) (Ideal.ofBits .f32 0x46000000#32))) ?_
  rw [sum_idx1]
  refine Finset.sum_congr rfl fun r _ => ?_
  show Ideal.log (shapeCast S8192 y shapeCasts_S8192x1_S8192 (ix1 r)
      + broadcastInDim S8192 ![] bcast_S_S8192 (constant (F := Ideal) S_ .f32 0x322BCC77#32) (ix1 r)) = _
  rw [shapeCast_apply y shapeCasts_S8192x1_S8192 (ix1 r) (ix2 r (0 : Fin 1)) (by
      rw [Shape.rowMajor_val_two, Shape.rowMajor_val_one]
      show r.val * 1 + 0 = r.val
      omega),
    broadcastInDim_apply _ bcast_S_S8192 _ (ix1 r) (fun a => a.elim0) (fun a => a.elim0)]
  rfl

/-- The ten operations after the third kernel region, read as a value. -/
theorem tail_eq (Wv : Valuation τ sig (Elt Ideal)) :
    StableHlo.after (hostOps3 (F := Ideal)) Wv (Proc.devRef .tc main_v10)
      = fun _ => Cert.KoLeo.lossOf (fun r : Fin 8192 => Wv (Proc.devRef .tc main_v3) (ix2 r (0 : Fin 1))) := by
  have e : StableHlo.after (hostOps3 (F := Ideal)) Wv (Proc.devRef .tc main_v10)
      = (Host.negf (Host.divf (Host.reduceAdd (Host.log (addf
          (shapeCast S8192 (Wv (Proc.devRef .tc main_v3) : S8192x1.Idx → EReal) shapeCasts_S8192x1_S8192 : FVec Ideal S8192 .f32)
          (broadcastInDim S8192 ![] bcast_S_S8192 (constant (F := Ideal) S_ .f32 0x322BCC77#32))))
        (constant (F := Ideal) S_ .f32 0x00000000#32) reducesTo_S8192_S_d0 h_S_)
      (constant (F := Ideal) S_ .f32 0x46000000#32)) : FVec Ideal S_ .f32) := by
    after_results; rfl
  exact e.trans (tail_value _)

end Cert.KernelIdeal.Hand

end
-- ==== Proof.RunValues.lean ====
/-
  What the third region finds in its four input arrays, read one element at a time over the extended reals.

  The first two regions leave the normalised matrices and the squared lengths of their rows; the reshaping between
  the second and third regions turns the second matrix's column of squared lengths into a row; nothing else writes
  these arrays, and the two argument matrices are as launched. So at the third region's entry the four arrays are the
  specification's `nrm` and `ssq` of the two launch matrices.
-/
import proofs.«152194_j74887049773256_2_alg».proof.Proof.RunAll
import proofs.«152194_j74887049773256_2_alg».proof.Proof.NormArrays
import proofs.«152194_j74887049773256_2_alg».proof.Proof.KerHost
import proofs.«152194_j74887049773256_2_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The first launch matrix, by coordinates. -/
def Xm (c : Dev nD) : Fin 8192 → Fin 1024 → EReal :=
  fun a k => (m ((c : Thread nD τ).loc main_arg0) : S8192x1024.Idx → Elt Ideal .f32) (ix2 a k)
/-- The second launch matrix, by coordinates. -/
def Ym (c : Dev nD) : Fin 32768 → Fin 1024 → EReal :=
  fun a k => (m ((c : Thread nD τ).loc main_arg1) : S32768x1024.Idx → Elt Ideal .f32) (ix2 a k)

/-- The first region normalises the first launch matrix. -/
theorem X0_launch (c : Dev nD) : X0 (VW0 m ρ) c = Xm m c := rfl

/-- The second region normalises the second launch matrix: the first region does not write it. -/
theorem X1_launch (c : Dev nD) : X1 (VW1 m ρ) c = Ym m c := by
  funext a k
  exact congrFun (W1_of_ne m ρ c main_arg1 (by decide)) (ix2 a k)

/-- The first matrix, normalised, at the third region's entry. -/
theorem W3_v0_0 (c : Dev nD) (r : Fin 8192) (k : Fin 1024) :
    (W3 m ρ c (Proc.devRef .tc main_v0_0) : S8192x1024.Idx → Elt Ideal .bf16) (ix2 r k) = Cert.KoLeo.nrm (Xm m c) r k := by
  have e3 : W3 m ρ c (Proc.devRef .tc main_v0_0) = W2 m ρ c (Proc.devRef .tc main_v0_0) :=
    StableHlo.after_of_writes_sub hostOps2 _ hostOps2_writes (r := main_v0_0) (by decide)
  have e2 : W2 m ρ c (Proc.devRef .tc main_v0_0) = W1 m ρ c (Proc.devRef .tc main_v0_0) := W2_of_ne m ρ c main_v0_0 (by decide)
  have e1 : W1 m ρ c (Proc.devRef .tc main_v0_0) = (ndat0 (VW0 m ρ) c).arrAt 1 cfg0.N := W1_arr m ρ c 1
  refine (congrFun (e3.trans (e2.trans e1)) (ix2 r k)).trans ?_
  refine (narr0A (VW0 m ρ) c r k).trans ?_
  rw [X0_launch]

/-- The squared lengths of its rows, at the third region's entry. -/
theorem W3_v0_1 (c : Dev nD) (r : Fin 8192) (z : Fin 1) :
    (W3 m ρ c (Proc.devRef .tc main_v0_1) : S8192x1.Idx → Elt Ideal .f32) (ix2 r z) = Cert.KoLeo.ssq (Xm m c) r := by
  have e3 : W3 m ρ c (Proc.devRef .tc main_v0_1) = W2 m ρ c (Proc.devRef .tc main_v0_1) :=
    StableHlo.after_of_writes_sub hostOps2 _ hostOps2_writes (r := main_v0_1) (by decide)
  have e2 : W2 m ρ c (Proc.devRef .tc main_v0_1) = W1 m ρ c (Proc.devRef .tc main_v0_1) := W2_of_ne m ρ c main_v0_1 (by decide)
  have e1 : W1 m ρ c (Proc.devRef .tc main_v0_1) = (ndat0 (VW0 m ρ) c).arrAt 2 cfg0.N := W1_arr m ρ c 2
  refine (congrFun (e3.trans (e2.trans e1)) (ix2 r z)).trans ?_
  refine (narr0B (VW0 m ρ) c r z).trans ?_
  rw [X0_launch]

/-- The second matrix, normalised, at the third region's entry. -/
theorem W3_v1_0 (c : Dev nD) (cc : Fin 32768) (k : Fin 1024) :
    (W3 m ρ c (Proc.devRef .tc main_v1_0) : S32768x1024.Idx → Elt Ideal .bf16) (ix2 cc k) = Cert.KoLeo.nrm (Ym m c) cc k := by
  have e3 : W3 m ρ c (Proc.devRef .tc main_v1_0) = W2 m ρ c (Proc.devRef .tc main_v1_0) :=
    StableHlo.after_of_writes_sub hostOps2 _ hostOps2_writes (r := main_v1_0) (by decide)
  have e2 : W2 m ρ c (Proc.devRef .tc main_v1_0) = (ndat1 (VW1 m ρ) c).arrAt 1 cfg1.N := W2_arr m ρ c 1
  refine (congrFun (e3.trans e2) (ix2 cc k)).trans ?_
  refine (narr1A (VW1 m ρ) c cc k).trans ?_
  rw [X1_launch]

/-- The squared lengths of its rows, as a row, at the third region's entry. -/
theorem W3_v2 (c : Dev nD) (z : Fin 1) (cc : Fin 32768) :
    (W3 m ρ c (Proc.devRef .tc main_v2) : S1x32768.Idx → Elt Ideal .f32) (ix2 z cc) = Cert.KoLeo.ssq (Ym m c) cc := by
  refine (resh_eq (W2 m ρ c) cc z).trans ?_
  refine (congrFun (W2_arr m ρ c 2) (ix2 cc z)).trans ?_
  refine (narr1B (VW1 m ρ) c cc z).trans ?_
  rw [X1_launch]

end Cert.KernelIdeal.Hand

end
-- ==== Proof.KerValue.lean ====
/-
  The kernel program's result as a value, at the ideal values.

  The output column of the third region holds, at row `1024 i + p`, what the last point of row tile `i` stored at
  row `p` of its block; the blocks that point and the points before it read are the normalised rows and squared
  lengths the first two regions left; so the stored value is the row's value in the kernel's arrangement, and the
  closing operations turn the column into minus the mean of `log (row + ε)`.
-/
import proofs.«152194_j74887049773256_2_alg».proof.Proof.NNAcc
import proofs.«152194_j74887049773256_2_alg».proof.Proof.NNBlocks
import proofs.«152194_j74887049773256_2_alg».proof.Proof.RunValues
import proofs.«152194_j74887049773256_2_alg».proof.Proof.KerHost

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The output column after the third region, at row `1024 i + p`: the row's value in the kernel's arrangement. -/
theorem ker_out (c : Dev nD) (i : Fin 8) (p : Fin 1024) (z : Fin 1) :
    (W4 m ρ c (Proc.devRef .tc main_v3) : S8192x1.Idx → Elt Ideal .f32) (ix2 ⟨i.val * 1024 + p.val, by omega⟩ z)
      = Cert.KoLeo.rowKer (Xm m c) (Ym m c) ⟨i.val * 1024 + p.val, by omega⟩ := by
  have e : W4 m ρ c (Proc.devRef .tc main_v3) = (nndat (VW3 m ρ) c).arrAt 4 cfg2.N := W4_arr m ρ c 4
  refine (congrFun e _).trans ?_
  refine (nnarr_out (VW3 m ρ) c i p z).trans ?_
  exact out_final (VW3 m ρ) c (Xm m c) (Ym m c)
    (fun i j p k => (bX_apply (VW3 m ρ) c i j p k).trans (W3_v0_0 m ρ c _ k))
    (fun i j p z => (bXs_apply (VW3 m ρ) c i j p z).trans (W3_v0_1 m ρ c _ z))
    (fun i j q k => (bY_apply (VW3 m ρ) c i j q k).trans (W3_v1_0 m ρ c _ k))
    (fun i j q z => (bYs_apply (VW3 m ρ) c i j q z).trans (W3_v2 m ρ c z _))
    i p z

/-- The program's result: minus the mean of `log (row + ε)` over the rows' values in the kernel's arrangement. -/
theorem ker_value (c : Dev nD) :
    W5 m ρ c (Proc.devRef .tc main_v10)
      = fun _ => Cert.KoLeo.lossOf (Cert.KoLeo.rowKer (Xm m c) (Ym m c)) := by
  refine (tail_eq (W4 m ρ c)).trans ?_
  funext x
  refine congrArg Cert.KoLeo.lossOf (funext fun r => ?_)
  obtain ⟨i, p, rfl⟩ : ∃ (i : Fin 8) (p : Fin 1024), r = ⟨i.val * 1024 + p.val, by omega⟩ :=
    ⟨⟨r.val / 1024, by omega⟩, ⟨r.val % 1024, Nat.mod_lt _ (by norm_num)⟩, Fin.ext (by
      show r.val = r.val / 1024 * 1024 + r.val % 1024
      omega)⟩
  exact ker_out m ρ c i p 0

end Cert.KernelIdeal.Hand

end
-- ==== Proof.RefValue.lean ====
/-
  The reference program's result, read at an index, is the nearest-neighbour loss of the specification.

  Row by row: the first argument's entry (r, k) divided by `max (‖row r‖₂) ε` is `nrm X r k`, and likewise for the
  second argument; the row sums of their squares are `ssq`; the contraction of a normalised row of the first with
  the transposed normalised second is `dotp`; so the clamped, rooted matrix at (r, c) is
  `rootClamp ((ssq X r + ssq Y c) - 2 · dotp r c)`. The index matrix of the accumulating scatter holds (k, k) in row k
  (the selection on "k < 0" keeps k, as k < 2¹³ is not negative as a signed word), every update is 1, and update k
  lands on element (k, k): the scattered matrix at (r, c) is the distance plus `if c = diagCol r then 1 else 0`.
  The reduction by `min` from +∞ along the columns is the infimum over the columns, which is `rowRef`; adding ε, the
  logarithm, the sum from 0, the division by 8192 and the negation are `lossOf`.
-/
import proofs.«152194_j74887049773256_2_alg».proof.Proof.Gen.ReferenceIdeal.Read
import proofs.«152194_j74887049773256_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The entry (r, k) of the first normalised matrix. -/
theorem v4_apply (x0 : (⟨S8192x1024, .f32⟩ : BufTy).Contents (Elt Ideal)) (r : Fin 8192) (k : Fin 1024) :
    Read.val_main_v4 (F := Ideal) x0 (ix2 r k) = Cert.KoLeo.nrm (fun a q => x0 (ix2 a q)) r k := by
  rw [Read.val_main_v4_apply, Read.val_main_v3_apply, Read.val_main_v2_apply, Read.val_main_v0_apply,
    Read.val_main_call0_v2_apply, Read.val_main_call0_v1_apply, Read.val_main_v1_apply, Read.val_main_cst_apply,
    Read.val_main_call0_cst_apply]
  simp only [Read.val_main_call0_v0_apply, Ideal.hostDivf_def, Ideal.maximumf_def, Ideal.hostUnary_sqrt_def,
    Ideal.mulf_def, Ideal.ofBits_def, Ideal.ofBits_zero_f32, zero_add]
  unfold Cert.KoLeo.nrm Cert.KoLeo.rowLen Cert.KoLeo.eps
  refine congrArg (Ideal.div _) (congrArg (max · _) (congrArg Ideal.sqrt (Finset.sum_congr rfl fun q _ => ?_)))
  have e : Read.idx_main_call0_v1 (Read.idx_main_call0_v2 (Read.idx_main_v3 (ix2 r k))) q = ix2 r q :=
    funext fun a => Fin.ext (by match a with | ⟨0, _⟩ => rfl | ⟨1, _⟩ => rfl)
  rw [e]

/-- The entry (c, k) of the second normalised matrix. -/
theorem v9_apply (x1 : (⟨S32768x1024, .f32⟩ : BufTy).Contents (Elt Ideal)) (c : Fin 32768) (k : Fin 1024) :
    Read.val_main_v9 (F := Ideal) x1 (ix2 c k) = Cert.KoLeo.nrm (fun b q => x1 (ix2 b q)) c k := by
  rw [Read.val_main_v9_apply, Read.val_main_v8_apply, Read.val_main_v7_apply, Read.val_main_v5_apply,
    Read.val_main_call1_v2_apply, Read.val_main_call1_v1_apply, Read.val_main_v6_apply, Read.val_main_cst_0_apply,
    Read.val_main_call1_cst_apply]
  simp only [Read.val_main_call1_v0_apply, Ideal.hostDivf_def, Ideal.maximumf_def, Ideal.hostUnary_sqrt_def,
    Ideal.mulf_def, Ideal.ofBits_def, Ideal.ofBits_zero_f32, zero_add]
  unfold Cert.KoLeo.nrm Cert.KoLeo.rowLen Cert.KoLeo.eps
  refine congrArg (Ideal.div _) (congrArg (max · _) (congrArg Ideal.sqrt (Finset.sum_congr rfl fun q _ => ?_)))
  have e : Read.idx_main_call1_v1 (Read.idx_main_call1_v2 (Read.idx_main_v8 (ix2 c k))) q = ix2 c q :=
    funext fun a => Fin.ext (by match a with | ⟨0, _⟩ => rfl | ⟨1, _⟩ => rfl)
  rw [e]

/-- The squared length of row r of the first normalised matrix. -/
theorem v11_apply (x0 : (⟨S8192x1024, .f32⟩ : BufTy).Contents (Elt Ideal)) (r : Fin 8192) :
    Read.val_main_v11 (F := Ideal) x0 (ix1 r) = Cert.KoLeo.ssq (fun a q => x0 (ix2 a q)) r := by
  rw [Read.val_main_v11_apply, Read.val_main_cst_1_apply]
  simp only [Read.val_main_v10_apply, Ideal.mulf_def, Ideal.ofBits_def, Ideal.ofBits_zero_f32, zero_add]
  unfold Cert.KoLeo.ssq
  refine Finset.sum_congr rfl fun k _ => ?_
  have e : Read.idx_main_v11 (ix1 r) k = ix2 r k :=
    funext fun a => Fin.ext (by match a with | ⟨0, _⟩ => rfl | ⟨1, _⟩ => rfl)
  rw [e, v4_apply]

/-- The squared length of row c of the second normalised matrix. -/
theorem v14_apply (x1 : (⟨S32768x1024, .f32⟩ : BufTy).Contents (Elt Ideal)) (c : Fin 32768) :
    Read.val_main_v14 (F := Ideal) x1 (ix1 c) = Cert.KoLeo.ssq (fun b q => x1 (ix2 b q)) c := by
  rw [Read.val_main_v14_apply, Read.val_main_cst_2_apply]
  simp only [Read.val_main_v13_apply, Ideal.mulf_def, Ideal.ofBits_def, Ideal.ofBits_zero_f32, zero_add]
  unfold Cert.KoLeo.ssq
  refine Finset.sum_congr rfl fun k _ => ?_
  have e : Read.idx_main_v14 (ix1 c) k = ix2 c k :=
    funext fun a => Fin.ext (by match a with | ⟨0, _⟩ => rfl | ⟨1, _⟩ => rfl)
  rw [e, v9_apply]

/-- The inner product of normalised row r of the first matrix with normalised row c of the second. -/
theorem v20_apply (x0 : (⟨S8192x1024, .f32⟩ : BufTy).Contents (Elt Ideal)) (x1 : (⟨S32768x1024, .f32⟩ : BufTy).Contents (Elt Ideal))
    (r : Fin 8192) (c : Fin 32768) :
    Read.val_main_v20 (F := Ideal) x0 x1 (ix2 r c)
      = Cert.KoLeo.dotp (fun a q => x0 (ix2 a q)) (fun b q => x1 (ix2 b q)) r c := by
  rw [Read.val_main_v20_apply]
  unfold Cert.KoLeo.dotp
  refine Finset.sum_congr rfl fun k _ => ?_
  rw [Read.val_main_v19_apply]
  have el : Read.lidx_main_v20 (ix2 r c) k = ix2 r k :=
    funext fun a => Fin.ext (by match a with | ⟨0, _⟩ => rfl | ⟨1, _⟩ => rfl)
  have er : Read.idx_main_v19 (Read.ridx_main_v20 (ix2 r c) k) = ix2 c k :=
    funext fun a => Fin.ext (by match a with | ⟨0, _⟩ => rfl | ⟨1, _⟩ => rfl)
  rw [el, er, v4_apply, v9_apply]

/-- The sum of the two squared lengths at (r, c). -/
theorem v18_apply (x0 : (⟨S8192x1024, .f32⟩ : BufTy).Contents (Elt Ideal)) (x1 : (⟨S32768x1024, .f32⟩ : BufTy).Contents (Elt Ideal))
    (r : Fin 8192) (c : Fin 32768) :
    Read.val_main_v18 (F := Ideal) x0 x1 (ix2 r c)
      = Cert.KoLeo.ssq (fun a q => x0 (ix2 a q)) r + Cert.KoLeo.ssq (fun b q => x1 (ix2 b q)) c := by
  rw [Read.val_main_v18_apply, Read.val_main_v16_apply, Read.val_main_v12_apply, Read.val_main_v17_apply,
    Read.val_main_v15_apply]
  have e0 : Read.idx_main_v12 (Read.idx_main_v16 (ix2 r c)) = ix1 r :=
    funext fun a => Fin.ext (by match a with | ⟨0, _⟩ => rfl)
  have e1 : Read.idx_main_v15 (Read.idx_main_v17 (ix2 r c)) = ix1 c :=
    funext fun a => Fin.ext (by match a with | ⟨0, _⟩ => rfl)
  rw [e0, e1, v11_apply, v14_apply]
  rfl

/-- The rooted, clamped squared distance at (r, c). -/
theorem v26_apply (x0 : (⟨S8192x1024, .f32⟩ : BufTy).Contents (Elt Ideal)) (x1 : (⟨S32768x1024, .f32⟩ : BufTy).Contents (Elt Ideal))
    (r : Fin 8192) (c : Fin 32768) :
    Read.val_main_v26 (F := Ideal) x0 x1 (ix2 r c)
      = Cert.KoLeo.rootClamp ((Cert.KoLeo.ssq (fun a q => x0 (ix2 a q)) r + Cert.KoLeo.ssq (fun b q => x1 (ix2 b q)) c)
          - Cert.KoLeo.two * Cert.KoLeo.dotp (fun a q => x0 (ix2 a q)) (fun b q => x1 (ix2 b q)) r c) := by
  rw [Read.val_main_v26_apply, Read.val_main_v25_apply, Read.val_main_v23_apply, Read.val_main_v22_apply,
    Read.val_main_v21_apply, Read.val_main_v24_apply, Read.val_main_cst_3_apply, Read.val_main_cst_4_apply,
    v18_apply, v20_apply]
  simp only [Ideal.hostUnary_sqrt_def, Ideal.maximumf_def, Ideal.subf_def, Ideal.mulf_def, Ideal.ofBits_def]
  rfl

/-- A word below 2^13 is not negative as a signed 32-bit integer. -/
theorem toInt_ofNat_small (k : Nat) (hk : k < 8192) : (BitVec.ofNat 32 k).toInt = (k : Int) := by
  rw [BitVec.toInt_eq_toNat_of_lt (by rw [BitVec.toNat_ofNat]; omega), BitVec.toNat_ofNat]
  congr 1; omega

theorem not_slt_zero (k : Nat) (hk : k < 8192) : IntOp.cmpi .slt (BitVec.ofNat 32 k) 0#32 = 0#1 := by
  have h : (BitVec.ofNat 32 k).slt 0#32 = false := by
    rw [BitVec.slt, toInt_ofNat_small k hk]
    simp
  show BitVec.ofBool ((BitVec.ofNat 32 k).slt 0#32) = 0#1
  rw [h]; rfl

/-- The first index column: entry k is k. -/
theorem v32_apply (k : Fin 8192) : Read.val_main_v32 (F := Ideal) (ix1 k) = BitVec.ofNat 32 k.val := by
  rw [Read.val_main_v32_apply, Read.val_main_v29_apply, Read.val_main_v27_apply, Read.val_main_v28_apply,
    Read.val_main_c_apply]
  show Scalar.select (IntOp.cmpi .slt (BitVec.ofNat 32 k.val) 0#32) _ _ = _
  rw [not_slt_zero _ k.isLt, select_zero]

/-- The second index column: entry k is k. -/
theorem v37_apply (k : Fin 8192) : Read.val_main_v37 (F := Ideal) (ix1 k) = BitVec.ofNat 32 k.val := by
  rw [Read.val_main_v37_apply, Read.val_main_v34_apply, Read.val_main_v27_apply, Read.val_main_v33_apply,
    Read.val_main_c_6_apply]
  show Scalar.select (IntOp.cmpi .slt (BitVec.ofNat 32 k.val) 0#32) _ _ = _
  rw [not_slt_zero _ k.isLt, select_zero]

/-- The index matrix at (k, 0) is k. -/
theorem v40_apply0 (k : Fin 8192) : Read.val_main_v40 (F := Ideal) (ix2 k (0 : Fin 2)) = BitVec.ofNat 32 k.val := by
  unfold Read.val_main_v40
  rw [concatenate_pair_apply_left (1 : Fin S8192x2.rank) _ _ concatenates_S8192x1_S8192x1_S8192x2_d1 (ix2 k (0 : Fin 2)) rfl
    (ix2 k (0 : Fin 1)) (fun b => by match b with | ⟨0, _⟩ => rfl | ⟨1, _⟩ => rfl)]
  rw [Read.val_main_v38_apply]
  have e : Read.idx_main_v38 (ix2 k (0 : Fin 1)) = ix1 k := funext fun a => Fin.ext (by match a with | ⟨0, _⟩ => rfl)
  rw [e, v32_apply]

/-- The index matrix at (k, 1) is k. -/
theorem v40_apply1 (k : Fin 8192) : Read.val_main_v40 (F := Ideal) (ix2 k (1 : Fin 2)) = BitVec.ofNat 32 k.val := by
  unfold Read.val_main_v40
  rw [concatenate_pair_apply_right (1 : Fin S8192x2.rank) _ _ concatenates_S8192x1_S8192x1_S8192x2_d1 (ix2 k (1 : Fin 2)) rfl rfl
    (ix2 k (0 : Fin 1)) (fun b hb => by match b, hb with | ⟨0, _⟩, _ => rfl | ⟨1, _⟩, hb => exact absurd rfl hb) rfl]
  rw [Read.val_main_v39_apply]
  have e : Read.idx_main_v39 (ix2 k (0 : Fin 1)) = ix1 k := funext fun a => Fin.ext (by match a with | ⟨0, _⟩ => rfl)
  rw [e, v37_apply]

/-- The scatter's dimension numbers, under a short name. -/
abbrev sd : ScatterDims S8192x32768 S8192x2 S8192 := scatter_S8192x32768_S8192x2_S8192_n_01_01_1

/-- Every operand axis is an inserted one: the window coordinate is zero. -/
theorem sd_window (j : S8192.Idx) (a : Fin S8192x32768.rank) : sd.window j a = 0 := by
  unfold ScatterDims.window
  have hk : ∀ b : Fin S8192x32768.rank, b ∉ sd.sKept := by decide
  rw [dif_neg (hk a)]

/-- The start on operand axis 0 is the index matrix at (k, 0), read signed. -/
theorem sd_start0 (idx : IVec S8192x2 32) (k : Fin 8192) :
    sd.start (ix1 k) idx (0 : Fin S8192x32768.rank) = (idx (ix2 k (0 : Fin 2))).toInt := by
  unfold ScatterDims.start
  rw [dif_pos (show (0 : Fin S8192x32768.rank) ∈ sd.scatterDimsToOperandDims by decide)]
  refine congrArg (fun i => (idx i).toInt) ?_
  funext b; refine Fin.ext ?_
  match b with
  | ⟨0, _⟩ => rfl
  | ⟨1, _⟩ => rfl

/-- The start on operand axis 1 is the index matrix at (k, 1), read signed. -/
theorem sd_start1 (idx : IVec S8192x2 32) (k : Fin 8192) :
    sd.start (ix1 k) idx (1 : Fin S8192x32768.rank) = (idx (ix2 k (1 : Fin 2))).toInt := by
  unfold ScatterDims.start
  rw [dif_pos (show (1 : Fin S8192x32768.rank) ∈ sd.scatterDimsToOperandDims by decide)]
  refine congrArg (fun i => (idx i).toInt) ?_
  funext b; refine Fin.ext ?_
  match b with
  | ⟨0, _⟩ => rfl
  | ⟨1, _⟩ => rfl

/-- Update k lands on the diagonal element (k, k). -/
theorem sd_resultIdx (idx : IVec S8192x2 32) (k : Fin 8192)
    (h0 : idx (ix2 k (0 : Fin 2)) = BitVec.ofNat 32 k.val) (h1 : idx (ix2 k (1 : Fin 2)) = BitVec.ofNat 32 k.val) :
    sd.resultIdx? (ix1 k) idx = some (ix2 k (Cert.KoLeo.diagCol k)) := by
  have hs : ∀ a, sd.start (ix1 k) idx a + sd.window (ix1 k) a = (k.val : Int) := fun a => by
    rw [sd_window, Nat.cast_zero, add_zero]
    match a with
    | ⟨0, _⟩ => exact (sd_start0 idx k).trans (by rw [h0, toInt_ofNat_small _ k.isLt])
    | ⟨1, _⟩ => exact (sd_start1 idx k).trans (by rw [h1, toInt_ofNat_small _ k.isLt])
  unfold ScatterDims.resultIdx?
  rw [dif_pos (fun a => by
    rw [hs a]
    refine ⟨by omega, ?_⟩
    match a with
    | ⟨0, _⟩ => have := k.isLt; show (k.val : Int) < 8192; omega
    | ⟨1, _⟩ => have := k.isLt; show (k.val : Int) < 32768; omega)]
  refine congrArg some (funext fun a => Fin.ext ?_)
  show (sd.start (ix1 k) idx a + sd.window (ix1 k) a).toNat = _
  rw [hs a]
  match a with
  | ⟨0, _⟩ => rfl
  | ⟨1, _⟩ => rfl

/-- The scattered matrix at (r, c): the rooted distance, plus one on the diagonal. -/
theorem v42_apply (x0 : (⟨S8192x1024, .f32⟩ : BufTy).Contents (Elt Ideal)) (x1 : (⟨S32768x1024, .f32⟩ : BufTy).Contents (Elt Ideal))
    (r : Fin 8192) (c : Fin 32768) :
    Read.val_main_v42 (F := Ideal) x0 x1 (ix2 r c)
      = Read.val_main_v26 (F := Ideal) x0 x1 (ix2 r c) + (if c = Cert.KoLeo.diagCol r then Cert.KoLeo.one else 0) := by
  unfold Read.val_main_v42
  generalize Read.val_main_v26 (F := Ideal) x0 x1 = y
  simp only [Host.scatterAdd, Ideal.hostScatterAdd_def]
  unfold Ideal.hostScatterAdd
  refine congrArg (y (ix2 r c) + ·) ?_
  have hP : ∀ k : Fin 8192, sd.resultIdx? (ix1 k) (Read.val_main_v40 (F := Ideal)) = some (ix2 r c)
      → k = r ∧ c = Cert.KoLeo.diagCol r := fun k h => by
    rw [sd_resultIdx _ k (v40_apply0 k) (v40_apply1 k)] at h
    have h2 := Option.some.inj h
    have h3 : k = r := Fin.ext (congrArg (fun i : S8192x32768.Idx => (i ⟨0, by decide⟩).val) h2)
    have h4 : Cert.KoLeo.diagCol k = c := Fin.ext (congrArg (fun i : S8192x32768.Idx => (i ⟨1, by decide⟩).val) h2)
    exact ⟨h3, by rw [← h4, h3]⟩
  have hupd : ∀ j : S8192.Idx, Read.val_main_v41 (F := Ideal) j = Cert.KoLeo.one := fun j => by
    rw [Read.val_main_v41_apply, Read.val_main_cst_8_apply]; rfl
  rw [Finset.sum_filter]
  by_cases hc : c = Cert.KoLeo.diagCol r
  · rw [if_pos hc, Finset.sum_eq_single (ix1 r)]
    · rw [if_pos (by rw [sd_resultIdx _ r (v40_apply0 r) (v40_apply1 r), hc]), hupd]
    · intro j _ hj
      obtain ⟨k, rfl⟩ : ∃ k : Fin 8192, j = ix1 k := ⟨j 0, eq_ix1 j⟩
      exact if_neg fun h => hj (congrArg (ix1 (n := 8192)) (hP k h).1)
    · intro h; exact absurd (Finset.mem_univ _) h
  · rw [if_neg hc]
    refine Finset.sum_eq_zero fun j _ => ?_
    obtain ⟨k, rfl⟩ : ∃ k : Fin 8192, j = ix1 k := ⟨j 0, eq_ix1 j⟩
    exact if_neg fun h => hc (hP k h).2

/-- From the top element, a fold of `min` over a finite set is the infimum. -/
theorem fold_min_top {ι : Type} (s : Finset ι) (f : ι → EReal) : s.fold min ⊤ f = s.inf f := by
  classical
  induction s using Finset.induction_on with
  | empty => rfl
  | insert a s ha ih =>
    rw [Finset.fold_insert ha, Finset.inf_insert, ih]

/-- The reduced index r with column c put back is (r, c). -/
theorem lift_ix2 (h : S8192x32768.Reduces [1] S8192) (r : Fin 8192) (c : Fin 32768) :
    h.lift (ix1 r) c = ix2 r c := by
  funext a; apply Fin.ext
  fin_cases a <;> rfl

/-- The row minimum at r is the infimum over the columns. -/
theorem v43_apply (x0 : (⟨S8192x1024, .f32⟩ : BufTy).Contents (Elt Ideal)) (x1 : (⟨S32768x1024, .f32⟩ : BufTy).Contents (Elt Ideal))
    (r : Fin 8192) :
    Read.val_main_v43 (F := Ideal) x0 x1 (ix1 r)
      = Finset.univ.inf fun c : Fin 32768 => (Read.val_main_v42 (F := Ideal) x0 x1 (ix2 r c) : EReal) := by
  unfold Read.val_main_v43
  generalize Read.val_main_v42 (F := Ideal) x0 x1 = y
  have hr : S8192x32768.Reduces [1] S8192 :=
    ⟨reducesTo_S8192x32768_S8192_d1.1, Nat.one_pos, reducesTo_S8192x32768_S8192_d1.2⟩
  refine (Host.reduce_eq_fold_single (FloatOps.minimumf (F := Ideal) (φ := .f32)) y _ reducesTo_S8192x32768_S8192_d1 hr h_S_
    (ix1 r)).trans ?_
  have hf : (y ∘ hr.lift (ix1 r)) = fun c : Fin 32768 => y (ix2 r c) := funext fun c => congrArg y (lift_ix2 hr r c)
  have hb : Read.val_main_cst_9 (F := Ideal) (Shape.Idx.first h_S_) = (⊤ : EReal) := by
    rw [Read.val_main_cst_9_apply]; simp [Ideal.ofBits, Ideal.ieee]
  refine Eq.trans ?_ (fold_min_top Finset.univ fun c : Fin 32768 => (y (ix2 r c) : EReal))
  rw [hb]
  exact congrArg (fun f => Finset.fold (min : EReal → EReal → EReal) ⊤ f (Finset.univ : Finset (Fin 32768))) hf

theorem rows_eq (x0 : (⟨S8192x1024, .f32⟩ : BufTy).Contents (Elt Ideal)) (x1 : (⟨S32768x1024, .f32⟩ : BufTy).Contents (Elt Ideal))
    (r : Fin 8192) :
    Read.val_main_v43 (F := Ideal) x0 x1 (ix1 r)
      = Cert.KoLeo.rowRef (fun a k => x0 (ix2 a k)) (fun b k => x1 (ix2 b k)) r := by
  rw [v43_apply]
  unfold Cert.KoLeo.rowRef
  refine congrArg (Finset.inf Finset.univ) (funext fun c => ?_)
  rw [v42_apply, v26_apply]

/-- A sum over a rank-1 index set is the sum over its coordinate. -/
theorem sum_idx1 {M : Type} [AddCommMonoid M] {n : Nat} (f : (⟨1, ![n]⟩ : Shape).Idx → M) :
    ∑ j, f j = ∑ a : Fin n, f (ix1 a) := by
  let e : (⟨1, ![n]⟩ : Shape).Idx ≃ Fin n :=
    { toFun := fun j => j 0, invFun := ix1, left_inv := fun j => (eq_ix1 j).symm, right_inv := fun _ => rfl }
  rw [← Equiv.sum_comp e.symm f]
  rfl

theorem result_eq (x0 : (⟨S8192x1024, .f32⟩ : BufTy).Contents (Elt Ideal)) (x1 : (⟨S32768x1024, .f32⟩ : BufTy).Contents (Elt Ideal)) :
    Read.val_main_v49 (F := Ideal) x0 x1
      = fun _ => Cert.KoLeo.lossOf (Cert.KoLeo.rowRef (fun a k => x0 (ix2 a k)) (fun b k => x1 (ix2 b k))) := by
  funext i
  rw [Read.val_main_v49_apply, Read.val_main_v48_apply, Read.val_main_v47_apply, Read.val_main_cst_12_apply,
    Read.val_main_cst_11_apply]
  simp only [Ideal.hostNegf_def, Ideal.negf_def, Ideal.hostDivf_def, Ideal.ofBits_def]
  unfold Cert.KoLeo.lossOf Cert.KoLeo.zero Cert.KoLeo.nRows
  refine congrArg (fun s => -(Ideal.div (Ideal.ofBits .f32 0x00000000#32 + s) (Ideal.ofBits .f32 0x46000000#32))) ?_
  rw [sum_idx1]
  refine Finset.sum_congr rfl fun r _ => ?_
  rw [Read.val_main_v46_apply, Read.val_main_v45_apply, Read.val_main_v44_apply, Read.val_main_cst_10_apply, rows_eq]
  simp only [Ideal.hostUnary_log_def, Ideal.addf_def, Ideal.ofBits_def]
  rfl

end Cert.ReferenceIdeal.RefValue

end
-- ==== Proof.RowLaw.lean ====
/-
  The two arrangements of a row's nearest-neighbour distance agree on the extended reals.

  The root (with its clamp at zero) and `a + ·` are monotone, so they commute with an infimum over a
  NONEMPTY finite set; the set of all columns is the diagonal column together with the (nonempty) rest; off the
  diagonal the added penalty is `0`; and `(a + b) - t = a + (b - t)` is associativity of `+`, because on the
  extended reals `x - t` is `x + (-t)`. Nothing is assumed finite.
-/
import proofs.«152194_j74887049773256_2_alg».proof.Proof.Spec

noncomputable section

open scoped BigOperators

namespace Cert.KoLeo

open Idealize.ShloMosaic

/-- The root is monotone on the extended reals: `⊥` and the negative reals go to `⊥`, a real `r ≥ 0` to `√r`,
    and `⊤` to `⊤`. -/
theorem sqrt_mono : Monotone Ideal.sqrt := by
  intro x y h
  induction x with
  | bot => simp
  | top =>
    have hy : y = ⊤ := top_le_iff.mp h
    subst hy
    exact le_rfl
  | coe a =>
    induction y with
    | bot => exact absurd h (by simp)
    | top => simp
    | coe b =>
      have hab : a ≤ b := EReal.coe_le_coe_iff.mp h
      simp only [Ideal.sqrt_coe]
      split_ifs with ha hb hb
      · exact le_rfl
      · exact bot_le
      · exact absurd (lt_of_le_of_lt hab hb) ha
      · exact EReal.coe_le_coe_iff.mpr (Real.sqrt_le_sqrt hab)

/-- Clamping at zero and then taking the root is monotone. -/
theorem rootClamp_mono : Monotone rootClamp :=
  fun _ _ h => sqrt_mono (max_le_max h le_rfl)

/-- `(a + b) - t = a + (b - t)`: subtraction is addition of the negative, and `+` is associative. -/
theorem add_sub_assoc' (a b t : EReal) : (a + b) - t = a + (b - t) := by
  rw [sub_eq_add_neg, sub_eq_add_neg, add_assoc]

/-- A monotone map commutes with the infimum over a nonempty finite set. -/
theorem mono_inf_comm {ι : Type} (S : Finset ι) (hS : S.Nonempty) (g : EReal → EReal) (hg : Monotone g)
    (f : ι → EReal) : S.inf (fun c => g (f c)) = g (S.inf f) := by
  refine le_antisymm ?_ (Finset.le_inf fun c hc => hg (Finset.inf_le hc))
  -- the infimum of `f` over a nonempty finite set is attained
  obtain ⟨i, hi, hfi⟩ := Finset.exists_mem_eq_inf S hS f
  rw [hfi]
  exact Finset.inf_le (f := fun c => g (f c)) hi

theorem rowRef_eq_rowKer (X : Fin 8192 → Fin 1024 → EReal) (Y : Fin 32768 → Fin 1024 → EReal) (r : Fin 8192) :
    rowRef X Y r = rowKer X Y r := by
  unfold rowRef rowKer
  -- the columns are the diagonal one and the rest, and the rest is not empty
  have huniv : (Finset.univ : Finset (Fin 32768)) =
      insert (diagCol r) (Finset.univ.filter fun c : Fin 32768 => c ≠ diagCol r) := by
    ext c
    by_cases hc : c = diagCol r <;> simp [hc]
  have hS : (Finset.univ.filter fun c : Fin 32768 => c ≠ diagCol r).Nonempty := by
    refine ⟨⟨(r.val + 1) % 32768, Nat.mod_lt _ (by omega)⟩, ?_⟩
    simp only [Finset.mem_filter, Finset.mem_univ, true_and]
    intro h
    have h' := congrArg Fin.val h
    simp only [diagCol] at h'
    omega
  have hmono : Monotone (fun x : EReal => rootClamp (ssq X r + x)) :=
    fun _ _ h => rootClamp_mono (add_le_add le_rfl h)
  rw [← mono_inf_comm _ hS (fun x : EReal => rootClamp (ssq X r + x)) hmono (colPart X Y r), inf_comm]
  conv_lhs => rw [huniv, Finset.inf_insert]
  refine congrArg₂ min ?_ ?_
  · -- the diagonal column carries the penalty
    rw [if_pos rfl, add_sub_assoc']
    rfl
  · -- off the diagonal the penalty is `0`
    refine Finset.inf_congr rfl fun c hc => ?_
    have hne : c ≠ diagCol r := (Finset.mem_filter.mp hc).2
    rw [if_neg hne, add_zero, add_sub_assoc']
    rfl

end Cert.KoLeo

end
-- ==== Proof.lean ====
/-
  The certificate of the nearest-neighbour loss kernel against its reference.

  The kernel program runs three regions: the rows of `student_output` are normalised (and their squared lengths
  recorded), likewise the rows of `memory_bank`, and then, tile by tile, the running minimum over the off-diagonal
  columns of `ssq Y c - 2 · ⟨x_r, y_c⟩` and the diagonal entry are accumulated and finalized to
  `min (√max(ssq X r + min, 0)) (√max(ssq X r + diag, 0) + 1)`; the host then takes minus the mean of the logarithms.
  The reference computes the whole distance matrix, adds 1 on the diagonal, and takes row minima.

  * The three frames: each program terminates, faults nowhere and leaves its two arguments as launched. For the two
    kernel programs this is the run of the three regions and two host stretches read at the argument buffers
    (the same argument at the word level and on the extended reals); for the reference it is its run.
  * The idealization removed four bf16 round trips in the normalize bodies: on the extended reals a change of
    format is the identity.
  * On the extended reals both results are `lossOf` of one row function: the reference's arrangement `rowRef` and
    the kernel's `rowKer` agree (monotone maps commute with a nonempty infimum; `+` is associative), with no
    finiteness assumption, so the precondition is never opened.
-/
import proofs.«152194_j74887049773256_2_alg».proof.Defs
import proofs.«152194_j74887049773256_2_alg».proof.Proof.Gen.Kernel
import proofs.«152194_j74887049773256_2_alg».proof.Proof.Gen.KernelIdeal
import proofs.«152194_j74887049773256_2_alg».proof.Proof.Gen.ReferenceIdeal
import proofs.«152194_j74887049773256_2_alg».proof.Proof.Gen.ReferenceIdeal.Run
import proofs.«152194_j74887049773256_2_alg».proof.Proof.Gen.ReferenceIdeal.Read
import proofs.«152194_j74887049773256_2_alg».proof.Proof.Gen.Pre_finite_inputs
import proofs.«152194_j74887049773256_2_alg».proof.Proof.RunAllBits
import proofs.«152194_j74887049773256_2_alg».proof.Proof.KerValue
import proofs.«152194_j74887049773256_2_alg».proof.Proof.RefValue
import proofs.«152194_j74887049773256_2_alg».proof.Proof.RowLaw

noncomputable section

namespace Cert.Proof

open Idealize.ShloMosaic Idealize.ShloMosaic.TcCoe Idealize.SL.Sem Idealize.ShloMosaic.ValueIdx

/-- The word-level program: the run of its regions and host stretches, read at the two argument buffers. -/
theorem frame_p : Cert.frame_Kernel := fun m ρ _ =>
  (θ_run Cert.Kernel.defs _ _).mono (fun r h c =>
      ⟨(h c _ (Cert.Kernel.Hand.mem_uc Cert.Kernel.main_arg0 (by decide))).trans (Cert.Kernel.Hand.W5_main_arg0 m ρ c),
       (h c _ (Cert.Kernel.Hand.mem_uc Cert.Kernel.main_arg1 (by decide))).trans (Cert.Kernel.Hand.W5_main_arg1 m ρ c)⟩)
    (Cert.Kernel.Hand.run_all (F := Bits) m ρ)

/-- The idealized program: the same run on the extended reals. -/
theorem frame_pi : Cert.frame_KernelIdeal := fun m ρ _ =>
  (θ_run Cert.KernelIdeal.defs _ _).mono (fun r h c =>
      ⟨(h c _ (Cert.KernelIdeal.Hand.mem_uc Cert.KernelIdeal.main_arg0 (by decide))).trans (Cert.KernelIdeal.Hand.W5_main_arg0 m ρ c),
       (h c _ (Cert.KernelIdeal.Hand.mem_uc Cert.KernelIdeal.main_arg1 (by decide))).trans (Cert.KernelIdeal.Hand.W5_main_arg1 m ρ c)⟩)
    (Cert.KernelIdeal.Hand.run_all (F := Ideal) m ρ)

/-- The reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The four removed bf16 round trips: a change of float format is the identity on the extended reals. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16⟩

/-- Both programs end at `lossOf` of one row function of the arguments. -/
theorem algebraic : Cert.algebraic_KernelIdeal_ReferenceIdeal := by
  intro m ρ m' ρ' _ hagree
  refine ⟨fun c => fun _ => Cert.KoLeo.lossOf (Cert.KoLeo.rowKer (Cert.KernelIdeal.Hand.Xm m c) (Cert.KernelIdeal.Hand.Ym m c)), ?_, ?_⟩
  · exact (θ_run Cert.KernelIdeal.defs _ _).mono (fun r h c =>
      ⟨(h c _ (Cert.KernelIdeal.Hand.mem_uc Cert.KernelIdeal.main_v10 (by decide))).trans (Cert.KernelIdeal.Hand.ker_value m ρ c),
       (h c _ (Cert.KernelIdeal.Hand.mem_uc Cert.KernelIdeal.main_arg0 (by decide))).trans (Cert.KernelIdeal.Hand.W5_main_arg0 m ρ c),
       (h c _ (Cert.KernelIdeal.Hand.mem_uc Cert.KernelIdeal.main_arg1 (by decide))).trans (Cert.KernelIdeal.Hand.W5_main_arg1 m ρ c)⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v49_eq, Cert.ReferenceIdeal.RefValue.result_eq, (hagree c).1, (hagree c).2]
    exact congrArg (fun f => fun _ => Cert.KoLeo.lossOf f) (funext fun r => Cert.KoLeo.rowRef_eq_rowKer _ _ r)

end Cert.Proof

namespace Cert.Proof

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
